-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v151)) (v1 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_v150) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S7x50000x128 : Shape := ⟨3, ![7, 50000, 128]⟩
abbrev S800000 : Shape := ⟨1, ![800000]⟩
abbrev S128x256 : Shape := ⟨2, ![128, 256]⟩
abbrev S256 : Shape := ⟨1, ![256]⟩
abbrev S512x256 : Shape := ⟨2, ![512, 256]⟩
abbrev S256x256 : Shape := ⟨2, ![256, 256]⟩
abbrev S2 : Shape := ⟨1, ![2]⟩
abbrev S512x40 : Shape := ⟨2, ![512, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S7x50000x128 : S_.BroadcastsInDim S7x50000x128 (![] : Fin 0 → Fin S7x50000x128.rank)
  reducesTo_S7x50000x128_S_d0_1_2 : S7x50000x128.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S2 : S_.BroadcastsInDim S2 (![] : Fin 0 → Fin S2.rank)
  reducesTo_S2_S_d0 : S2.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg16 : FVec F S2 .f32) (main_arg17 : FVec F S512x40 .f32) (main_arg18 : FVec F S40 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S512x40 .f32 := Host.absf main_arg17
  let main_cst_28 : FVec F S_ .f32 := constant S_ .f32 0x7F800000#32
  let main_v75 : FVec F S512x40 .f32 := broadcastInDim S512x40 ![] bcast_S_S512x40 main_cst_28
  let main_v76 : IVec S512x40 1 := cmpf .olt main_v74 main_v75
  let main_c_29 : IVec S_ 1 := constantI S_ 1 1#1
  let main_v77 : IVec S_ 1 := (fun x v => Host.reduce IntOp.andi x v reducesTo_S512x40_S_d0_1 h_S_) main_v76 main_c_29
  let main_v78 : IVec S_ 1 := andi main_v73 main_v77
  let main_v79 : FVec F S40 .f32 := Host.absf main_arg18
  let main_cst_30 : FVec F S_ .f32 := constant S_ .f32 0x7F800000#32
  let main_v80 : FVec F S40 .f32 := broadcastInDim S40 ![] bcast_S_S40 main_cst_30
  let main_v81 : IVec S40 1 := cmpf .olt main_v79 main_v80
  let main_c_31 : IVec S_ 1 := constantI S_ 1 1#1
  let main_v82 : IVec S_ 1 := (fun x v => Host.reduce IntOp.andi x v reducesTo_S40_S_d0 h_S_) main_v81 main_c_31
  let main_v83 : IVec S_ 1 := andi main_v78 main_v82
  main_v83

def fn_part3 {F : FTy → Type} [FloatOps F] (main_arg13 : FVec F S256 .f32) (main_arg14 : FVec F S512x256 .f32) (main_arg15 : FVec F S256 .f32) (main_arg16 : FVec F S2 .f32) (main_arg17 : FVec F S512x40 .f32) (main_arg18 : FVec F S40 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S512x256 .f32 := Host.absf main_arg14
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_v63 main_v67

def fn_part2 {F : FTy → Type} [FloatOps F] (main_arg9 : FVec F S256 .f32) (main_arg10 : FVec F S128x256 .f32) (main_arg11 : FVec F S256 .f32) (main_arg12 : FVec F S256x256 .f32) (main_arg13 : FVec F S256 .f32) (main_arg14 : FVec F S512x256 .f32) (main_arg15 : FVec F S256 .f32) (main_arg16 : FVec F S2 .f32) (main_arg17 : FVec F S512x40 .f32) (main_arg18 : FVec F S40 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_v48 main_v49 main_v50

def fn_part1 {F : FTy → Type} [FloatOps F] (main_arg6 : FVec F S512x256 .f32) (main_arg7 : FVec F S256 .f32) (main_arg8 : FVec F S512x256 .f32) (main_arg9 : FVec F S256 .f32) (main_arg10 : FVec F S128x256 .f32) (main_arg11 : FVec F S256 .f32) (main_arg12 : FVec F S256x256 .f32) (main_arg13 : FVec F S256 .f32) (main_arg14 : FVec F S512x256 .f32) (main_arg15 : FVec F S256 .f32) (main_arg16 : FVec F S2 .f32) (main_arg17 : FVec F S512x40 .f32) (main_arg18 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg8
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : FVec F S7x50000x128 .f32) (main_arg2 : IVec S800000 32) (main_arg3 : IVec S800000 32) (main_arg4 : FVec F S128x256 .f32) (main_arg5 : FVec F S256 .f32) (main_arg6 : FVec F S512x256 .f32) (main_arg7 : FVec F S256 .f32) (main_arg8 : FVec F S512x256 .f32) (main_arg9 : FVec F S256 .f32) (main_arg10 : FVec F S128x256 .f32) (main_arg11 : FVec F S256 .f32) (main_arg12 : FVec F S256x256 .f32) (main_arg13 : FVec F S256 .f32) (main_arg14 : FVec F S512x256 .f32) (main_arg15 : FVec F S256 .f32) (main_arg16 : FVec F S2 .f32) (main_arg17 : FVec F S512x40 .f32) (main_arg18 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S7x50000x128 .f32 := Host.absf main_arg1
  let main_cst_0 : FVec F S_ .f32 := constant S_ .f32 0x7F800000#32
  let main_v5 : FVec F S7x50000x128 .f32 := broadcastInDim S7x50000x128 ![] bcast_S_S7x50000x128 main_cst_0
  let main_v6 : IVec S7x50000x128 1 := cmpf .olt main_v4 main_v5
  let main_c_1 : IVec S_ 1 := constantI S_ 1 1#1
  let main_v7 : IVec S_ 1 := (fun x v => Host.reduce IntOp.andi x v reducesTo_S7x50000x128_S_d0_1_2 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S7x50000x128 : Shape := ⟨3, ![7, 50000, 128]⟩
abbrev S800000 : Shape := ⟨1, ![800000]⟩
abbrev S128x256 : Shape := ⟨2, ![128, 256]⟩
abbrev S256 : Shape := ⟨1, ![256]⟩
abbrev S512x256 : Shape := ⟨2, ![512, 256]⟩
abbrev S256x256 : Shape := ⟨2, ![256, 256]⟩
abbrev S2 : Shape := ⟨1, ![2]⟩
abbrev S512x40 : Shape := ⟨2, ![512, 40]⟩
abbrev S40 : Shape := ⟨1, ![40]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x50000x128 : Shape := ⟨3, ![1, 50000, 128]⟩
abbrev S50000x512 : Shape := ⟨2, ![50000, 512]⟩
abbrev S2000x512 : Shape := ⟨2, ![2000, 512]⟩
abbrev S1 : Shape := ⟨1, ![1]⟩
abbrev S1x40 : Shape := ⟨2, ![1, 40]⟩
abbrev S50000x40 : Shape := ⟨2, ![50000, 40]⟩
abbrev S2000x40 : Shape := ⟨2, ![2000, 40]⟩
abbrev S850000x40 : Shape := ⟨2, ![850000, 40]⟩
abbrev S50000x1 : Shape := ⟨2, ![50000, 1]⟩

abbrev nBuf : Space → Nat
  | .hbm => 213
  | .vmem => 42
  | .smem => 0
  | _ => 0

abbrev hbmTy0_0 (i : Nat) : BufTy := match i % 128 with
  | 0 => ⟨S50000x128, .f32⟩
  | 1 => ⟨S7x50000x128, .f32⟩
  | 2 => ⟨S800000, .i32⟩
  | 3 => ⟨S800000, .i32⟩
  | 4 => ⟨S128x256, .f32⟩
  | 5 => ⟨S256, .f32⟩
  | 6 => ⟨S512x256, .f32⟩
  | 7 => ⟨S256, .f32⟩
  | 8 => ⟨S512x256, .f32⟩
  | 9 => ⟨S256, .f32⟩
  | 10 => ⟨S128x256, .f32⟩
  | 11 => ⟨S256, .f32⟩
  | 12 => ⟨S256x256, .f32⟩
  | 13 => ⟨S256, .f32⟩
  | 14 => ⟨S512x256, .f32⟩
  | 15 => ⟨S256, .f32⟩
  | 16 => ⟨S2, .f32⟩
  | 17 => ⟨S512x40, .f32⟩
  | 18 => ⟨S40, .f32⟩
  | 19 => ⟨S50000, .i32⟩
  | 20 => ⟨S850000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S850000x1, .f32⟩
  | 49 => ⟨S_, .f32⟩
  | 50 => ⟨S1x256, .f32⟩
  | 51 => ⟨S128x256, .bf16⟩
  | 52 => ⟨S50000x256, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x256, .f32⟩
  | 62 => ⟨S850000x256, .f32⟩
  | 63 => ⟨S850000x256, .f32⟩
  | 64 => ⟨S_, .f32⟩
  | 65 => ⟨S50000x256, .f32⟩
  | 66 => ⟨S850000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S1x50000x128, .f32⟩
  | 75 => ⟨S50000x128, .f32⟩
  | 76 => ⟨S1x256, .f32⟩
  | 77 => ⟨S128x256, .bf16⟩
  | 78 => ⟨S50000x256, .f32⟩
  | 79 => ⟨S50000x512, .f32⟩
  | 80 => ⟨S_, .f32⟩
  | 81 => ⟨S1x256, .f32⟩
  | 82 => ⟨S512x256, .bf16⟩
  | 83 => ⟨S50000x256, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x256, .f32⟩
  | 93 => ⟨S850000x256, .f32⟩
  | 94 => ⟨S850000x256, .f32⟩
  | 95 => ⟨S_, .f32⟩
  | 96 => ⟨S50000x256, .f32⟩
  | 97 => ⟨S850000x1, .i32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S1x50000x128, .f32⟩
  | 106 => ⟨S50000x128, .f32⟩
  | 107 => ⟨S1x50000x128, .f32⟩
  | 108 => ⟨S50000x128, .f32⟩
  | 109 => ⟨S1, .f32⟩
  | 110 => ⟨S_, .f32⟩
  | 111 => ⟨S50000x128, .f32⟩
  | 112 => ⟨S50000x128, .f32⟩
  | 113 => ⟨S1, .f32⟩
  | 114 => ⟨S_, .f32⟩
  | 115 => ⟨S50000x128, .f32⟩
  | 116 => ⟨S50000x128, .f32⟩
  | 117 => ⟨S50000x256, .f32⟩
  | 118 => ⟨S1x256, .f32⟩
  | 119 => ⟨S256x256, .bf16⟩
  | 120 => ⟨S50000x256, .f32⟩
  | 121 => ⟨S50000x512, .f32⟩
  | 122 => ⟨S_, .f32⟩
  | 123 => ⟨S1x256, .f32⟩
  | 124 => ⟨S512x256, .bf16⟩
  | 125 => ⟨S50000x256, .f32⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x256, .f32⟩
  | 7 => ⟨S850000x256, .f32⟩
  | 8 => ⟨S850000x256, .f32⟩
  | 9 => ⟨S_, .f32⟩
  | 10 => ⟨S50000x256, .f32⟩
  | 11 => ⟨S850000x1, .i32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S50000x256, .f32⟩
  | 18 => ⟨S50000x256, .f32⟩
  | 19 => ⟨S1x50000x128, .f32⟩
  | 20 => ⟨S50000x128, .f32⟩
  | 21 => ⟨S1x50000x128, .f32⟩
  | 22 => ⟨S50000x128, .f32⟩
  | 23 => ⟨S1x50000x128, .f32⟩
  | 24 => ⟨S50000x128, .f32⟩
  | 25 => ⟨S1x50000x128, .f32⟩
  | 26 => ⟨S50000x128, .f32⟩
  | 27 => ⟨S1, .f32⟩
  | 28 => ⟨S_, .f32⟩
  | 29 => ⟨S50000x128, .f32⟩
  | 30 => ⟨S50000x128, .f32⟩
  | 31 => ⟨S1, .f32⟩
  | 32 => ⟨S_, .f32⟩
  | 33 => ⟨S50000x128, .f32⟩
  | 34 => ⟨S50000x128, .f32⟩
  | 35 => ⟨S1, .f32⟩
  | 36 => ⟨S_, .f32⟩
  | 37 => ⟨S50000x128, .f32⟩
  | 38 => ⟨S50000x128, .f32⟩
  | 39 => ⟨S1, .f32⟩
  | 40 => ⟨S_, .f32⟩
  | 41 => ⟨S50000x128, .f32⟩
  | 42 => ⟨S50000x128, .f32⟩
  | 43 => ⟨S50000x512, .f32⟩
  | 44 => ⟨S1x256, .f32⟩
  | 45 => ⟨S512x256, .bf16⟩
  | 46 => ⟨S50000x256, .f32⟩
  | 47 => ⟨S50000x512, .f32⟩
  | 48 => ⟨S_, .f32⟩
  | 49 => ⟨S1x40, .f32⟩
  | 50 => ⟨S512x40, .bf16⟩
  | 51 => ⟨S50000x40, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x40, .f32⟩
  | 61 => ⟨S850000x40, .f32⟩
  | 62 => ⟨S850000x40, .f32⟩
  | 63 => ⟨S_, .f32⟩
  | 64 => ⟨S50000x40, .f32⟩
  | 65 => ⟨S850000x1, .i32⟩
  | 66 => ⟨S50000x40, .f32⟩
  | 67 => ⟨S1x40, .f32⟩
  | 68 => ⟨S50000x40, .f32⟩
  | 69 => ⟨S50000x40, .f32⟩
  | 70 => ⟨S_, .f32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x40, .f32⟩
  | 77 => ⟨S50000x40, .f32⟩
  | 78 => ⟨S50000x40, .f32⟩
  | 79 => ⟨S_, .f32⟩
  | 80 => ⟨S50000, .f32⟩
  | 81 => ⟨S50000x1, .f32⟩
  | 82 => ⟨S50000x1, .f32⟩
  | 83 => ⟨S50000x40, .f32⟩
  | 84 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x128, .f32⟩
  | .local _ .vmem, ⟨7, _⟩ => ⟨S2000x128, .f32⟩
  | .local _ .vmem, ⟨8, _⟩ => ⟨S128x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x512, .f32⟩
  | .local _ .vmem, ⟨13, _⟩ => ⟨S2000x512, .f32⟩
  | .local _ .vmem, ⟨14, _⟩ => ⟨S512x256, .bf16⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .bf16⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x512, .f32⟩
  | .local _ .vmem, ⟨25, _⟩ => ⟨S2000x512, .f32⟩
  | .local _ .vmem, ⟨26, _⟩ => ⟨S512x256, .bf16⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x512, .f32⟩
  | .local _ .vmem, ⟨31, _⟩ => ⟨S2000x512, .f32⟩
  | .local _ .vmem, ⟨32, _⟩ => ⟨S512x256, .bf16⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x512, .f32⟩
  | .local _ .vmem, ⟨37, _⟩ => ⟨S2000x512, .f32⟩
  | .local _ .vmem, ⟨38, _⟩ => ⟨S512x40, .bf16⟩
  | .local _ .vmem, ⟨39, _⟩ => ⟨S1x40, .f32⟩
  | .local _ .vmem, ⟨40, _⟩ => ⟨S2000x40, .f32⟩
  | .local _ .vmem, ⟨41, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call0_cst : Ref sig .tc := ⟨.hbm, 71, rfl⟩
abbrev main_call0_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_9 : Ref sig .tc := ⟨.hbm, 84, rfl⟩
abbrev main_v52 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call1_cst : Ref sig .tc := ⟨.hbm, 102, rfl⟩
abbrev main_call1_v0 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_12 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_13 : Ref sig .tc := ⟨.hbm, 126, rfl⟩
abbrev main_v88 : Ref sig .tc := ⟨.hbm, 127, rfl⟩
abbrev main_v89 : Ref sig .tc := ⟨.hbm, 128, rfl⟩
abbrev main_c_14 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_15 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call2_cst : Ref sig .tc := ⟨.hbm, 144, rfl⟩
abbrev main_call2_v0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_16 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_c_17 : Ref sig .tc := ⟨.hbm, 180, rfl⟩
abbrev main_v136 : Ref sig .tc := ⟨.hbm, 181, rfl⟩
abbrev main_v137 : Ref sig .tc := ⟨.hbm, 182, rfl⟩
abbrev main_c_18 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_19 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_call3_cst : Ref sig .tc := ⟨.hbm, 198, rfl⟩
abbrev main_call3_v0 : Ref sig .tc := ⟨.hbm, 199, rfl⟩
abbrev main_call3_cst_0 : Ref sig .tc := ⟨.hbm, 200, rfl⟩
abbrev main_call3_v1 : Ref sig .tc := ⟨.hbm, 201, rfl⟩
abbrev main_call3_v2 : Ref sig .tc := ⟨.hbm, 202, rfl⟩
abbrev main_call3_v3 : Ref sig .tc := ⟨.hbm, 203, rfl⟩
abbrev main_call3_v4 : Ref sig .tc := ⟨.hbm, 204, rfl⟩
abbrev main_call3_v5 : Ref sig .tc := ⟨.hbm, 205, rfl⟩
abbrev main_call3_v6 : Ref sig .tc := ⟨.hbm, 206, rfl⟩
abbrev main_call3_cst_1 : Ref sig .tc := ⟨.hbm, 207, rfl⟩
abbrev main_call3_v7 : Ref sig .tc := ⟨.hbm, 208, rfl⟩
abbrev main_call3_v8 : Ref sig .tc := ⟨.hbm, 209, rfl⟩
abbrev main_call3_v9 : Ref sig .tc := ⟨.hbm, 210, rfl⟩
abbrev main_call3_v10 : Ref sig .tc := ⟨.hbm, 211, rfl⟩
abbrev main_v151 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x40 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1x256 : S_.BroadcastsInDim S1x256 (![] : Fin 0 → Fin S1x256.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S7x50000x128_S1x50000x128_0_0_0 : S7x50000x128.Slices ![0, 0, 0] S1x50000x128
  shapeCasts_S1x50000x128_S50000x128 : S1x50000x128.ShapeCasts S50000x128
  shapeCasts_S256_S1x256 : S256.ShapeCasts S1x256
  shapeCasts_S2000x128_S2000x128 : S2000x128.ShapeCasts S2000x128
  concatenates_S50000x256_S50000x256_S50000x512_d1 : Shape.Concatenates [S50000x256, S50000x256] S50000x512 1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S7x50000x128_S1x50000x128_1_0_0 : S7x50000x128.Slices ![1, 0, 0] S1x50000x128
  slices_S7x50000x128_S1x50000x128_2_0_0 : S7x50000x128.Slices ![2, 0, 0] S1x50000x128
  slices_S2_S1_0 : S2.Slices ![0] S1
  shapeCasts_S1_S_ : S1.ShapeCasts S_
  bcast_S_S50000x128 : S_.BroadcastsInDim S50000x128 (![] : Fin 0 → Fin S50000x128.rank)
  slices_S2_S1_1 : S2.Slices ![1] S1
  concatenates_S50000x128_S50000x128_S50000x256_d1 : Shape.Concatenates [S50000x128, S50000x128] S50000x256 1
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S7x50000x128_S1x50000x128_3_0_0 : S7x50000x128.Slices ![3, 0, 0] S1x50000x128
  slices_S7x50000x128_S1x50000x128_4_0_0 : S7x50000x128.Slices ![4, 0, 0] S1x50000x128
  slices_S7x50000x128_S1x50000x128_5_0_0 : S7x50000x128.Slices ![5, 0, 0] S1x50000x128
  slices_S7x50000x128_S1x50000x128_6_0_0 : S7x50000x128.Slices ![6, 0, 0] S1x50000x128
  concatenates_S50000x128_S50000x128_S50000x128_S50000x128_S50000x512_d1 : Shape.Concatenates [S50000x128, S50000x128, S50000x128, S50000x128] S50000x512 1
  bcast_S_S1x40 : S_.BroadcastsInDim S1x40 (![] : Fin 0 → Fin S1x40.rank)
  inb_S512x40_S512x40_0_0 : ∀ a, (![0, 0] : Fin 2 → Nat) a + S512x40.size a ≤ S512x40.size a
  h_S512x40 : 0 < S512x40.numel
  shapeCasts_S512x40_S512x40 : S512x40.ShapeCasts S512x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  dot_S2000x512_S512x40_S2000x40_1_0_0_1_n_n_wf : DotDims.WF S2000x512 S512x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .bf16 = 32 ∨ (Rect.block (s := S512x256) S512x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .bf16 = 32 ∨ (Rect.block (s := S512x256) S512x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .bf16 = 32 ∨ (Rect.block (s := S512x256) S512x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x512.size a ≤ S50000x512.size a
  hwx6_0 : ∀ i : grid6.Coords, EltTy.bits .f32 = 32 ∨ (Rect.block (s := S50000x512) S2000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x40.size a ≤ S512x40.size a
  hwx6_1 : ∀ i : grid6.Coords, EltTy.bits .bf16 = 32 ∨ (Rect.block (s := S512x40) S512x40.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S50000x40.size a
  hwx6_3 : ∀ i : grid6.Coords, EltTy.bits .f32 = 32 ∨ (Rect.block (s := S50000x40) S2000x40.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x512_S512x40_S2000x40_1_0_0_1_n_n : DotDims S2000x512 S512x40 S2000x40 where
  lhsContracting := [1]
  rhsContracting := [0]
  lhsNonContracting := [0]
  rhsNonContracting := [1]
  lhsBatch := []
  rhsBatch := []
  wf := dot_S2000x512_S512x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v84) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v128) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v130) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v129) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v131) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v132) S2000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v134) S512x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v133) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v135) S2000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S7x50000x128 : Shape := ⟨3, ![7, 50000, 128]⟩
abbrev S800000 : Shape := ⟨1, ![800000]⟩
abbrev S128x256 : Shape := ⟨2, ![128, 256]⟩
abbrev S256 : Shape := ⟨1, ![256]⟩
abbrev S512x256 : Shape := ⟨2, ![512, 256]⟩
abbrev S256x256 : Shape := ⟨2, ![256, 256]⟩
abbrev S2 : Shape := ⟨1, ![2]⟩
abbrev S512x40 : Shape := ⟨2, ![512, 40]⟩
abbrev S40 : Shape := ⟨1, ![40]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S1x50000x128 : Shape := ⟨3, ![1, 50000, 128]⟩
abbrev S50000x1x128 : Shape := ⟨3, ![50000, 1, 128]⟩
abbrev S50000x512 : Shape := ⟨2, ![50000, 512]⟩
abbrev S2x50000x128 : Shape := ⟨3, ![2, 50000, 128]⟩
abbrev S1x2 : Shape := ⟨2, ![1, 2]⟩
abbrev S2x1x1 : Shape := ⟨3, ![2, 1, 1]⟩
abbrev S50000x2x128 : Shape := ⟨3, ![50000, 2, 128]⟩
abbrev S4x50000x128 : Shape := ⟨3, ![4, 50000, 128]⟩
abbrev S2x2 : Shape := ⟨2, ![2, 2]⟩
abbrev S4 : Shape := ⟨1, ![4]⟩
abbrev S4x1x1 : Shape := ⟨3, ![4, 1, 1]⟩
abbrev S50000x4x128 : Shape := ⟨3, ![50000, 4, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S7x50000x128, .f32⟩
  | 2 => ⟨S800000, .i32⟩
  | 3 => ⟨S800000, .i32⟩
  | 4 => ⟨S128x256, .f32⟩
  | 5 => ⟨S256, .f32⟩
  | 6 => ⟨S512x256, .f32⟩
  | 7 => ⟨S256, .f32⟩
  | 8 => ⟨S512x256, .f32⟩
  | 9 => ⟨S256, .f32⟩
  | 10 => ⟨S128x256, .f32⟩
  | 11 => ⟨S256, .f32⟩
  | 12 => ⟨S256x256, .f32⟩
  | 13 => ⟨S256, .f32⟩
  | 14 => ⟨S512x256, .f32⟩
  | 15 => ⟨S256, .f32⟩
  | 16 => ⟨S2, .f32⟩
  | 17 => ⟨S512x40, .f32⟩
  | 18 => ⟨S40, .f32⟩
  | 19 => ⟨S50000, .i32⟩
  | 20 => ⟨S850000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x256, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S1x50000x128, .f32⟩
  | 72 => ⟨S50000x1x128, .f32⟩
  | 73 => ⟨S50000x128, .f32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S50000x512, .f32⟩
  | 82 => ⟨S50000x256, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x256, .f32⟩
  | 92 => ⟨S850000x1, .f32⟩
  | 93 => ⟨S850000x256, .f32⟩
  | 94 => ⟨S850000x256, .f32⟩
  | 95 => ⟨S_, .f32⟩
  | 96 => ⟨S50000x256, .f32⟩
  | 97 => ⟨S850000x1, .i32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S2x50000x128, .f32⟩
  | 106 => ⟨S1x2, .f32⟩
  | 107 => ⟨S1x2, .f32⟩
  | 108 => ⟨S2, .f32⟩
  | 109 => ⟨S2x1x1, .f32⟩
  | 110 => ⟨S2x50000x128, .f32⟩
  | 111 => ⟨S2x50000x128, .f32⟩
  | 112 => ⟨S50000x2x128, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x512, .f32⟩
  | 122 => ⟨S50000x256, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x256, .f32⟩
  | 4 => ⟨S850000x1, .f32⟩
  | 5 => ⟨S850000x256, .f32⟩
  | 6 => ⟨S850000x256, .f32⟩
  | 7 => ⟨S_, .f32⟩
  | 8 => ⟨S50000x256, .f32⟩
  | 9 => ⟨S850000x1, .i32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S4x50000x128, .f32⟩
  | 18 => ⟨S1x2, .f32⟩
  | 19 => ⟨S2x2, .f32⟩
  | 20 => ⟨S4, .f32⟩
  | 21 => ⟨S4x1x1, .f32⟩
  | 22 => ⟨S4x50000x128, .f32⟩
  | 23 => ⟨S4x50000x128, .f32⟩
  | 24 => ⟨S50000x4x128, .f32⟩
  | 25 => ⟨S50000x512, .f32⟩
  | 26 => ⟨S50000x256, .f32⟩
  | 27 => ⟨S1x256, .f32⟩
  | 28 => ⟨S50000x256, .f32⟩
  | 29 => ⟨S50000x256, .f32⟩
  | 30 => ⟨S_, .f32⟩
  | 31 => ⟨S50000x256, .f32⟩
  | 32 => ⟨S50000x256, .f32⟩
  | 33 => ⟨S50000x512, .f32⟩
  | 34 => ⟨S50000x40, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000x40, .f32⟩
  | 44 => ⟨S850000x1, .f32⟩
  | 45 => ⟨S850000x40, .f32⟩
  | 46 => ⟨S850000x40, .f32⟩
  | 47 => ⟨S_, .f32⟩
  | 48 => ⟨S50000x40, .f32⟩
  | 49 => ⟨S850000x1, .i32⟩
  | 50 => ⟨S50000x40, .f32⟩
  | 51 => ⟨S1x40, .f32⟩
  | 52 => ⟨S50000x40, .f32⟩
  | 53 => ⟨S50000x40, .f32⟩
  | 54 => ⟨S_, .f32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x40, .f32⟩
  | 61 => ⟨S50000x40, .f32⟩
  | 62 => ⟨S50000x40, .f32⟩
  | 63 => ⟨S_, .f32⟩
  | 64 => ⟨S50000, .f32⟩
  | 65 => ⟨S50000x1, .f32⟩
  | 66 => ⟨S50000x1, .f32⟩
  | 67 => ⟨S50000x40, .f32⟩
  | 68 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call0_cst : Ref sig .tc := ⟨.hbm, 68, rfl⟩
abbrev main_call0_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call1_cst : Ref sig .tc := ⟨.hbm, 78, rfl⟩
abbrev main_call1_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_7 : Ref sig .tc := ⟨.hbm, 83, rfl⟩
abbrev main_v51 : Ref sig .tc := ⟨.hbm, 84, rfl⟩
abbrev main_v52 : Ref sig .tc := ⟨.hbm, 85, rfl⟩
abbrev main_c_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_cst : Ref sig .tc := ⟨.hbm, 102, rfl⟩
abbrev main_call2_v0 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call3_cst : Ref sig .tc := ⟨.hbm, 118, rfl⟩
abbrev main_call3_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_10 : Ref sig .tc := ⟨.hbm, 123, rfl⟩
abbrev main_v84 : Ref sig .tc := ⟨.hbm, 124, rfl⟩
abbrev main_v85 : Ref sig .tc := ⟨.hbm, 125, rfl⟩
abbrev main_c_11 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_12 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_call5_cst : Ref sig .tc := ⟨.hbm, 158, rfl⟩
abbrev main_call5_v0 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_c_13 : Ref sig .tc := ⟨.hbm, 163, rfl⟩
abbrev main_v117 : Ref sig .tc := ⟨.hbm, 164, rfl⟩
abbrev main_v118 : Ref sig .tc := ⟨.hbm, 165, rfl⟩
abbrev main_c_14 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_15 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_call6_cst : Ref sig .tc := ⟨.hbm, 182, rfl⟩
abbrev main_call6_v0 : Ref sig .tc := ⟨.hbm, 183, rfl⟩
abbrev main_call6_cst_0 : Ref sig .tc := ⟨.hbm, 184, rfl⟩
abbrev main_call6_v1 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_call6_v5 : Ref sig .tc := ⟨.hbm, 189, rfl⟩
abbrev main_call6_v6 : Ref sig .tc := ⟨.hbm, 190, rfl⟩
abbrev main_call6_cst_1 : Ref sig .tc := ⟨.hbm, 191, rfl⟩
abbrev main_call6_v7 : Ref sig .tc := ⟨.hbm, 192, rfl⟩
abbrev main_call6_v8 : Ref sig .tc := ⟨.hbm, 193, rfl⟩
abbrev main_call6_v9 : Ref sig .tc := ⟨.hbm, 194, rfl⟩
abbrev main_call6_v10 : Ref sig .tc := ⟨.hbm, 195, rfl⟩
abbrev main_v133 : Ref sig .tc := ⟨.hbm, 196, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S7x50000x128_S1x50000x128_0_0_0 : S7x50000x128.Slices ![0, 0, 0] S1x50000x128
  transposes_S1x50000x128_S50000x1x128_1_0_2 : S1x50000x128.Transposes [1, 0, 2] S50000x1x128
  shapeCasts_S50000x1x128_S50000x128 : S50000x1x128.ShapeCasts S50000x128
  concatenates_S50000x256_S50000x256_S50000x512_d1 : Shape.Concatenates [S50000x256, S50000x256] S50000x512 1
  slices_S7x50000x128_S2x50000x128_1_0_0 : S7x50000x128.Slices ![1, 0, 0] S2x50000x128
  shapeCasts_S2_S1x2 : S2.ShapeCasts S1x2
  bcast_S1x2_S1x2_0_1 : S1x2.BroadcastsInDim S1x2 (![0, 1] : Fin 2 → Fin S1x2.rank)
  shapeCasts_S1x2_S2 : S1x2.ShapeCasts S2
  shapeCasts_S2_S2x1x1 : S2.ShapeCasts S2x1x1
  bcast_S2x1x1_S2x50000x128_0_1_2 : S2x1x1.BroadcastsInDim S2x50000x128 (![0, 1, 2] : Fin 3 → Fin S2x50000x128.rank)
  transposes_S2x50000x128_S50000x2x128_1_0_2 : S2x50000x128.Transposes [1, 0, 2] S50000x2x128
  shapeCasts_S50000x2x128_S50000x256 : S50000x2x128.ShapeCasts S50000x256
  slices_S7x50000x128_S4x50000x128_3_0_0 : S7x50000x128.Slices ![3, 0, 0] S4x50000x128
  bcast_S1x2_S2x2_0_1 : S1x2.BroadcastsInDim S2x2 (![0, 1] : Fin 2 → Fin S2x2.rank)
  shapeCasts_S2x2_S4 : S2x2.ShapeCasts S4
  shapeCasts_S4_S4x1x1 : S4.ShapeCasts S4x1x1
  bcast_S4x1x1_S4x50000x128_0_1_2 : S4x1x1.BroadcastsInDim S4x50000x128 (![0, 1, 2] : Fin 3 → Fin S4x50000x128.rank)
  transposes_S4x50000x128_S50000x4x128_1_0_2 : S4x50000x128.Transposes [1, 0, 2] S50000x4x128
  shapeCasts_S50000x4x128_S50000x512 : S50000x4x128.ShapeCasts S50000x512
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []
  dot_S50000x512_S512x40_S50000x40_1_0_0_1_n_n_wf : DotDims.WF S50000x512 S512x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x512_S512x40_S50000x40_1_0_0_1_n_n : DotDims S50000x512 S512x40 S50000x40 where
  lhsContracting := [1]
  rhsContracting := [0]
  lhsNonContracting := [0]
  rhsNonContracting := [1]
  lhsBatch := []
  rhsBatch := []
  wf := dot_S50000x512_S512x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.K.Region0.lean ====
/-
  Region 0 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.Kernel.Launch
import proofs.«158875_j46291157516821_1_alg».proof.Proof.Gen.Kernel.Skeleton
import proofs.«158875_j46291157516821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or
    kept from an earlier point (its index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S2000x128 := Rect.unit (s := S2000x128) ![0, 0] S2000x128.size inb_S2000x128_S2000x128_0_0
abbrev rW0 : Rect S128x256 := Rect.unit (s := S128x256) ![0, 0] S128x256.size inb_S128x256_S128x256_0_0
abbrev rB0 : Rect S1x256 := Rect.unit (s := S1x256) ![0, 0] S1x256.size inb_S1x256_S1x256_0_0
abbrev rO0 : Rect S2000x256 := Rect.unit (s := S2000x256) ![0, 0] S2000x256.size inb_S2000x256_S2000x256_0_0

/-- The output block after the body, from the three input blocks: its one whole store. -/
def out0_3 (x0 : Vec F S2000x128 .f32) (x1 : Vec F S128x256 .bf16) (x2 : Vec F S1x256 .f32) : Vec F S2000x256 .f32 :=
  View.canon [⟨rO0, k0_pay1 (View.ld x0 rA0) (View.ld x1 rW0) (View.ld x2 rB0)⟩]

/-- The one store covers the block. -/
theorem cover0_3 (p0 : Vec F S2000x256 .f32) (y : S2000x256.Idx) :
    ∃ pc ∈ ([⟨rO0, p0⟩] : List (View.Piece (Elt F) S2000x256 .f32)), y ∈ pc.1.set :=
  View.cover_of_tiled [⟨rO0, p0⟩] S2000x256.size (by rfl) y

set_option maxHeartbeats 4000000 in
/-- The body on whole staging buffers, the inputs' at contents `x0 x1 x2` and the output's at anything, runs to the
    continuation with the inputs' buffers as they were and the output's at `out0_3 x0 x1 x2`. -/
theorem sound_kernel0 (c : Dev nD) (E : Set ℕ) (i : grid0.Coords) (arg1 : Memref sig .tc .vmem S2000x128 .f32) (harg1 : arg1.IsWhole) (arg2 : Memref sig .tc .vmem S128x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x128 .f32) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Region1.lean ====
/-
  Region 1 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.Kernel.Launch
import proofs.«158875_j46291157516821_1_alg».proof.Proof.Gen.Kernel.Skeleton
import proofs.«158875_j46291157516821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or
    kept from an earlier point (its index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rA1 : Rect S2000x128 := Rect.unit (s := S2000x128) ![0, 0] S2000x128.size inb_S2000x128_S2000x128_0_0
abbrev rW1 : Rect S128x256 := Rect.unit (s := S128x256) ![0, 0] S128x256.size inb_S128x256_S128x256_0_0
abbrev rB1 : Rect S1x256 := Rect.unit (s := S1x256) ![0, 0] S1x256.size inb_S1x256_S1x256_0_0
abbrev rO1 : Rect S2000x256 := Rect.unit (s := S2000x256) ![0, 0] S2000x256.size inb_S2000x256_S2000x256_0_0

/-- The output block after the body, from the three input blocks: its one whole store. -/
def out1_3 (x0 : Vec F S2000x128 .f32) (x1 : Vec F S128x256 .bf16) (x2 : Vec F S1x256 .f32) : Vec F S2000x256 .f32 :=
  View.canon [⟨rO1, k1_pay1 (View.ld x0 rA1) (View.ld x1 rW1) (View.ld x2 rB1)⟩]

/-- The one store covers the block. -/
theorem cover1_3 (p0 : Vec F S2000x256 .f32) (y : S2000x256.Idx) :
    ∃ pc ∈ ([⟨rO1, p0⟩] : List (View.Piece (Elt F) S2000x256 .f32)), y ∈ pc.1.set :=
  View.cover_of_tiled [⟨rO1, p0⟩] S2000x256.size (by rfl) y

set_option maxHeartbeats 4000000 in
/-- The body on whole staging buffers, the inputs' at contents `x0 x1 x2` and the output's at anything, runs to the
    continuation with the inputs' buffers as they were and the output's at `out1_3 x0 x1 x2`. -/
theorem sound_kernel1 (c : Dev nD) (E : Set ℕ) (i : grid1.Coords) (arg1 : Memref sig .tc .vmem S2000x128 .f32) (harg1 : arg1.IsWhole) (arg2 : Memref sig .tc .vmem S128x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x128 .f32) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.Region2.lean ====
/-
  Region 2 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.Kernel.Launch
import proofs.«158875_j46291157516821_1_alg».proof.Proof.Gen.Kernel.Skeleton
import proofs.«158875_j46291157516821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched there or
    kept from an earlier point (its index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rA2 : Rect S2000x512 := Rect.unit (s := S2000x512) ![0, 0] S2000x512.size inb_S2000x512_S2000x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0
abbrev rO2 : Rect S2000x256 := Rect.unit (s := S2000x256) ![0, 0] S2000x256.size inb_S2000x256_S2000x256_0_0

/-- The output block after the body, from the three input blocks: its one whole store. -/
def out2_3 (x0 : Vec F S2000x512 .f32) (x1 : Vec F S512x256 .bf16) (x2 : Vec F S1x256 .f32) : Vec F S2000x256 .f32 :=
  View.canon [⟨rO2, k2_pay1 (View.ld x0 rA2) (View.ld x1 rW2) (View.ld x2 rB2)⟩]

/-- The one store covers the block. -/
theorem cover2_3 (p0 : Vec F S2000x256 .f32) (y : S2000x256.Idx) :
    ∃ pc ∈ ([⟨rO2, p0⟩] : List (View.Piece (Elt F) S2000x256 .f32)), y ∈ pc.1.set :=
  View.cover_of_tiled [⟨rO2, p0⟩] S2000x256.size (by rfl) y

set_option maxHeartbeats 4000000 in
/-- The body on whole staging buffers, the inputs' at contents `x0 x1 x2` and the output's at anything, runs to the
    continuation with the inputs' buffers as they were and the output's at `out2_3 x0 x1 x2`. -/
theorem sound_kernel2 (c : Dev nD) (E : Set ℕ) (i : grid2.Coords) (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Region3.lean ====
/-
  Region 3 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.Kernel.Launch
import proofs.«158875_j46291157516821_1_alg».proof.Proof.Gen.Kernel.Skeleton
import proofs.«158875_j46291157516821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether it was fetched there or
    kept from an earlier point (its index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev rA3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0
abbrev rO3 : Rect S2000x256 := Rect.unit (s := S2000x256) ![0, 0] S2000x256.size inb_S2000x256_S2000x256_0_0

/-- The output block after the body, from the three input blocks: its one whole store. -/
def out3_3 (x0 : Vec F S2000x256 .f32) (x1 : Vec F S256x256 .bf16) (x2 : Vec F S1x256 .f32) : Vec F S2000x256 .f32 :=
  View.canon [⟨rO3, k3_pay1 (View.ld x0 rA3) (View.ld x1 rW3) (View.ld x2 rB3)⟩]

/-- The one store covers the block. -/
theorem cover3_3 (p0 : Vec F S2000x256 .f32) (y : S2000x256.Idx) :
    ∃ pc ∈ ([⟨rO3, p0⟩] : List (View.Piece (Elt F) S2000x256 .f32)), y ∈ pc.1.set :=
  View.cover_of_tiled [⟨rO3, p0⟩] S2000x256.size (by rfl) y

set_option maxHeartbeats 4000000 in
/-- The body on whole staging buffers, the inputs' at contents `x0 x1 x2` and the output's at anything, runs to the
    continuation with the inputs' buffers as they were and the output's at `out3_3 x0 x1 x2`. -/
theorem sound_kernel3 (c : Dev nD) (E : Set ℕ) (i : grid3.Coords) (arg1 : Memref sig .tc .vmem S2000x256 .f32) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each
    input's buffer at its block and the output's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Region4.lean ====
/-
  Region 4 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.Kernel.Launch
import proofs.«158875_j46291157516821_1_alg».proof.Proof.Gen.Kernel.Skeleton
import proofs.«158875_j46291157516821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether it was fetched there or
    kept from an earlier point (its index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rA4 : Rect S2000x512 := Rect.unit (s := S2000x512) ![0, 0] S2000x512.size inb_S2000x512_S2000x512_0_0
abbrev rW4 : Rect S512x256 := Rect.unit (s := S512x256) ![0, 0] S512x256.size inb_S512x256_S512x256_0_0
abbrev rB4 : Rect S1x256 := Rect.unit (s := S1x256) ![0, 0] S1x256.size inb_S1x256_S1x256_0_0
abbrev rO4 : Rect S2000x256 := Rect.unit (s := S2000x256) ![0, 0] S2000x256.size inb_S2000x256_S2000x256_0_0

/-- The output block after the body, from the three input blocks: its one whole store. -/
def out4_3 (x0 : Vec F S2000x512 .f32) (x1 : Vec F S512x256 .bf16) (x2 : Vec F S1x256 .f32) : Vec F S2000x256 .f32 :=
  View.canon [⟨rO4, k4_pay1 (View.ld x0 rA4) (View.ld x1 rW4) (View.ld x2 rB4)⟩]

/-- The one store covers the block. -/
theorem cover4_3 (p0 : Vec F S2000x256 .f32) (y : S2000x256.Idx) :
    ∃ pc ∈ ([⟨rO4, p0⟩] : List (View.Piece (Elt F) S2000x256 .f32)), y ∈ pc.1.set :=
  View.cover_of_tiled [⟨rO4, p0⟩] S2000x256.size (by rfl) y

set_option maxHeartbeats 4000000 in
/-- The body on whole staging buffers, the inputs' at contents `x0 x1 x2` and the output's at anything, runs to the
    continuation with the inputs' buffers as they were and the output's at `out4_3 x0 x1 x2`. -/
theorem sound_kernel4 (c : Dev nD) (E : Set ℕ) (i : grid4.Coords) (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each
    input's buffer at its block and the output's at `out4_3` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.K.Region5.lean ====
/-
  Region 5 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.Kernel.Launch
import proofs.«158875_j46291157516821_1_alg».proof.Proof.Gen.Kernel.Skeleton
import proofs.«158875_j46291157516821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether it was fetched there or
    kept from an earlier point (its index has not moved since). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev rA5 : Rect S2000x512 := Rect.unit (s := S2000x512) ![0, 0] S2000x512.size inb_S2000x512_S2000x512_0_0
abbrev rW5 : Rect S512x256 := Rect.unit (s := S512x256) ![0, 0] S512x256.size inb_S512x256_S512x256_0_0
abbrev rB5 : Rect S1x256 := Rect.unit (s := S1x256) ![0, 0] S1x256.size inb_S1x256_S1x256_0_0
abbrev rO5 : Rect S2000x256 := Rect.unit (s := S2000x256) ![0, 0] S2000x256.size inb_S2000x256_S2000x256_0_0

/-- The output block after the body, from the three input blocks: its one whole store. -/
def out5_3 (x0 : Vec F S2000x512 .f32) (x1 : Vec F S512x256 .bf16) (x2 : Vec F S1x256 .f32) : Vec F S2000x256 .f32 :=
  View.canon [⟨rO5, k5_pay1 (View.ld x0 rA5) (View.ld x1 rW5) (View.ld x2 rB5)⟩]

/-- The one store covers the block. -/
theorem cover5_3 (p0 : Vec F S2000x256 .f32) (y : S2000x256.Idx) :
    ∃ pc ∈ ([⟨rO5, p0⟩] : List (View.Piece (Elt F) S2000x256 .f32)), y ∈ pc.1.set :=
  View.cover_of_tiled [⟨rO5, p0⟩] S2000x256.size (by rfl) y

set_option maxHeartbeats 4000000 in
/-- The body on whole staging buffers, the inputs' at contents `x0 x1 x2` and the output's at anything, runs to the
    continuation with the inputs' buffers as they were and the output's at `out5_3 x0 x1 x2`. -/
theorem sound_kernel5 (c : Dev nD) (E : Set ℕ) (i : grid5.Coords) (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each
    input's buffer at its block and the output's at `out5_3` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.K.Region6.lean ====
/-
  Region 6 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.Kernel.Launch
import proofs.«158875_j46291157516821_1_alg».proof.Proof.Gen.Kernel.Skeleton
import proofs.«158875_j46291157516821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether it was fetched there or
    kept from an earlier point (its index has not moved since). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev rA6 : Rect S2000x512 := Rect.unit (s := S2000x512) ![0, 0] S2000x512.size inb_S2000x512_S2000x512_0_0
abbrev rW6 : Rect S512x40 := Rect.unit (s := S512x40) ![0, 0] S512x40.size inb_S512x40_S512x40_0_0
abbrev rB6 : Rect S1x40 := Rect.unit (s := S1x40) ![0, 0] S1x40.size inb_S1x40_S1x40_0_0
abbrev rO6 : Rect S2000x40 := Rect.unit (s := S2000x40) ![0, 0] S2000x40.size inb_S2000x40_S2000x40_0_0

/-- The output block after the body, from the three input blocks: its one whole store. -/
def out6_3 (x0 : Vec F S2000x512 .f32) (x1 : Vec F S512x40 .bf16) (x2 : Vec F S1x40 .f32) : Vec F S2000x40 .f32 :=
  View.canon [⟨rO6, k6_pay1 (View.ld x0 rA6) (View.ld x1 rW6) (View.ld x2 rB6)⟩]

/-- The one store covers the block. -/
theorem cover6_3 (p0 : Vec F S2000x40 .f32) (y : S2000x40.Idx) :
    ∃ pc ∈ ([⟨rO6, p0⟩] : List (View.Piece (Elt F) S2000x40 .f32)), y ∈ pc.1.set :=
  View.cover_of_tiled [⟨rO6, p0⟩] S2000x40.size (by rfl) y

set_option maxHeartbeats 4000000 in
/-- The body on whole staging buffers, the inputs' at contents `x0 x1 x2` and the output's at anything, runs to the
    continuation with the inputs' buffers as they were and the output's at `out6_3 x0 x1 x2`. -/
theorem sound_kernel6 (c : Dev nD) (E : Set ℕ) (i : grid6.Coords) (arg1 : Memref sig .tc .vmem S2000x512 .f32) (harg1 : arg1.IsWhole) (arg2 : Memref sig .tc .vmem S512x40 .bf16) (harg2 : arg2.IsWhole)
    (arg3 : Memref sig .tc .vmem S1x40 .f32) (harg3 : arg3.IsWhole) (arg4 : Memref sig .tc .vmem S2000x40 .f32) (harg4 : arg4.IsWhole)
    (x0 : Vec F S2000x512 .f32) (x1 : Vec F S512x40 .bf16) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each
    input's buffer at its block and the output's at `out6_3` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.K.Fold.lean ====
/-
  The buffers' contents between the items of the program, as one fold from the launch memory: a stretch of host
  operations rewrites what it writes; a dense-layer region replaces its output array by what its 25 write-backs leave
  and changes nothing else. These are the contents every region's proof data are taken at.
-/
import proofs.«158875_j46291157516821_1_alg».proof.Proof.Gen.Kernel.Regions
import proofs.«158875_j46291157516821_1_alg».proof.Proof.K.Region0
import proofs.«158875_j46291157516821_1_alg».proof.Proof.K.Region1
import proofs.«158875_j46291157516821_1_alg».proof.Proof.K.Region2
import proofs.«158875_j46291157516821_1_alg».proof.Proof.K.Region3
import proofs.«158875_j46291157516821_1_alg».proof.Proof.K.Region4
import proofs.«158875_j46291157516821_1_alg».proof.Proof.K.Region5
import proofs.«158875_j46291157516821_1_alg».proof.Proof.K.Region6

set_option maxRecDepth 16384

noncomputable section

namespace Cert.Kernel.Fold

open Cert.Kernel Cert.Kernel.Gen Cert.Kernel.Reg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- Core `c`'s buffers after the first stretch of host operations. -/
def W1 (c : Dev nD) : Valuation τ sig (Elt F) := StableHlo.after hostOps0 (fun b => m (c, b))
/-- What region 0 leaves in its output array: its write-backs folded over the grid. -/
def o2 (c : Dev nD) : Buf (Elt F) ((c : Thread nD τ).loc main_v26) := (dat0 (atTc (W1 m)) c).arrAt 3 cfg0.N
/-- After region 0: its output array replaced, every other buffer as entered. -/
def W2 (c : Dev nD) : Valuation τ sig (Elt F) := Function.update (W1 m c) main_v26 (o2 m c)
theorem W2_out (c : Dev nD) : W2 m c main_v26 = o2 m c := by unfold W2; exact Function.update_self _ _ _
theorem W2_ne (c : Dev nD) (b : Ref sig .tc) (h : b ≠ main_v26) : W2 m c b = W1 m c b := by
  unfold W2; exact Function.update_of_ne (StableHlo.devRef_ne_of_ne h) _ _
def W3 (c : Dev nD) : Valuation τ sig (Elt F) := StableHlo.after hostOps1 (W2 m c)
def W4 (c : Dev nD) : Valuation τ sig (Elt F) := StableHlo.after hostOps1_1 (W3 m c)
def W5 (c : Dev nD) : Valuation τ sig (Elt F) := StableHlo.after hostOps1_2 (W4 m c)
/-- What region 1 leaves in its output array: its write-backs folded over the grid. -/
def o6 (c : Dev nD) : Buf (Elt F) ((c : Thread nD τ).loc main_v47) := (dat1 (atTc (W5 m)) c).arrAt 3 cfg1.N
/-- After region 1: its output array replaced, every other buffer as entered. -/
def W6 (c : Dev nD) : Valuation τ sig (Elt F) := Function.update (W5 m c) main_v47 (o6 m c)
theorem W6_out (c : Dev nD) : W6 m c main_v47 = o6 m c := by unfold W6; exact Function.update_self _ _ _
theorem W6_ne (c : Dev nD) (b : Ref sig .tc) (h : b ≠ main_v47) : W6 m c b = W5 m c b := by
  unfold W6; exact Function.update_of_ne (StableHlo.devRef_ne_of_ne h) _ _
def W7 (c : Dev nD) : Valuation τ sig (Elt F) := StableHlo.after hostOps2 (W6 m c)
/-- What region 2 leaves in its output array: its write-backs folded over the grid. -/
def o8 (c : Dev nD) : Buf (Elt F) ((c : Thread nD τ).loc main_v51) := (dat2 (atTc (W7 m)) c).arrAt 3 cfg2.N
/-- After region 2: its output array replaced, every other buffer as entered. -/
def W8 (c : Dev nD) : Valuation τ sig (Elt F) := Function.update (W7 m c) main_v51 (o8 m c)
theorem W8_out (c : Dev nD) : W8 m c main_v51 = o8 m c := by unfold W8; exact Function.update_self _ _ _
theorem W8_ne (c : Dev nD) (b : Ref sig .tc) (h : b ≠ main_v51) : W8 m c b = W7 m c b := by
  unfold W8; exact Function.update_of_ne (StableHlo.devRef_ne_of_ne h) _ _
def W9 (c : Dev nD) : Valuation τ sig (Elt F) := StableHlo.after hostOps3 (W8 m c)
def W10 (c : Dev nD) : Valuation τ sig (Elt F) := StableHlo.after hostOps3_1 (W9 m c)
def W11 (c : Dev nD) : Valuation τ sig (Elt F) := StableHlo.after hostOps3_2 (W10 m c)
/-- What region 3 leaves in its output array: its write-backs folded over the grid. -/
def o12 (c : Dev nD) : Buf (Elt F) ((c : Thread nD τ).loc main_v83) := (dat3 (atTc (W11 m)) c).arrAt 3 cfg3.N
/-- After region 3: its output array replaced, every other buffer as entered. -/
def W12 (c : Dev nD) : Valuation τ sig (Elt F) := Function.update (W11 m c) main_v83 (o12 m c)
theorem W12_out (c : Dev nD) : W12 m c main_v83 = o12 m c := by unfold W12; exact Function.update_self _ _ _
theorem W12_ne (c : Dev nD) (b : Ref sig .tc) (h : b ≠ main_v83) : W12 m c b = W11 m c b := by
  unfold W12; exact Function.update_of_ne (StableHlo.devRef_ne_of_ne h) _ _
def W13 (c : Dev nD) : Valuation τ sig (Elt F) := StableHlo.after hostOps4 (W12 m c)
/-- What region 4 leaves in its output array: its write-backs folded over the grid. -/
def o14 (c : Dev nD) : Buf (Elt F) ((c : Thread nD τ).loc main_v87) := (dat4 (atTc (W13 m)) c).arrAt 3 cfg4.N
/-- After region 4: its output array replaced, every other buffer as entered. -/
def W14 (c : Dev nD) : Valuation τ sig (Elt F) := Function.update (W13 m c) main_v87 (o14 m c)
theorem W14_out (c : Dev nD) : W14 m c main_v87 = o14 m c := by unfold W14; exact Function.update_self _ _ _
theorem W14_ne (c : Dev nD) (b : Ref sig .tc) (h : b ≠ main_v87) : W14 m c b = W13 m c b := by
  unfold W14; exact Function.update_of_ne (StableHlo.devRef_ne_of_ne h) _ _
def W15 (c : Dev nD) : Valuation τ sig (Elt F) := StableHlo.after hostOps5 (W14 m c)
def W16 (c : Dev nD) : Valuation τ sig (Elt F) := StableHlo.after hostOps5_1 (W15 m c)
def W17 (c : Dev nD) : Valuation τ sig (Elt F) := StableHlo.after hostOps5_2 (W16 m c)
/-- What region 5 leaves in its output array: its write-backs folded over the grid. -/
def o18 (c : Dev nD) : Buf (Elt F) ((c : Thread nD τ).loc main_v131) := (dat5 (atTc (W17 m)) c).arrAt 3 cfg5.N
/-- After region 5: its output array replaced, every other buffer as entered. -/
def W18 (c : Dev nD) : Valuation τ sig (Elt F) := Function.update (W17 m c) main_v131 (o18 m c)
theorem W18_out (c : Dev nD) : W18 m c main_v131 = o18 m c := by unfold W18; exact Function.update_self _ _ _
theorem W18_ne (c : Dev nD) (b : Ref sig .tc) (h : b ≠ main_v131) : W18 m c b = W17 m c b := by
  unfold W18; exact Function.update_of_ne (StableHlo.devRef_ne_of_ne h) _ _
def W19 (c : Dev nD) : Valuation τ sig (Elt F) := StableHlo.after hostOps6 (W18 m c)
/-- What region 6 leaves in its output array: its write-backs folded over the grid. -/
def o20 (c : Dev nD) : Buf (Elt F) ((c : Thread nD τ).loc main_v135) := (dat6 (atTc (W19 m)) c).arrAt 3 cfg6.N
/-- After region 6: its output array replaced, every other buffer as entered. -/
def W20 (c : Dev nD) : Valuation τ sig (Elt F) := Function.update (W19 m c) main_v135 (o20 m c)
theorem W20_out (c : Dev nD) : W20 m c main_v135 = o20 m c := by unfold W20; exact Function.update_self _ _ _
theorem W20_ne (c : Dev nD) (b : Ref sig .tc) (h : b ≠ main_v135) : W20 m c b = W19 m c b := by
  unfold W20; exact Function.update_of_ne (StableHlo.devRef_ne_of_ne h) _ _
def W21 (c : Dev nD) : Valuation τ sig (Elt F) := StableHlo.after hostOps7 (W20 m c)
def W22 (c : Dev nD) : Valuation τ sig (Elt F) := StableHlo.after hostOps7_1 (W21 m c)

/-- What each region leaves, as the generated host-side fold asks for it: indexed by the item after the region. -/
def outs : Outs (F := F) := fun J r c =>
  match J with
  | 2 => W2 m c r
  | 6 => W6 m c r
  | 8 => W8 m c r
  | 12 => W12 m c r
  | 14 => W14 m c r
  | 18 => W18 m c r
  | _ => W20 m c r

/-! The generated fold at these unknowns is the fold above. -/
theorem V1_eq (c : Dev nD) : V1 m c = W1 m c := rfl
theorem V2_eq (c : Dev nD) : V2 m (outs m) c = W2 m c := by
  show Function.update (V1 m c) main_v26 (W2 m c main_v26) = _
  rw [V1_eq]; unfold W2; rw [Function.update_self]
theorem V3_eq (c : Dev nD) : V3 m (outs m) c = W3 m c := by
  show StableHlo.after hostOps1 (V2 m (outs m) c) = _
  rw [V2_eq]; rfl
theorem V4_eq (c : Dev nD) : V4 m (outs m) c = W4 m c := by
  show StableHlo.after hostOps1_1 (V3 m (outs m) c) = _
  rw [V3_eq]; rfl
theorem V5_eq (c : Dev nD) : V5 m (outs m) c = W5 m c := by
  show StableHlo.after hostOps1_2 (V4 m (outs m) c) = _
  rw [V4_eq]; rfl
theorem V6_eq (c : Dev nD) : V6 m (outs m) c = W6 m c := by
  show Function.update (V5 m (outs m) c) main_v47 (W6 m c main_v47) = _
  rw [V5_eq]; unfold W6; rw [Function.update_self]
theorem V7_eq (c : Dev nD) : V7 m (outs m) c = W7 m c := by
  show StableHlo.after hostOps2 (V6 m (outs m) c) = _
  rw [V6_eq]; rfl
theorem V8_eq (c : Dev nD) : V8 m (outs m) c = W8 m c := by
  show Function.update (V7 m (outs m) c) main_v51 (W8 m c main_v51) = _
  rw [V7_eq]; unfold W8; rw [Function.update_self]
theorem V9_eq (c : Dev nD) : V9 m (outs m) c = W9 m c := by
  show StableHlo.after hostOps3 (V8 m (outs m) c) = _
  rw [V8_eq]; rfl
theorem V10_eq (c : Dev nD) : V10 m (outs m) c = W10 m c := by
  show StableHlo.after hostOps3_1 (V9 m (outs m) c) = _
  rw [V9_eq]; rfl
theorem V11_eq (c : Dev nD) : V11 m (outs m) c = W11 m c := by
  show StableHlo.after hostOps3_2 (V10 m (outs m) c) = _
  rw [V10_eq]; rfl
theorem V12_eq (c : Dev nD) : V12 m (outs m) c = W12 m c := by
  show Function.update (V11 m (outs m) c) main_v83 (W12 m c main_v83) = _
  rw [V11_eq]; unfold W12; rw [Function.update_self]
theorem V13_eq (c : Dev nD) : V13 m (outs m) c = W13 m c := by
  show StableHlo.after hostOps4 (V12 m (outs m) c) = _
  rw [V12_eq]; rfl
theorem V14_eq (c : Dev nD) : V14 m (outs m) c = W14 m c := by
  show Function.update (V13 m (outs m) c) main_v87 (W14 m c main_v87) = _
  rw [V13_eq]; unfold W14; rw [Function.update_self]
theorem V15_eq (c : Dev nD) : V15 m (outs m) c = W15 m c := by
  show StableHlo.after hostOps5 (V14 m (outs m) c) = _
  rw [V14_eq]; rfl
theorem V16_eq (c : Dev nD) : V16 m (outs m) c = W16 m c := by
  show StableHlo.after hostOps5_1 (V15 m (outs m) c) = _
  rw [V15_eq]; rfl
theorem V17_eq (c : Dev nD) : V17 m (outs m) c = W17 m c := by
  show StableHlo.after hostOps5_2 (V16 m (outs m) c) = _
  rw [V16_eq]; rfl
theorem V18_eq (c : Dev nD) : V18 m (outs m) c = W18 m c := by
  show Function.update (V17 m (outs m) c) main_v131 (W18 m c main_v131) = _
  rw [V17_eq]; unfold W18; rw [Function.update_self]
theorem V19_eq (c : Dev nD) : V19 m (outs m) c = W19 m c := by
  show StableHlo.after hostOps6 (V18 m (outs m) c) = _
  rw [V18_eq]; rfl
theorem V20_eq (c : Dev nD) : V20 m (outs m) c = W20 m c := by
  show Function.update (V19 m (outs m) c) main_v135 (W20 m c main_v135) = _
  rw [V19_eq]; unfold W20; rw [Function.update_self]
theorem V21_eq (c : Dev nD) : V21 m (outs m) c = W21 m c := by
  show StableHlo.after hostOps7 (V20 m (outs m) c) = _
  rw [V20_eq]; rfl
theorem V22_eq (c : Dev nD) : V22 m (outs m) c = W22 m c := by
  show StableHlo.after hostOps7_1 (V21 m (outs m) c) = _
  rw [V21_eq]; rfl

/-- Every pipeline's proof data, each at its region's entry contents. -/
def pdats : (p : Fin 7) → (c : Dev nD) → Dat τ (Elt F) Unit ℕ (UR sig nD τ) ℕ (cfgs p) c
  | ⟨0, _⟩ => fun c => dat0 (atTc (W1 m)) c
  | ⟨1, _⟩ => fun c => dat1 (atTc (W5 m)) c
  | ⟨2, _⟩ => fun c => dat2 (atTc (W7 m)) c
  | ⟨3, _⟩ => fun c => dat3 (atTc (W11 m)) c
  | ⟨4, _⟩ => fun c => dat4 (atTc (W13 m)) c
  | ⟨5, _⟩ => fun c => dat5 (atTc (W17 m)) c
  | ⟨6, _⟩ => fun c => dat6 (atTc (W19 m)) c

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)

/-! From here on the fold's contents are opaque: they are read only through the lemmas above (and by `unfold` where a
    stretch of host operations is to be computed). -/
attribute [irreducible] W1 W2 W3 W4 W5 W6 W7 W8 W9 W10 W11 W12 W13 W14 W15 W16 W17 W18 W19 W20 W21 W22

end Cert.Kernel.Fold

end
-- ==== Proof.K.Reg0.lean ====
/-
  Region 0 as a segment of the program's run: entered with every unscoped buffer at the fold's contents before
  it, left with its output array at what its write-backs leave and everything else unchanged.
-/
import proofs.«158875_j46291157516821_1_alg».proof.Proof.K.Fold
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input as entered, the output its folded
    write-backs; and every other buffer what it held at entry. -/
theorem out_arr0 (c : Dev nD) : (pdats m 0 c).arrAt 3 cfg0.N = atTc (W2 m) c (Pipeline.arrRef spec0 3) := by
  refine Eq.trans ?_ (W2_out m c).symm
  unfold o2; rfl
theorem hF0 (c : Dev nD) (w : Fin cfg0.W) : (pdats m 0 c).arrAt w cfg0.N = atTc (W2 m) c (Pipeline.arrRef spec0 w) := by
  by_cases h3 : w = 3
  · subst h3; exact out_arr0 m c
  · have hin : (cfg0.win w).isOut = false := by revert w; decide
    have hne : Pipeline.arrRef spec0 w ≠ main_v26 := by revert w; decide
    exact (((pdats m 0 c).arrAt_in w hin _).trans (A_eq0 (atTc (W1 m)) c w)).trans (W2_ne m c _ hne).symm
theorem hrest0 (c : Dev nD) : ∀ b, b ∉ Finset.univ.image (Pipeline.arrRef spec0) → atTc (W2 m) c b = atTc (W1 m) c b := by
  intro b hb
  exact W2_ne m c b fun e => hb (Finset.mem_image.mpr ⟨3, Finset.mem_univ _, e.symm⟩)

set_option backward.isDefEq.respectTransparency.types false in
/-- Region 0 over the thread state: entered with every unscoped buffer at `W1`, left at `W2`. Its arrays are
    split out of the unscoped buffers and put back at the exit contents; the generator register passes through the
    class invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.K.Reg1.lean ====
/-
  Region 1 as a segment of the program's run: entered with every unscoped buffer at the fold's contents before
  it, left with its output array at what its write-backs leave and everything else unchanged.
-/
import proofs.«158875_j46291157516821_1_alg».proof.Proof.K.Fold
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input as entered, the output its folded
    write-backs; and every other buffer what it held at entry. -/
theorem out_arr1 (c : Dev nD) : (pdats m 1 c).arrAt 3 cfg1.N = atTc (W6 m) c (Pipeline.arrRef spec1 3) := by
  refine Eq.trans ?_ (W6_out m c).symm
  unfold o6; rfl
theorem hF1 (c : Dev nD) (w : Fin cfg1.W) : (pdats m 1 c).arrAt w cfg1.N = atTc (W6 m) c (Pipeline.arrRef spec1 w) := by
  by_cases h3 : w = 3
  · subst h3; exact out_arr1 m c
  · have hin : (cfg1.win w).isOut = false := by revert w; decide
    have hne : Pipeline.arrRef spec1 w ≠ main_v47 := by revert w; decide
    exact (((pdats m 1 c).arrAt_in w hin _).trans (A_eq1 (atTc (W5 m)) c w)).trans (W6_ne m c _ hne).symm
theorem hrest1 (c : Dev nD) : ∀ b, b ∉ Finset.univ.image (Pipeline.arrRef spec1) → atTc (W6 m) c b = atTc (W5 m) c b := by
  intro b hb
  exact W6_ne m c b fun e => hb (Finset.mem_image.mpr ⟨3, Finset.mem_univ _, e.symm⟩)

set_option backward.isDefEq.respectTransparency.types false in
/-- Region 1 over the thread state: entered with every unscoped buffer at `W5`, left at `W6`. Its arrays are
    split out of the unscoped buffers and put back at the exit contents; the generator register passes through the
    class invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.K.Reg2.lean ====
/-
  Region 2 as a segment of the program's run: entered with every unscoped buffer at the fold's contents before
  it, left with its output array at what its write-backs leave and everything else unchanged.
-/
import proofs.«158875_j46291157516821_1_alg».proof.Proof.K.Fold
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input as entered, the output its folded
    write-backs; and every other buffer what it held at entry. -/
theorem out_arr2 (c : Dev nD) : (pdats m 2 c).arrAt 3 cfg2.N = atTc (W8 m) c (Pipeline.arrRef spec2 3) := by
  refine Eq.trans ?_ (W8_out m c).symm
  unfold o8; rfl
theorem hF2 (c : Dev nD) (w : Fin cfg2.W) : (pdats m 2 c).arrAt w cfg2.N = atTc (W8 m) c (Pipeline.arrRef spec2 w) := by
  by_cases h3 : w = 3
  · subst h3; exact out_arr2 m c
  · have hin : (cfg2.win w).isOut = false := by revert w; decide
    have hne : Pipeline.arrRef spec2 w ≠ main_v51 := by revert w; decide
    exact (((pdats m 2 c).arrAt_in w hin _).trans (A_eq2 (atTc (W7 m)) c w)).trans (W8_ne m c _ hne).symm
theorem hrest2 (c : Dev nD) : ∀ b, b ∉ Finset.univ.image (Pipeline.arrRef spec2) → atTc (W8 m) c b = atTc (W7 m) c b := by
  intro b hb
  exact W8_ne m c b fun e => hb (Finset.mem_image.mpr ⟨3, Finset.mem_univ _, e.symm⟩)

set_option backward.isDefEq.respectTransparency.types false in
/-- Region 2 over the thread state: entered with every unscoped buffer at `W7`, left at `W8`. Its arrays are
    split out of the unscoped buffers and put back at the exit contents; the generator register passes through the
    class invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.K.Reg3.lean ====
/-
  Region 3 as a segment of the program's run: entered with every unscoped buffer at the fold's contents before
  it, left with its output array at what its write-backs leave and everything else unchanged.
-/
import proofs.«158875_j46291157516821_1_alg».proof.Proof.K.Fold
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 3's exit each of its arrays holds what the pipeline leaves: an input as entered, the output its folded
    write-backs; and every other buffer what it held at entry. -/
theorem out_arr3 (c : Dev nD) : (pdats m 3 c).arrAt 3 cfg3.N = atTc (W12 m) c (Pipeline.arrRef spec3 3) := by
  refine Eq.trans ?_ (W12_out m c).symm
  unfold o12; rfl
theorem hF3 (c : Dev nD) (w : Fin cfg3.W) : (pdats m 3 c).arrAt w cfg3.N = atTc (W12 m) c (Pipeline.arrRef spec3 w) := by
  by_cases h3 : w = 3
  · subst h3; exact out_arr3 m c
  · have hin : (cfg3.win w).isOut = false := by revert w; decide
    have hne : Pipeline.arrRef spec3 w ≠ main_v83 := by revert w; decide
    exact (((pdats m 3 c).arrAt_in w hin _).trans (A_eq3 (atTc (W11 m)) c w)).trans (W12_ne m c _ hne).symm
theorem hrest3 (c : Dev nD) : ∀ b, b ∉ Finset.univ.image (Pipeline.arrRef spec3) → atTc (W12 m) c b = atTc (W11 m) c b := by
  intro b hb
  exact W12_ne m c b fun e => hb (Finset.mem_image.mpr ⟨3, Finset.mem_univ _, e.symm⟩)

set_option backward.isDefEq.respectTransparency.types false in
/-- Region 3 over the thread state: entered with every unscoped buffer at `W11`, left at `W12`. Its arrays are
    split out of the unscoped buffers and put back at the exit contents; the generator register passes through the
    class invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W11 m)) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (atTc (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W11 m) c) (atTc (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.K.Reg4.lean ====
/-
  Region 4 as a segment of the program's run: entered with every unscoped buffer at the fold's contents before
  it, left with its output array at what its write-backs leave and everything else unchanged.
-/
import proofs.«158875_j46291157516821_1_alg».proof.Proof.K.Fold
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input as entered, the output its folded
    write-backs; and every other buffer what it held at entry. -/
theorem out_arr4 (c : Dev nD) : (pdats m 4 c).arrAt 3 cfg4.N = atTc (W14 m) c (Pipeline.arrRef spec4 3) := by
  refine Eq.trans ?_ (W14_out m c).symm
  unfold o14; rfl
theorem hF4 (c : Dev nD) (w : Fin cfg4.W) : (pdats m 4 c).arrAt w cfg4.N = atTc (W14 m) c (Pipeline.arrRef spec4 w) := by
  by_cases h3 : w = 3
  · subst h3; exact out_arr4 m c
  · have hin : (cfg4.win w).isOut = false := by revert w; decide
    have hne : Pipeline.arrRef spec4 w ≠ main_v87 := by revert w; decide
    exact (((pdats m 4 c).arrAt_in w hin _).trans (A_eq4 (atTc (W13 m)) c w)).trans (W14_ne m c _ hne).symm
theorem hrest4 (c : Dev nD) : ∀ b, b ∉ Finset.univ.image (Pipeline.arrRef spec4) → atTc (W14 m) c b = atTc (W13 m) c b := by
  intro b hb
  exact W14_ne m c b fun e => hb (Finset.mem_image.mpr ⟨3, Finset.mem_univ _, e.symm⟩)

set_option backward.isDefEq.respectTransparency.types false in
/-- Region 4 over the thread state: entered with every unscoped buffer at `W13`, left at `W14`. Its arrays are
    split out of the unscoped buffers and put back at the exit contents; the generator register passes through the
    class invariant; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W13 m)) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (atTc (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W13 m) c) (atTc (W14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.K.Reg5.lean ====
/-
  Region 5 as a segment of the program's run: entered with every unscoped buffer at the fold's contents before
  it, left with its output array at what its write-backs leave and everything else unchanged.
-/
import proofs.«158875_j46291157516821_1_alg».proof.Proof.K.Fold
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 5's exit each of its arrays holds what the pipeline leaves: an input as entered, the output its folded
    write-backs; and every other buffer what it held at entry. -/
theorem out_arr5 (c : Dev nD) : (pdats m 5 c).arrAt 3 cfg5.N = atTc (W18 m) c (Pipeline.arrRef spec5 3) := by
  refine Eq.trans ?_ (W18_out m c).symm
  unfold o18; rfl
theorem hF5 (c : Dev nD) (w : Fin cfg5.W) : (pdats m 5 c).arrAt w cfg5.N = atTc (W18 m) c (Pipeline.arrRef spec5 w) := by
  by_cases h3 : w = 3
  · subst h3; exact out_arr5 m c
  · have hin : (cfg5.win w).isOut = false := by revert w; decide
    have hne : Pipeline.arrRef spec5 w ≠ main_v131 := by revert w; decide
    exact (((pdats m 5 c).arrAt_in w hin _).trans (A_eq5 (atTc (W17 m)) c w)).trans (W18_ne m c _ hne).symm
theorem hrest5 (c : Dev nD) : ∀ b, b ∉ Finset.univ.image (Pipeline.arrRef spec5) → atTc (W18 m) c b = atTc (W17 m) c b := by
  intro b hb
  exact W18_ne m c b fun e => hb (Finset.mem_image.mpr ⟨3, Finset.mem_univ _, e.symm⟩)

set_option backward.isDefEq.respectTransparency.types false in
/-- Region 5 over the thread state: entered with every unscoped buffer at `W17`, left at `W18`. Its arrays are
    split out of the unscoped buffers and put back at the exit contents; the generator register passes through the
    class invariant; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W17 m)) c).loose
  hwaits := Pipeline.hwaits_of_owed_zero _ _ _ _ L lv 5 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec5 c (atTc (W17 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W17 m) c) (atTc (W18 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.K.Reg6.lean ====
/-
  Region 6 as a segment of the program's run: entered with every unscoped buffer at the fold's contents before
  it, left with its output array at what its write-backs leave and everything else unchanged.
-/
import proofs.«158875_j46291157516821_1_alg».proof.Proof.K.Fold
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 6's exit each of its arrays holds what the pipeline leaves: an input as entered, the output its folded
    write-backs; and every other buffer what it held at entry. -/
theorem out_arr6 (c : Dev nD) : (pdats m 6 c).arrAt 3 cfg6.N = atTc (W20 m) c (Pipeline.arrRef spec6 3) := by
  refine Eq.trans ?_ (W20_out m c).symm
  unfold o20; rfl
theorem hF6 (c : Dev nD) (w : Fin cfg6.W) : (pdats m 6 c).arrAt w cfg6.N = atTc (W20 m) c (Pipeline.arrRef spec6 w) := by
  by_cases h3 : w = 3
  · subst h3; exact out_arr6 m c
  · have hin : (cfg6.win w).isOut = false := by revert w; decide
    have hne : Pipeline.arrRef spec6 w ≠ main_v135 := by revert w; decide
    exact (((pdats m 6 c).arrAt_in w hin _).trans (A_eq6 (atTc (W19 m)) c w)).trans (W20_ne m c _ hne).symm
theorem hrest6 (c : Dev nD) : ∀ b, b ∉ Finset.univ.image (Pipeline.arrRef spec6) → atTc (W20 m) c b = atTc (W19 m) c b := by
  intro b hb
  exact W20_ne m c b fun e => hb (Finset.mem_image.mpr ⟨3, Finset.mem_univ _, e.symm⟩)

set_option backward.isDefEq.respectTransparency.types false in
/-- Region 6 over the thread state: entered with every unscoped buffer at `W19`, left at `W20`. Its arrays are
    split out of the unscoped buffers and put back at the exit contents; the generator register passes through the
    class invariant; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W19 m)) c).loose
  hwaits := Pipeline.hwaits_of_owed_zero _ _ _ _ L lv 6 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec6 c (atTc (W19 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W19 m) c) (atTc (W20 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fold

end
-- ==== Proof.K.Run.lean ====
/-
  The run of the whole program: its seven dense-layer regions as segments between the stretches of host operations,
  chained through the thread state "every unscoped buffer at the fold's contents, the generator register at some
  state, nothing owed". Every weakly fair execution terminates without a fault and every unscoped buffer ends at
  the last contents of the fold; in particular the argument arrays end as launched.
-/
import proofs.«158875_j46291157516821_1_alg».proof.Proof.K.Reg0
import proofs.«158875_j46291157516821_1_alg».proof.Proof.K.Reg1
import proofs.«158875_j46291157516821_1_alg».proof.Proof.K.Reg2
import proofs.«158875_j46291157516821_1_alg».proof.Proof.K.Reg3
import proofs.«158875_j46291157516821_1_alg».proof.Proof.K.Reg4
import proofs.«158875_j46291157516821_1_alg».proof.Proof.K.Reg5
import proofs.«158875_j46291157516821_1_alg».proof.Proof.K.Reg6
import Idealize.ShloMosaic.Lib.Pipeline.Frame
import Idealize.ShloMosaic.Lib.Pipeline.Regions

set_option maxRecDepth 16384

noncomputable section

namespace Cert.Kernel.Fold

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest state beside the buffers, the same between any two items. -/
abbrev E : Fin 8 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and every unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m))
    (fun c Q => by
      rewrite [main_chain c, Seg.run_eq_chain,
        show (segs m (outs m) 𝒱₀ L lv E () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          StableHlo.seq hostOps7_1 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W22 m c) ∗ ∃ r, prngReg c r))
    (hch := fun c => ⟨.rfl,
      (by show iprop(StableHlo.held (c : Thread nD τ) (Pipeline.ucRefs τ sig) (V1 m c) ∗ R c) ⊢ iprop(StableHlo.held (c : Thread nD τ) (Pipeline.ucRefs τ sig) (W1 m c) ∗ R c); rw [V1_eq] <;> exact .rfl),
      (by show iprop(StableHlo.held (c : Thread nD τ) (Pipeline.ucRefs τ sig) (W2 m c) ∗ R c) ⊢ iprop(StableHlo.held (c : Thread nD τ) (Pipeline.ucRefs τ sig) (V2 m (outs m) c) ∗ R c); rw [V2_eq] <;> exact .rfl),
      .rfl,
      .rfl,
      (by show iprop(StableHlo.held (c : Thread nD τ) (Pipeline.ucRefs τ sig) (V5 m (outs m) c) ∗ R c) ⊢ iprop(StableHlo.held (c : Thread nD τ) (Pipeline.ucRefs τ sig) (W5 m c) ∗ R c); rw [V5_eq] <;> exact .rfl),
      (by show iprop(StableHlo.held (c : Thread nD τ) (Pipeline.ucRefs τ sig) (W6 m c) ∗ R c) ⊢ iprop(StableHlo.held (c : Thread nD τ) (Pipeline.ucRefs τ sig) (V6 m (outs m) c) ∗ R c); rw [V6_eq] <;> exact .rfl),
      (by show iprop(StableHlo.held (c : Thread nD τ) (Pipeline.ucRefs τ sig) (V7 m (outs m) c) ∗ R c) ⊢ iprop(StableHlo.held (c : Thread nD τ) (Pipeline.ucRefs τ sig) (W7 m c) ∗ R c); rw [V7_eq] <;> exact .rfl),
      (by show iprop(StableHlo.held (c : Thread nD τ) (Pipeline.ucRefs τ sig) (W8 m c) ∗ R c) ⊢ iprop(StableHlo.held (c : Thread nD τ) (Pipeline.ucRefs τ sig) (V8 m (outs m) c) ∗ R c); rw [V8_eq] <;> exact .rfl),
      .rfl,
      .rfl,
      (by show iprop(StableHlo.held (c : Thread nD τ) (Pipeline.ucRefs τ sig) (V11 m (outs m) c) ∗ R c) ⊢ iprop(StableHlo.held (c : Thread nD τ) (Pipeline.ucRefs τ sig) (W11 m c) ∗ R c); rw [V11_eq] <;> exact .rfl),
      (by show iprop(StableHlo.held (c : Thread nD τ) (Pipeline.ucRefs τ sig) (W12 m c) ∗ R c) ⊢ iprop(StableHlo.held (c : Thread nD τ) (Pipeline.ucRefs τ sig) (V12 m (outs m) c) ∗ R c); rw [V12_eq] <;> exact .rfl),
      (by show iprop(StableHlo.held (c : Thread nD τ) (Pipeline.ucRefs τ sig) (V13 m (outs m) c) ∗ R c) ⊢ iprop(StableHlo.held (c : Thread nD τ) (Pipeline.ucRefs τ sig) (W13 m c) ∗ R c); rw [V13_eq] <;> exact .rfl),
      (by show iprop(StableHlo.held (c : Thread nD τ) (Pipeline.ucRefs τ sig) (W14 m c) ∗ R c) ⊢ iprop(StableHlo.held (c : Thread nD τ) (Pipeline.ucRefs τ sig) (V14 m (outs m) c) ∗ R c); rw [V14_eq] <;> exact .rfl),
      .rfl,
      .rfl,
      (by show iprop(StableHlo.held (c : Thread nD τ) (Pipeline.ucRefs τ sig) (V17 m (outs m) c) ∗ R c) ⊢ iprop(StableHlo.held (c : Thread nD τ) (Pipeline.ucRefs τ sig) (W17 m c) ∗ R c); rw [V17_eq] <;> exact .rfl),
      (by show iprop(StableHlo.held (c : Thread nD τ) (Pipeline.ucRefs τ sig) (W18 m c) ∗ R c) ⊢ iprop(StableHlo.held (c : Thread nD τ) (Pipeline.ucRefs τ sig) (V18 m (outs m) c) ∗ R c); rw [V18_eq] <;> exact .rfl),
      (by show iprop(StableHlo.held (c : Thread nD τ) (Pipeline.ucRefs τ sig) (V19 m (outs m) c) ∗ R c) ⊢ iprop(StableHlo.held (c : Thread nD τ) (Pipeline.ucRefs τ sig) (W19 m c) ∗ R c); rw [V19_eq] <;> exact .rfl),
      (by show iprop(StableHlo.held (c : Thread nD τ) (Pipeline.ucRefs τ sig) (W20 m c) ∗ R c) ⊢ iprop(StableHlo.held (c : Thread nD τ) (Pipeline.ucRefs τ sig) (V20 m (outs m) c) ∗ R c); rw [V20_eq] <;> exact .rfl),
      .rfl, ?_⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)
  · -- the last stretch ends at the fold's last contents, beside the generator register and the core owing nothing
    show iprop(StableHlo.held (c : Thread nD τ) (Pipeline.ucRefs τ sig) (V22 m (outs m) c) ∗ R c) ⊢ iprop((StableHlo.held (c : Thread nD τ) (Pipeline.ucRefs τ sig) (W22 m c) ∗ ∃ r, prngReg c r) ∗ ∃ W, owes (c.tc : Thread nD τ) (0 : CellTallies nD τ sig Unit) W)
    rw [V22_eq]
    iintro ⟨Hh, Hp, HO⟩
    isplitl [Hh Hp]
    · isplitl [Hh]; · iexact Hh
      iexact Hp
    iexact HO

/-- THE FRAME: the argument arrays end as launched (no host operation writes one, no region changes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have hc := h c
    rw [show W22 m c = V22 m (outs m) c from (V22_eq m c).symm] at hc
    exact ⟨(hc _ (mem_uc main_arg0 (by decide))).trans (V22_main_arg0 m (outs m) c),
      (hc _ (mem_uc main_arg1 (by decide))).trans (V22_main_arg1 m (outs m) c),
      (hc _ (mem_uc main_arg2 (by decide))).trans (V22_main_arg2 m (outs m) c),
      (hc _ (mem_uc main_arg3 (by decide))).trans (V22_main_arg3 m (outs m) c),
      (hc _ (mem_uc main_arg4 (by decide))).trans (V22_main_arg4 m (outs m) c),
      (hc _ (mem_uc main_arg5 (by decide))).trans (V22_main_arg5 m (outs m) c),
      (hc _ (mem_uc main_arg6 (by decide))).trans (V22_main_arg6 m (outs m) c),
      (hc _ (mem_uc main_arg7 (by decide))).trans (V22_main_arg7 m (outs m) c),
      (hc _ (mem_uc main_arg8 (by decide))).trans (V22_main_arg8 m (outs m) c),
      (hc _ (mem_uc main_arg9 (by decide))).trans (V22_main_arg9 m (outs m) c),
      (hc _ (mem_uc main_arg10 (by decide))).trans (V22_main_arg10 m (outs m) c),
      (hc _ (mem_uc main_arg11 (by decide))).trans (V22_main_arg11 m (outs m) c),
      (hc _ (mem_uc main_arg12 (by decide))).trans (V22_main_arg12 m (outs m) c),
      (hc _ (mem_uc main_arg13 (by decide))).trans (V22_main_arg13 m (outs m) c),
      (hc _ (mem_uc main_arg14 (by decide))).trans (V22_main_arg14 m (outs m) c),
      (hc _ (mem_uc main_arg15 (by decide))).trans (V22_main_arg15 m (outs m) c),
      (hc _ (mem_uc main_arg16 (by decide))).trans (V22_main_arg16 m (outs m) c),
      (hc _ (mem_uc main_arg17 (by decide))).trans (V22_main_arg17 m (outs m) c),
      (hc _ (mem_uc main_arg18 (by decide))).trans (V22_main_arg18 m (outs m) c)⟩) (run_all m ρ)

end Cert.Kernel.Fold

end
-- ==== Proof.KI.Region0.lean ====
/-
  Region 0 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.KernelIdeal.Launch
import proofs.«158875_j46291157516821_1_alg».proof.Proof.Gen.KernelIdeal.Skeleton
import proofs.«158875_j46291157516821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or
    kept from an earlier point (its index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S2000x128 := Rect.unit (s := S2000x128) ![0, 0] S2000x128.size inb_S2000x128_S2000x128_0_0
abbrev rW0 : Rect S128x256 := Rect.unit (s := S128x256) ![0, 0] S128x256.size inb_S128x256_S128x256_0_0
abbrev rB0 : Rect S1x256 := Rect.unit (s := S1x256) ![0, 0] S1x256.size inb_S1x256_S1x256_0_0
abbrev rO0 : Rect S2000x256 := Rect.unit (s := S2000x256) ![0, 0] S2000x256.size inb_S2000x256_S2000x256_0_0

/-- The output block after the body, from the three input blocks: its one whole store. -/
def out0_3 (x0 : Vec F S2000x128 .f32) (x1 : Vec F S128x256 .bf16) (x2 : Vec F S1x256 .f32) : Vec F S2000x256 .f32 :=
  View.canon [⟨rO0, k0_pay1 (View.ld x0 rA0) (View.ld x1 rW0) (View.ld x2 rB0)⟩]

/-- The one store covers the block. -/
theorem cover0_3 (p0 : Vec F S2000x256 .f32) (y : S2000x256.Idx) :
    ∃ pc ∈ ([⟨rO0, p0⟩] : List (View.Piece (Elt F) S2000x256 .f32)), y ∈ pc.1.set :=
  View.cover_of_tiled [⟨rO0, p0⟩] S2000x256.size (by rfl) y

set_option maxHeartbeats 4000000 in
/-- The body on whole staging buffers, the inputs' at contents `x0 x1 x2` and the output's at anything, runs to the
    continuation with the inputs' buffers as they were and the output's at `out0_3 x0 x1 x2`. -/
theorem sound_kernel0 (c : Dev nD) (E : Set ℕ) (i : grid0.Coords) (arg1 : Memref sig .tc .vmem S2000x128 .f32) (harg1 : arg1.IsWhole) (arg2 : Memref sig .tc .vmem S128x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x128 .f32) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Region1.lean ====
/-
  Region 1 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.KernelIdeal.Launch
import proofs.«158875_j46291157516821_1_alg».proof.Proof.Gen.KernelIdeal.Skeleton
import proofs.«158875_j46291157516821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or
    kept from an earlier point (its index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rA1 : Rect S2000x128 := Rect.unit (s := S2000x128) ![0, 0] S2000x128.size inb_S2000x128_S2000x128_0_0
abbrev rW1 : Rect S128x256 := Rect.unit (s := S128x256) ![0, 0] S128x256.size inb_S128x256_S128x256_0_0
abbrev rB1 : Rect S1x256 := Rect.unit (s := S1x256) ![0, 0] S1x256.size inb_S1x256_S1x256_0_0
abbrev rO1 : Rect S2000x256 := Rect.unit (s := S2000x256) ![0, 0] S2000x256.size inb_S2000x256_S2000x256_0_0

/-- The output block after the body, from the three input blocks: its one whole store. -/
def out1_3 (x0 : Vec F S2000x128 .f32) (x1 : Vec F S128x256 .bf16) (x2 : Vec F S1x256 .f32) : Vec F S2000x256 .f32 :=
  View.canon [⟨rO1, k1_pay1 (View.ld x0 rA1) (View.ld x1 rW1) (View.ld x2 rB1)⟩]

/-- The one store covers the block. -/
theorem cover1_3 (p0 : Vec F S2000x256 .f32) (y : S2000x256.Idx) :
    ∃ pc ∈ ([⟨rO1, p0⟩] : List (View.Piece (Elt F) S2000x256 .f32)), y ∈ pc.1.set :=
  View.cover_of_tiled [⟨rO1, p0⟩] S2000x256.size (by rfl) y

set_option maxHeartbeats 4000000 in
/-- The body on whole staging buffers, the inputs' at contents `x0 x1 x2` and the output's at anything, runs to the
    continuation with the inputs' buffers as they were and the output's at `out1_3 x0 x1 x2`. -/
theorem sound_kernel1 (c : Dev nD) (E : Set ℕ) (i : grid1.Coords) (arg1 : Memref sig .tc .vmem S2000x128 .f32) (harg1 : arg1.IsWhole) (arg2 : Memref sig .tc .vmem S128x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x128 .f32) (x1 : Vec F S128x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Region2.lean ====
/-
  Region 2 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.KernelIdeal.Launch
import proofs.«158875_j46291157516821_1_alg».proof.Proof.Gen.KernelIdeal.Skeleton
import proofs.«158875_j46291157516821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched there or
    kept from an earlier point (its index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rA2 : Rect S2000x512 := Rect.unit (s := S2000x512) ![0, 0] S2000x512.size inb_S2000x512_S2000x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0
abbrev rO2 : Rect S2000x256 := Rect.unit (s := S2000x256) ![0, 0] S2000x256.size inb_S2000x256_S2000x256_0_0

/-- The output block after the body, from the three input blocks: its one whole store. -/
def out2_3 (x0 : Vec F S2000x512 .f32) (x1 : Vec F S512x256 .bf16) (x2 : Vec F S1x256 .f32) : Vec F S2000x256 .f32 :=
  View.canon [⟨rO2, k2_pay1 (View.ld x0 rA2) (View.ld x1 rW2) (View.ld x2 rB2)⟩]

/-- The one store covers the block. -/
theorem cover2_3 (p0 : Vec F S2000x256 .f32) (y : S2000x256.Idx) :
    ∃ pc ∈ ([⟨rO2, p0⟩] : List (View.Piece (Elt F) S2000x256 .f32)), y ∈ pc.1.set :=
  View.cover_of_tiled [⟨rO2, p0⟩] S2000x256.size (by rfl) y

set_option maxHeartbeats 4000000 in
/-- The body on whole staging buffers, the inputs' at contents `x0 x1 x2` and the output's at anything, runs to the
    continuation with the inputs' buffers as they were and the output's at `out2_3 x0 x1 x2`. -/
theorem sound_kernel2 (c : Dev nD) (E : Set ℕ) (i : grid2.Coords) (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Region3.lean ====
/-
  Region 3 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.KernelIdeal.Launch
import proofs.«158875_j46291157516821_1_alg».proof.Proof.Gen.KernelIdeal.Skeleton
import proofs.«158875_j46291157516821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether it was fetched there or
    kept from an earlier point (its index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev rA3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0
abbrev rO3 : Rect S2000x256 := Rect.unit (s := S2000x256) ![0, 0] S2000x256.size inb_S2000x256_S2000x256_0_0

/-- The output block after the body, from the three input blocks: its one whole store. -/
def out3_3 (x0 : Vec F S2000x256 .f32) (x1 : Vec F S256x256 .bf16) (x2 : Vec F S1x256 .f32) : Vec F S2000x256 .f32 :=
  View.canon [⟨rO3, k3_pay1 (View.ld x0 rA3) (View.ld x1 rW3) (View.ld x2 rB3)⟩]

/-- The one store covers the block. -/
theorem cover3_3 (p0 : Vec F S2000x256 .f32) (y : S2000x256.Idx) :
    ∃ pc ∈ ([⟨rO3, p0⟩] : List (View.Piece (Elt F) S2000x256 .f32)), y ∈ pc.1.set :=
  View.cover_of_tiled [⟨rO3, p0⟩] S2000x256.size (by rfl) y

set_option maxHeartbeats 4000000 in
/-- The body on whole staging buffers, the inputs' at contents `x0 x1 x2` and the output's at anything, runs to the
    continuation with the inputs' buffers as they were and the output's at `out3_3 x0 x1 x2`. -/
theorem sound_kernel3 (c : Dev nD) (E : Set ℕ) (i : grid3.Coords) (arg1 : Memref sig .tc .vmem S2000x256 .f32) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each
    input's buffer at its block and the output's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Region4.lean ====
/-
  Region 4 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.KernelIdeal.Launch
import proofs.«158875_j46291157516821_1_alg».proof.Proof.Gen.KernelIdeal.Skeleton
import proofs.«158875_j46291157516821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether it was fetched there or
    kept from an earlier point (its index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rA4 : Rect S2000x512 := Rect.unit (s := S2000x512) ![0, 0] S2000x512.size inb_S2000x512_S2000x512_0_0
abbrev rW4 : Rect S512x256 := Rect.unit (s := S512x256) ![0, 0] S512x256.size inb_S512x256_S512x256_0_0
abbrev rB4 : Rect S1x256 := Rect.unit (s := S1x256) ![0, 0] S1x256.size inb_S1x256_S1x256_0_0
abbrev rO4 : Rect S2000x256 := Rect.unit (s := S2000x256) ![0, 0] S2000x256.size inb_S2000x256_S2000x256_0_0

/-- The output block after the body, from the three input blocks: its one whole store. -/
def out4_3 (x0 : Vec F S2000x512 .f32) (x1 : Vec F S512x256 .bf16) (x2 : Vec F S1x256 .f32) : Vec F S2000x256 .f32 :=
  View.canon [⟨rO4, k4_pay1 (View.ld x0 rA4) (View.ld x1 rW4) (View.ld x2 rB4)⟩]

/-- The one store covers the block. -/
theorem cover4_3 (p0 : Vec F S2000x256 .f32) (y : S2000x256.Idx) :
    ∃ pc ∈ ([⟨rO4, p0⟩] : List (View.Piece (Elt F) S2000x256 .f32)), y ∈ pc.1.set :=
  View.cover_of_tiled [⟨rO4, p0⟩] S2000x256.size (by rfl) y

set_option maxHeartbeats 4000000 in
/-- The body on whole staging buffers, the inputs' at contents `x0 x1 x2` and the output's at anything, runs to the
    continuation with the inputs' buffers as they were and the output's at `out4_3 x0 x1 x2`. -/
theorem sound_kernel4 (c : Dev nD) (E : Set ℕ) (i : grid4.Coords) (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each
    input's buffer at its block and the output's at `out4_3` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KI.Region5.lean ====
/-
  Region 5 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.KernelIdeal.Launch
import proofs.«158875_j46291157516821_1_alg».proof.Proof.Gen.KernelIdeal.Skeleton
import proofs.«158875_j46291157516821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether it was fetched there or
    kept from an earlier point (its index has not moved since). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev rA5 : Rect S2000x512 := Rect.unit (s := S2000x512) ![0, 0] S2000x512.size inb_S2000x512_S2000x512_0_0
abbrev rW5 : Rect S512x256 := Rect.unit (s := S512x256) ![0, 0] S512x256.size inb_S512x256_S512x256_0_0
abbrev rB5 : Rect S1x256 := Rect.unit (s := S1x256) ![0, 0] S1x256.size inb_S1x256_S1x256_0_0
abbrev rO5 : Rect S2000x256 := Rect.unit (s := S2000x256) ![0, 0] S2000x256.size inb_S2000x256_S2000x256_0_0

/-- The output block after the body, from the three input blocks: its one whole store. -/
def out5_3 (x0 : Vec F S2000x512 .f32) (x1 : Vec F S512x256 .bf16) (x2 : Vec F S1x256 .f32) : Vec F S2000x256 .f32 :=
  View.canon [⟨rO5, k5_pay1 (View.ld x0 rA5) (View.ld x1 rW5) (View.ld x2 rB5)⟩]

/-- The one store covers the block. -/
theorem cover5_3 (p0 : Vec F S2000x256 .f32) (y : S2000x256.Idx) :
    ∃ pc ∈ ([⟨rO5, p0⟩] : List (View.Piece (Elt F) S2000x256 .f32)), y ∈ pc.1.set :=
  View.cover_of_tiled [⟨rO5, p0⟩] S2000x256.size (by rfl) y

set_option maxHeartbeats 4000000 in
/-- The body on whole staging buffers, the inputs' at contents `x0 x1 x2` and the output's at anything, runs to the
    continuation with the inputs' buffers as they were and the output's at `out5_3 x0 x1 x2`. -/
theorem sound_kernel5 (c : Dev nD) (E : Set ℕ) (i : grid5.Coords) (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each
    input's buffer at its block and the output's at `out5_3` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.KI.Region6.lean ====
/-
  Region 6 of the program: one dense layer's product, row block by row block. At any contents `V` of the
  TensorCore's buffers when the region is entered, the body — load the block of 2000 rows, the whole weight
  matrix and the bias row, multiply, add the bias (and clamp below at zero where the layer does), store — leaves
  the output block at the stored value as a function of the three loaded blocks; the inputs' staging buffers keep
  their blocks. This gives the pipeline's proof data and the body obligation at every grid point.
-/
import proofs.«158875_j46291157516821_1_alg».proof.Proof.Gen.KernelIdeal.Launch
import proofs.«158875_j46291157516821_1_alg».proof.Proof.Gen.KernelIdeal.Skeleton
import proofs.«158875_j46291157516821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether it was fetched there or
    kept from an earlier point (its index has not moved since). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev rA6 : Rect S2000x512 := Rect.unit (s := S2000x512) ![0, 0] S2000x512.size inb_S2000x512_S2000x512_0_0
abbrev rW6 : Rect S512x40 := Rect.unit (s := S512x40) ![0, 0] S512x40.size inb_S512x40_S512x40_0_0
abbrev rB6 : Rect S1x40 := Rect.unit (s := S1x40) ![0, 0] S1x40.size inb_S1x40_S1x40_0_0
abbrev rO6 : Rect S2000x40 := Rect.unit (s := S2000x40) ![0, 0] S2000x40.size inb_S2000x40_S2000x40_0_0

/-- The output block after the body, from the three input blocks: its one whole store. -/
def out6_3 (x0 : Vec F S2000x512 .f32) (x1 : Vec F S512x40 .bf16) (x2 : Vec F S1x40 .f32) : Vec F S2000x40 .f32 :=
  View.canon [⟨rO6, k6_pay1 (View.ld x0 rA6) (View.ld x1 rW6) (View.ld x2 rB6)⟩]

/-- The one store covers the block. -/
theorem cover6_3 (p0 : Vec F S2000x40 .f32) (y : S2000x40.Idx) :
    ∃ pc ∈ ([⟨rO6, p0⟩] : List (View.Piece (Elt F) S2000x40 .f32)), y ∈ pc.1.set :=
  View.cover_of_tiled [⟨rO6, p0⟩] S2000x40.size (by rfl) y

set_option maxHeartbeats 4000000 in
/-- The body on whole staging buffers, the inputs' at contents `x0 x1 x2` and the output's at anything, runs to the
    continuation with the inputs' buffers as they were and the output's at `out6_3 x0 x1 x2`. -/
theorem sound_kernel6 (c : Dev nD) (E : Set ℕ) (i : grid6.Coords) (arg1 : Memref sig .tc .vmem S2000x512 .f32) (harg1 : arg1.IsWhole) (arg2 : Memref sig .tc .vmem S512x40 .bf16) (harg2 : arg2.IsWhole)
    (arg3 : Memref sig .tc .vmem S1x40 .f32) (harg3 : arg3.IsWhole) (arg4 : Memref sig .tc .vmem S2000x40 .f32) (harg4 : arg4.IsWhole)
    (x0 : Vec F S2000x512 .f32) (x1 : Vec F S512x40 .bf16) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each
    input's buffer at its block and the output's at `out6_3` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.KI.Fold.lean ====
/-
  The buffers' contents between the items of the program, as one fold from the launch memory: a stretch of host
  operations rewrites what it writes; a dense-layer region replaces its output array by what its 25 write-backs leave
  and changes nothing else. These are the contents every region's proof data are taken at.
-/
import proofs.«158875_j46291157516821_1_alg».proof.Proof.Gen.KernelIdeal.Regions
import proofs.«158875_j46291157516821_1_alg».proof.Proof.KI.Region0
import proofs.«158875_j46291157516821_1_alg».proof.Proof.KI.Region1
import proofs.«158875_j46291157516821_1_alg».proof.Proof.KI.Region2
import proofs.«158875_j46291157516821_1_alg».proof.Proof.KI.Region3
import proofs.«158875_j46291157516821_1_alg».proof.Proof.KI.Region4
import proofs.«158875_j46291157516821_1_alg».proof.Proof.KI.Region5
import proofs.«158875_j46291157516821_1_alg».proof.Proof.KI.Region6

set_option maxRecDepth 16384

noncomputable section

namespace Cert.KernelIdeal.Fold

open Cert.KernelIdeal Cert.KernelIdeal.Gen Cert.KernelIdeal.Reg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- Core `c`'s buffers after the first stretch of host operations. -/
def W1 (c : Dev nD) : Valuation τ sig (Elt F) := StableHlo.after hostOps0 (fun b => m (c, b))
/-- What region 0 leaves in its output array: its write-backs folded over the grid. -/
def o2 (c : Dev nD) : Buf (Elt F) ((c : Thread nD τ).loc main_v26) := (dat0 (atTc (W1 m)) c).arrAt 3 cfg0.N
/-- After region 0: its output array replaced, every other buffer as entered. -/
def W2 (c : Dev nD) : Valuation τ sig (Elt F) := Function.update (W1 m c) main_v26 (o2 m c)
theorem W2_out (c : Dev nD) : W2 m c main_v26 = o2 m c := by unfold W2; exact Function.update_self _ _ _
theorem W2_ne (c : Dev nD) (b : Ref sig .tc) (h : b ≠ main_v26) : W2 m c b = W1 m c b := by
  unfold W2; exact Function.update_of_ne (StableHlo.devRef_ne_of_ne h) _ _
def W3 (c : Dev nD) : Valuation τ sig (Elt F) := StableHlo.after hostOps1 (W2 m c)
def W4 (c : Dev nD) : Valuation τ sig (Elt F) := StableHlo.after hostOps1_1 (W3 m c)
def W5 (c : Dev nD) : Valuation τ sig (Elt F) := StableHlo.after hostOps1_2 (W4 m c)
/-- What region 1 leaves in its output array: its write-backs folded over the grid. -/
def o6 (c : Dev nD) : Buf (Elt F) ((c : Thread nD τ).loc main_v47) := (dat1 (atTc (W5 m)) c).arrAt 3 cfg1.N
/-- After region 1: its output array replaced, every other buffer as entered. -/
def W6 (c : Dev nD) : Valuation τ sig (Elt F) := Function.update (W5 m c) main_v47 (o6 m c)
theorem W6_out (c : Dev nD) : W6 m c main_v47 = o6 m c := by unfold W6; exact Function.update_self _ _ _
theorem W6_ne (c : Dev nD) (b : Ref sig .tc) (h : b ≠ main_v47) : W6 m c b = W5 m c b := by
  unfold W6; exact Function.update_of_ne (StableHlo.devRef_ne_of_ne h) _ _
def W7 (c : Dev nD) : Valuation τ sig (Elt F) := StableHlo.after hostOps2 (W6 m c)
/-- What region 2 leaves in its output array: its write-backs folded over the grid. -/
def o8 (c : Dev nD) : Buf (Elt F) ((c : Thread nD τ).loc main_v51) := (dat2 (atTc (W7 m)) c).arrAt 3 cfg2.N
/-- After region 2: its output array replaced, every other buffer as entered. -/
def W8 (c : Dev nD) : Valuation τ sig (Elt F) := Function.update (W7 m c) main_v51 (o8 m c)
theorem W8_out (c : Dev nD) : W8 m c main_v51 = o8 m c := by unfold W8; exact Function.update_self _ _ _
theorem W8_ne (c : Dev nD) (b : Ref sig .tc) (h : b ≠ main_v51) : W8 m c b = W7 m c b := by
  unfold W8; exact Function.update_of_ne (StableHlo.devRef_ne_of_ne h) _ _
def W9 (c : Dev nD) : Valuation τ sig (Elt F) := StableHlo.after hostOps3 (W8 m c)
def W10 (c : Dev nD) : Valuation τ sig (Elt F) := StableHlo.after hostOps3_1 (W9 m c)
def W11 (c : Dev nD) : Valuation τ sig (Elt F) := StableHlo.after hostOps3_2 (W10 m c)
/-- What region 3 leaves in its output array: its write-backs folded over the grid. -/
def o12 (c : Dev nD) : Buf (Elt F) ((c : Thread nD τ).loc main_v83) := (dat3 (atTc (W11 m)) c).arrAt 3 cfg3.N
/-- After region 3: its output array replaced, every other buffer as entered. -/
def W12 (c : Dev nD) : Valuation τ sig (Elt F) := Function.update (W11 m c) main_v83 (o12 m c)
theorem W12_out (c : Dev nD) : W12 m c main_v83 = o12 m c := by unfold W12; exact Function.update_self _ _ _
theorem W12_ne (c : Dev nD) (b : Ref sig .tc) (h : b ≠ main_v83) : W12 m c b = W11 m c b := by
  unfold W12; exact Function.update_of_ne (StableHlo.devRef_ne_of_ne h) _ _
def W13 (c : Dev nD) : Valuation τ sig (Elt F) := StableHlo.after hostOps4 (W12 m c)
/-- What region 4 leaves in its output array: its write-backs folded over the grid. -/
def o14 (c : Dev nD) : Buf (Elt F) ((c : Thread nD τ).loc main_v87) := (dat4 (atTc (W13 m)) c).arrAt 3 cfg4.N
/-- After region 4: its output array replaced, every other buffer as entered. -/
def W14 (c : Dev nD) : Valuation τ sig (Elt F) := Function.update (W13 m c) main_v87 (o14 m c)
theorem W14_out (c : Dev nD) : W14 m c main_v87 = o14 m c := by unfold W14; exact Function.update_self _ _ _
theorem W14_ne (c : Dev nD) (b : Ref sig .tc) (h : b ≠ main_v87) : W14 m c b = W13 m c b := by
  unfold W14; exact Function.update_of_ne (StableHlo.devRef_ne_of_ne h) _ _
def W15 (c : Dev nD) : Valuation τ sig (Elt F) := StableHlo.after hostOps5 (W14 m c)
def W16 (c : Dev nD) : Valuation τ sig (Elt F) := StableHlo.after hostOps5_1 (W15 m c)
def W17 (c : Dev nD) : Valuation τ sig (Elt F) := StableHlo.after hostOps5_2 (W16 m c)
/-- What region 5 leaves in its output array: its write-backs folded over the grid. -/
def o18 (c : Dev nD) : Buf (Elt F) ((c : Thread nD τ).loc main_v131) := (dat5 (atTc (W17 m)) c).arrAt 3 cfg5.N
/-- After region 5: its output array replaced, every other buffer as entered. -/
def W18 (c : Dev nD) : Valuation τ sig (Elt F) := Function.update (W17 m c) main_v131 (o18 m c)
theorem W18_out (c : Dev nD) : W18 m c main_v131 = o18 m c := by unfold W18; exact Function.update_self _ _ _
theorem W18_ne (c : Dev nD) (b : Ref sig .tc) (h : b ≠ main_v131) : W18 m c b = W17 m c b := by
  unfold W18; exact Function.update_of_ne (StableHlo.devRef_ne_of_ne h) _ _
def W19 (c : Dev nD) : Valuation τ sig (Elt F) := StableHlo.after hostOps6 (W18 m c)
/-- What region 6 leaves in its output array: its write-backs folded over the grid. -/
def o20 (c : Dev nD) : Buf (Elt F) ((c : Thread nD τ).loc main_v135) := (dat6 (atTc (W19 m)) c).arrAt 3 cfg6.N
/-- After region 6: its output array replaced, every other buffer as entered. -/
def W20 (c : Dev nD) : Valuation τ sig (Elt F) := Function.update (W19 m c) main_v135 (o20 m c)
theorem W20_out (c : Dev nD) : W20 m c main_v135 = o20 m c := by unfold W20; exact Function.update_self _ _ _
theorem W20_ne (c : Dev nD) (b : Ref sig .tc) (h : b ≠ main_v135) : W20 m c b = W19 m c b := by
  unfold W20; exact Function.update_of_ne (StableHlo.devRef_ne_of_ne h) _ _
def W21 (c : Dev nD) : Valuation τ sig (Elt F) := StableHlo.after hostOps7 (W20 m c)
def W22 (c : Dev nD) : Valuation τ sig (Elt F) := StableHlo.after hostOps7_1 (W21 m c)

/-- What each region leaves, as the generated host-side fold asks for it: indexed by the item after the region. -/
def outs : Outs (F := F) := fun J r c =>
  match J with
  | 2 => W2 m c r
  | 6 => W6 m c r
  | 8 => W8 m c r
  | 12 => W12 m c r
  | 14 => W14 m c r
  | 18 => W18 m c r
  | _ => W20 m c r

/-! The generated fold at these unknowns is the fold above. -/
theorem V1_eq (c : Dev nD) : V1 m c = W1 m c := rfl
theorem V2_eq (c : Dev nD) : V2 m (outs m) c = W2 m c := by
  show Function.update (V1 m c) main_v26 (W2 m c main_v26) = _
  rw [V1_eq]; unfold W2; rw [Function.update_self]
theorem V3_eq (c : Dev nD) : V3 m (outs m) c = W3 m c := by
  show StableHlo.after hostOps1 (V2 m (outs m) c) = _
  rw [V2_eq]; rfl
theorem V4_eq (c : Dev nD) : V4 m (outs m) c = W4 m c := by
  show StableHlo.after hostOps1_1 (V3 m (outs m) c) = _
  rw [V3_eq]; rfl
theorem V5_eq (c : Dev nD) : V5 m (outs m) c = W5 m c := by
  show StableHlo.after hostOps1_2 (V4 m (outs m) c) = _
  rw [V4_eq]; rfl
theorem V6_eq (c : Dev nD) : V6 m (outs m) c = W6 m c := by
  show Function.update (V5 m (outs m) c) main_v47 (W6 m c main_v47) = _
  rw [V5_eq]; unfold W6; rw [Function.update_self]
theorem V7_eq (c : Dev nD) : V7 m (outs m) c = W7 m c := by
  show StableHlo.after hostOps2 (V6 m (outs m) c) = _
  rw [V6_eq]; rfl
theorem V8_eq (c : Dev nD) : V8 m (outs m) c = W8 m c := by
  show Function.update (V7 m (outs m) c) main_v51 (W8 m c main_v51) = _
  rw [V7_eq]; unfold W8; rw [Function.update_self]
theorem V9_eq (c : Dev nD) : V9 m (outs m) c = W9 m c := by
  show StableHlo.after hostOps3 (V8 m (outs m) c) = _
  rw [V8_eq]; rfl
theorem V10_eq (c : Dev nD) : V10 m (outs m) c = W10 m c := by
  show StableHlo.after hostOps3_1 (V9 m (outs m) c) = _
  rw [V9_eq]; rfl
theorem V11_eq (c : Dev nD) : V11 m (outs m) c = W11 m c := by
  show StableHlo.after hostOps3_2 (V10 m (outs m) c) = _
  rw [V10_eq]; rfl
theorem V12_eq (c : Dev nD) : V12 m (outs m) c = W12 m c := by
  show Function.update (V11 m (outs m) c) main_v83 (W12 m c main_v83) = _
  rw [V11_eq]; unfold W12; rw [Function.update_self]
theorem V13_eq (c : Dev nD) : V13 m (outs m) c = W13 m c := by
  show StableHlo.after hostOps4 (V12 m (outs m) c) = _
  rw [V12_eq]; rfl
theorem V14_eq (c : Dev nD) : V14 m (outs m) c = W14 m c := by
  show Function.update (V13 m (outs m) c) main_v87 (W14 m c main_v87) = _
  rw [V13_eq]; unfold W14; rw [Function.update_self]
theorem V15_eq (c : Dev nD) : V15 m (outs m) c = W15 m c := by
  show StableHlo.after hostOps5 (V14 m (outs m) c) = _
  rw [V14_eq]; rfl
theorem V16_eq (c : Dev nD) : V16 m (outs m) c = W16 m c := by
  show StableHlo.after hostOps5_1 (V15 m (outs m) c) = _
  rw [V15_eq]; rfl
theorem V17_eq (c : Dev nD) : V17 m (outs m) c = W17 m c := by
  show StableHlo.after hostOps5_2 (V16 m (outs m) c) = _
  rw [V16_eq]; rfl
theorem V18_eq (c : Dev nD) : V18 m (outs m) c = W18 m c := by
  show Function.update (V17 m (outs m) c) main_v131 (W18 m c main_v131) = _
  rw [V17_eq]; unfold W18; rw [Function.update_self]
theorem V19_eq (c : Dev nD) : V19 m (outs m) c = W19 m c := by
  show StableHlo.after hostOps6 (V18 m (outs m) c) = _
  rw [V18_eq]; rfl
theorem V20_eq (c : Dev nD) : V20 m (outs m) c = W20 m c := by
  show Function.update (V19 m (outs m) c) main_v135 (W20 m c main_v135) = _
  rw [V19_eq]; unfold W20; rw [Function.update_self]
theorem V21_eq (c : Dev nD) : V21 m (outs m) c = W21 m c := by
  show StableHlo.after hostOps7 (V20 m (outs m) c) = _
  rw [V20_eq]; rfl
theorem V22_eq (c : Dev nD) : V22 m (outs m) c = W22 m c := by
  show StableHlo.after hostOps7_1 (V21 m (outs m) c) = _
  rw [V21_eq]; rfl

/-- Every pipeline's proof data, each at its region's entry contents. -/
def pdats : (p : Fin 7) → (c : Dev nD) → Dat τ (Elt F) Unit ℕ (UR sig nD τ) ℕ (cfgs p) c
  | ⟨0, _⟩ => fun c => dat0 (atTc (W1 m)) c
  | ⟨1, _⟩ => fun c => dat1 (atTc (W5 m)) c
  | ⟨2, _⟩ => fun c => dat2 (atTc (W7 m)) c
  | ⟨3, _⟩ => fun c => dat3 (atTc (W11 m)) c
  | ⟨4, _⟩ => fun c => dat4 (atTc (W13 m)) c
  | ⟨5, _⟩ => fun c => dat5 (atTc (W17 m)) c
  | ⟨6, _⟩ => fun c => dat6 (atTc (W19 m)) c

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)

/-! From here on the fold's contents are opaque: they are read only through the lemmas above (and by `unfold` where a
    stretch of host operations is to be computed). -/
attribute [irreducible] W1 W2 W3 W4 W5 W6 W7 W8 W9 W10 W11 W12 W13 W14 W15 W16 W17 W18 W19 W20 W21 W22

end Cert.KernelIdeal.Fold

end
-- ==== Proof.KI.Reg0.lean ====
/-
  Region 0 as a segment of the program's run: entered with every unscoped buffer at the fold's contents before
  it, left with its output array at what its write-backs leave and everything else unchanged.
-/
import proofs.«158875_j46291157516821_1_alg».proof.Proof.KI.Fold
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input as entered, the output its folded
    write-backs; and every other buffer what it held at entry. -/
theorem out_arr0 (c : Dev nD) : (pdats m 0 c).arrAt 3 cfg0.N = atTc (W2 m) c (Pipeline.arrRef spec0 3) := by
  refine Eq.trans ?_ (W2_out m c).symm
  unfold o2; rfl
theorem hF0 (c : Dev nD) (w : Fin cfg0.W) : (pdats m 0 c).arrAt w cfg0.N = atTc (W2 m) c (Pipeline.arrRef spec0 w) := by
  by_cases h3 : w = 3
  · subst h3; exact out_arr0 m c
  · have hin : (cfg0.win w).isOut = false := by revert w; decide
    have hne : Pipeline.arrRef spec0 w ≠ main_v26 := by revert w; decide
    exact (((pdats m 0 c).arrAt_in w hin _).trans (A_eq0 (atTc (W1 m)) c w)).trans (W2_ne m c _ hne).symm
theorem hrest0 (c : Dev nD) : ∀ b, b ∉ Finset.univ.image (Pipeline.arrRef spec0) → atTc (W2 m) c b = atTc (W1 m) c b := by
  intro b hb
  exact W2_ne m c b fun e => hb (Finset.mem_image.mpr ⟨3, Finset.mem_univ _, e.symm⟩)

set_option backward.isDefEq.respectTransparency.types false in
/-- Region 0 over the thread state: entered with every unscoped buffer at `W1`, left at `W2`. Its arrays are
    split out of the unscoped buffers and put back at the exit contents; the generator register passes through the
    class invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KI.Reg1.lean ====
/-
  Region 1 as a segment of the program's run: entered with every unscoped buffer at the fold's contents before
  it, left with its output array at what its write-backs leave and everything else unchanged.
-/
import proofs.«158875_j46291157516821_1_alg».proof.Proof.KI.Fold
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input as entered, the output its folded
    write-backs; and every other buffer what it held at entry. -/
theorem out_arr1 (c : Dev nD) : (pdats m 1 c).arrAt 3 cfg1.N = atTc (W6 m) c (Pipeline.arrRef spec1 3) := by
  refine Eq.trans ?_ (W6_out m c).symm
  unfold o6; rfl
theorem hF1 (c : Dev nD) (w : Fin cfg1.W) : (pdats m 1 c).arrAt w cfg1.N = atTc (W6 m) c (Pipeline.arrRef spec1 w) := by
  by_cases h3 : w = 3
  · subst h3; exact out_arr1 m c
  · have hin : (cfg1.win w).isOut = false := by revert w; decide
    have hne : Pipeline.arrRef spec1 w ≠ main_v47 := by revert w; decide
    exact (((pdats m 1 c).arrAt_in w hin _).trans (A_eq1 (atTc (W5 m)) c w)).trans (W6_ne m c _ hne).symm
theorem hrest1 (c : Dev nD) : ∀ b, b ∉ Finset.univ.image (Pipeline.arrRef spec1) → atTc (W6 m) c b = atTc (W5 m) c b := by
  intro b hb
  exact W6_ne m c b fun e => hb (Finset.mem_image.mpr ⟨3, Finset.mem_univ _, e.symm⟩)

set_option backward.isDefEq.respectTransparency.types false in
/-- Region 1 over the thread state: entered with every unscoped buffer at `W5`, left at `W6`. Its arrays are
    split out of the unscoped buffers and put back at the exit contents; the generator register passes through the
    class invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KI.Reg2.lean ====
/-
  Region 2 as a segment of the program's run: entered with every unscoped buffer at the fold's contents before
  it, left with its output array at what its write-backs leave and everything else unchanged.
-/
import proofs.«158875_j46291157516821_1_alg».proof.Proof.KI.Fold
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input as entered, the output its folded
    write-backs; and every other buffer what it held at entry. -/
theorem out_arr2 (c : Dev nD) : (pdats m 2 c).arrAt 3 cfg2.N = atTc (W8 m) c (Pipeline.arrRef spec2 3) := by
  refine Eq.trans ?_ (W8_out m c).symm
  unfold o8; rfl
theorem hF2 (c : Dev nD) (w : Fin cfg2.W) : (pdats m 2 c).arrAt w cfg2.N = atTc (W8 m) c (Pipeline.arrRef spec2 w) := by
  by_cases h3 : w = 3
  · subst h3; exact out_arr2 m c
  · have hin : (cfg2.win w).isOut = false := by revert w; decide
    have hne : Pipeline.arrRef spec2 w ≠ main_v51 := by revert w; decide
    exact (((pdats m 2 c).arrAt_in w hin _).trans (A_eq2 (atTc (W7 m)) c w)).trans (W8_ne m c _ hne).symm
theorem hrest2 (c : Dev nD) : ∀ b, b ∉ Finset.univ.image (Pipeline.arrRef spec2) → atTc (W8 m) c b = atTc (W7 m) c b := by
  intro b hb
  exact W8_ne m c b fun e => hb (Finset.mem_image.mpr ⟨3, Finset.mem_univ _, e.symm⟩)

set_option backward.isDefEq.respectTransparency.types false in
/-- Region 2 over the thread state: entered with every unscoped buffer at `W7`, left at `W8`. Its arrays are
    split out of the unscoped buffers and put back at the exit contents; the generator register passes through the
    class invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KI.Reg3.lean ====
/-
  Region 3 as a segment of the program's run: entered with every unscoped buffer at the fold's contents before
  it, left with its output array at what its write-backs leave and everything else unchanged.
-/
import proofs.«158875_j46291157516821_1_alg».proof.Proof.KI.Fold
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 3's exit each of its arrays holds what the pipeline leaves: an input as entered, the output its folded
    write-backs; and every other buffer what it held at entry. -/
theorem out_arr3 (c : Dev nD) : (pdats m 3 c).arrAt 3 cfg3.N = atTc (W12 m) c (Pipeline.arrRef spec3 3) := by
  refine Eq.trans ?_ (W12_out m c).symm
  unfold o12; rfl
theorem hF3 (c : Dev nD) (w : Fin cfg3.W) : (pdats m 3 c).arrAt w cfg3.N = atTc (W12 m) c (Pipeline.arrRef spec3 w) := by
  by_cases h3 : w = 3
  · subst h3; exact out_arr3 m c
  · have hin : (cfg3.win w).isOut = false := by revert w; decide
    have hne : Pipeline.arrRef spec3 w ≠ main_v83 := by revert w; decide
    exact (((pdats m 3 c).arrAt_in w hin _).trans (A_eq3 (atTc (W11 m)) c w)).trans (W12_ne m c _ hne).symm
theorem hrest3 (c : Dev nD) : ∀ b, b ∉ Finset.univ.image (Pipeline.arrRef spec3) → atTc (W12 m) c b = atTc (W11 m) c b := by
  intro b hb
  exact W12_ne m c b fun e => hb (Finset.mem_image.mpr ⟨3, Finset.mem_univ _, e.symm⟩)

set_option backward.isDefEq.respectTransparency.types false in
/-- Region 3 over the thread state: entered with every unscoped buffer at `W11`, left at `W12`. Its arrays are
    split out of the unscoped buffers and put back at the exit contents; the generator register passes through the
    class invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W11 m)) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (atTc (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W11 m) c) (atTc (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KI.Reg4.lean ====
/-
  Region 4 as a segment of the program's run: entered with every unscoped buffer at the fold's contents before
  it, left with its output array at what its write-backs leave and everything else unchanged.
-/
import proofs.«158875_j46291157516821_1_alg».proof.Proof.KI.Fold
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input as entered, the output its folded
    write-backs; and every other buffer what it held at entry. -/
theorem out_arr4 (c : Dev nD) : (pdats m 4 c).arrAt 3 cfg4.N = atTc (W14 m) c (Pipeline.arrRef spec4 3) := by
  refine Eq.trans ?_ (W14_out m c).symm
  unfold o14; rfl
theorem hF4 (c : Dev nD) (w : Fin cfg4.W) : (pdats m 4 c).arrAt w cfg4.N = atTc (W14 m) c (Pipeline.arrRef spec4 w) := by
  by_cases h3 : w = 3
  · subst h3; exact out_arr4 m c
  · have hin : (cfg4.win w).isOut = false := by revert w; decide
    have hne : Pipeline.arrRef spec4 w ≠ main_v87 := by revert w; decide
    exact (((pdats m 4 c).arrAt_in w hin _).trans (A_eq4 (atTc (W13 m)) c w)).trans (W14_ne m c _ hne).symm
theorem hrest4 (c : Dev nD) : ∀ b, b ∉ Finset.univ.image (Pipeline.arrRef spec4) → atTc (W14 m) c b = atTc (W13 m) c b := by
  intro b hb
  exact W14_ne m c b fun e => hb (Finset.mem_image.mpr ⟨3, Finset.mem_univ _, e.symm⟩)

set_option backward.isDefEq.respectTransparency.types false in
/-- Region 4 over the thread state: entered with every unscoped buffer at `W13`, left at `W14`. Its arrays are
    split out of the unscoped buffers and put back at the exit contents; the generator register passes through the
    class invariant; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W13 m)) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (atTc (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W13 m) c) (atTc (W14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KI.Reg5.lean ====
/-
  Region 5 as a segment of the program's run: entered with every unscoped buffer at the fold's contents before
  it, left with its output array at what its write-backs leave and everything else unchanged.
-/
import proofs.«158875_j46291157516821_1_alg».proof.Proof.KI.Fold
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 5's exit each of its arrays holds what the pipeline leaves: an input as entered, the output its folded
    write-backs; and every other buffer what it held at entry. -/
theorem out_arr5 (c : Dev nD) : (pdats m 5 c).arrAt 3 cfg5.N = atTc (W18 m) c (Pipeline.arrRef spec5 3) := by
  refine Eq.trans ?_ (W18_out m c).symm
  unfold o18; rfl
theorem hF5 (c : Dev nD) (w : Fin cfg5.W) : (pdats m 5 c).arrAt w cfg5.N = atTc (W18 m) c (Pipeline.arrRef spec5 w) := by
  by_cases h3 : w = 3
  · subst h3; exact out_arr5 m c
  · have hin : (cfg5.win w).isOut = false := by revert w; decide
    have hne : Pipeline.arrRef spec5 w ≠ main_v131 := by revert w; decide
    exact (((pdats m 5 c).arrAt_in w hin _).trans (A_eq5 (atTc (W17 m)) c w)).trans (W18_ne m c _ hne).symm
theorem hrest5 (c : Dev nD) : ∀ b, b ∉ Finset.univ.image (Pipeline.arrRef spec5) → atTc (W18 m) c b = atTc (W17 m) c b := by
  intro b hb
  exact W18_ne m c b fun e => hb (Finset.mem_image.mpr ⟨3, Finset.mem_univ _, e.symm⟩)

set_option backward.isDefEq.respectTransparency.types false in
/-- Region 5 over the thread state: entered with every unscoped buffer at `W17`, left at `W18`. Its arrays are
    split out of the unscoped buffers and put back at the exit contents; the generator register passes through the
    class invariant; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W17 m)) c).loose
  hwaits := Pipeline.hwaits_of_owed_zero _ _ _ _ L lv 5 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec5 c (atTc (W17 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W17 m) c) (atTc (W18 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KI.Reg6.lean ====
/-
  Region 6 as a segment of the program's run: entered with every unscoped buffer at the fold's contents before
  it, left with its output array at what its write-backs leave and everything else unchanged.
-/
import proofs.«158875_j46291157516821_1_alg».proof.Proof.KI.Fold
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- At region 6's exit each of its arrays holds what the pipeline leaves: an input as entered, the output its folded
    write-backs; and every other buffer what it held at entry. -/
theorem out_arr6 (c : Dev nD) : (pdats m 6 c).arrAt 3 cfg6.N = atTc (W20 m) c (Pipeline.arrRef spec6 3) := by
  refine Eq.trans ?_ (W20_out m c).symm
  unfold o20; rfl
theorem hF6 (c : Dev nD) (w : Fin cfg6.W) : (pdats m 6 c).arrAt w cfg6.N = atTc (W20 m) c (Pipeline.arrRef spec6 w) := by
  by_cases h3 : w = 3
  · subst h3; exact out_arr6 m c
  · have hin : (cfg6.win w).isOut = false := by revert w; decide
    have hne : Pipeline.arrRef spec6 w ≠ main_v135 := by revert w; decide
    exact (((pdats m 6 c).arrAt_in w hin _).trans (A_eq6 (atTc (W19 m)) c w)).trans (W20_ne m c _ hne).symm
theorem hrest6 (c : Dev nD) : ∀ b, b ∉ Finset.univ.image (Pipeline.arrRef spec6) → atTc (W20 m) c b = atTc (W19 m) c b := by
  intro b hb
  exact W20_ne m c b fun e => hb (Finset.mem_image.mpr ⟨3, Finset.mem_univ _, e.symm⟩)

set_option backward.isDefEq.respectTransparency.types false in
/-- Region 6 over the thread state: entered with every unscoped buffer at `W19`, left at `W20`. Its arrays are
    split out of the unscoped buffers and put back at the exit contents; the generator register passes through the
    class invariant; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W19 m)) c).loose
  hwaits := Pipeline.hwaits_of_owed_zero _ _ _ _ L lv 6 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec6 c (atTc (W19 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W19 m) c) (atTc (W20 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fold

end
-- ==== Proof.KI.Run.lean ====
/-
  The run of the whole program: its seven dense-layer regions as segments between the stretches of host operations,
  chained through the thread state "every unscoped buffer at the fold's contents, the generator register at some
  state, nothing owed". Every weakly fair execution terminates without a fault and every unscoped buffer ends at
  the last contents of the fold; in particular the argument arrays end as launched.
-/
import proofs.«158875_j46291157516821_1_alg».proof.Proof.KI.Reg0
import proofs.«158875_j46291157516821_1_alg».proof.Proof.KI.Reg1
import proofs.«158875_j46291157516821_1_alg».proof.Proof.KI.Reg2
import proofs.«158875_j46291157516821_1_alg».proof.Proof.KI.Reg3
import proofs.«158875_j46291157516821_1_alg».proof.Proof.KI.Reg4
import proofs.«158875_j46291157516821_1_alg».proof.Proof.KI.Reg5
import proofs.«158875_j46291157516821_1_alg».proof.Proof.KI.Reg6
import Idealize.ShloMosaic.Lib.Pipeline.Frame
import Idealize.ShloMosaic.Lib.Pipeline.Regions

set_option maxRecDepth 16384

noncomputable section

namespace Cert.KernelIdeal.Fold

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest state beside the buffers, the same between any two items. -/
abbrev E : Fin 8 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and every unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m))
    (fun c Q => by
      rewrite [main_chain c, Seg.run_eq_chain,
        show (segs m (outs m) 𝒱₀ L lv E () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          Prog.lift (.customCall (Pipeline.entry 6) ()),
          StableHlo.seq hostOps7,
          StableHlo.seq hostOps7_1 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W22 m c) ∗ ∃ r, prngReg c r))
    (hch := fun c => ⟨.rfl,
      (by show iprop(StableHlo.held (c : Thread nD τ) (Pipeline.ucRefs τ sig) (V1 m c) ∗ R c) ⊢ iprop(StableHlo.held (c : Thread nD τ) (Pipeline.ucRefs τ sig) (W1 m c) ∗ R c); rw [V1_eq] <;> exact .rfl),
      (by show iprop(StableHlo.held (c : Thread nD τ) (Pipeline.ucRefs τ sig) (W2 m c) ∗ R c) ⊢ iprop(StableHlo.held (c : Thread nD τ) (Pipeline.ucRefs τ sig) (V2 m (outs m) c) ∗ R c); rw [V2_eq] <;> exact .rfl),
      .rfl,
      .rfl,
      (by show iprop(StableHlo.held (c : Thread nD τ) (Pipeline.ucRefs τ sig) (V5 m (outs m) c) ∗ R c) ⊢ iprop(StableHlo.held (c : Thread nD τ) (Pipeline.ucRefs τ sig) (W5 m c) ∗ R c); rw [V5_eq] <;> exact .rfl),
      (by show iprop(StableHlo.held (c : Thread nD τ) (Pipeline.ucRefs τ sig) (W6 m c) ∗ R c) ⊢ iprop(StableHlo.held (c : Thread nD τ) (Pipeline.ucRefs τ sig) (V6 m (outs m) c) ∗ R c); rw [V6_eq] <;> exact .rfl),
      (by show iprop(StableHlo.held (c : Thread nD τ) (Pipeline.ucRefs τ sig) (V7 m (outs m) c) ∗ R c) ⊢ iprop(StableHlo.held (c : Thread nD τ) (Pipeline.ucRefs τ sig) (W7 m c) ∗ R c); rw [V7_eq] <;> exact .rfl),
      (by show iprop(StableHlo.held (c : Thread nD τ) (Pipeline.ucRefs τ sig) (W8 m c) ∗ R c) ⊢ iprop(StableHlo.held (c : Thread nD τ) (Pipeline.ucRefs τ sig) (V8 m (outs m) c) ∗ R c); rw [V8_eq] <;> exact .rfl),
      .rfl,
      .rfl,
      (by show iprop(StableHlo.held (c : Thread nD τ) (Pipeline.ucRefs τ sig) (V11 m (outs m) c) ∗ R c) ⊢ iprop(StableHlo.held (c : Thread nD τ) (Pipeline.ucRefs τ sig) (W11 m c) ∗ R c); rw [V11_eq] <;> exact .rfl),
      (by show iprop(StableHlo.held (c : Thread nD τ) (Pipeline.ucRefs τ sig) (W12 m c) ∗ R c) ⊢ iprop(StableHlo.held (c : Thread nD τ) (Pipeline.ucRefs τ sig) (V12 m (outs m) c) ∗ R c); rw [V12_eq] <;> exact .rfl),
      (by show iprop(StableHlo.held (c : Thread nD τ) (Pipeline.ucRefs τ sig) (V13 m (outs m) c) ∗ R c) ⊢ iprop(StableHlo.held (c : Thread nD τ) (Pipeline.ucRefs τ sig) (W13 m c) ∗ R c); rw [V13_eq] <;> exact .rfl),
      (by show iprop(StableHlo.held (c : Thread nD τ) (Pipeline.ucRefs τ sig) (W14 m c) ∗ R c) ⊢ iprop(StableHlo.held (c : Thread nD τ) (Pipeline.ucRefs τ sig) (V14 m (outs m) c) ∗ R c); rw [V14_eq] <;> exact .rfl),
      .rfl,
      .rfl,
      (by show iprop(StableHlo.held (c : Thread nD τ) (Pipeline.ucRefs τ sig) (V17 m (outs m) c) ∗ R c) ⊢ iprop(StableHlo.held (c : Thread nD τ) (Pipeline.ucRefs τ sig) (W17 m c) ∗ R c); rw [V17_eq] <;> exact .rfl),
      (by show iprop(StableHlo.held (c : Thread nD τ) (Pipeline.ucRefs τ sig) (W18 m c) ∗ R c) ⊢ iprop(StableHlo.held (c : Thread nD τ) (Pipeline.ucRefs τ sig) (V18 m (outs m) c) ∗ R c); rw [V18_eq] <;> exact .rfl),
      (by show iprop(StableHlo.held (c : Thread nD τ) (Pipeline.ucRefs τ sig) (V19 m (outs m) c) ∗ R c) ⊢ iprop(StableHlo.held (c : Thread nD τ) (Pipeline.ucRefs τ sig) (W19 m c) ∗ R c); rw [V19_eq] <;> exact .rfl),
      (by show iprop(StableHlo.held (c : Thread nD τ) (Pipeline.ucRefs τ sig) (W20 m c) ∗ R c) ⊢ iprop(StableHlo.held (c : Thread nD τ) (Pipeline.ucRefs τ sig) (V20 m (outs m) c) ∗ R c); rw [V20_eq] <;> exact .rfl),
      .rfl, ?_⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)
  · -- the last stretch ends at the fold's last contents, beside the generator register and the core owing nothing
    show iprop(StableHlo.held (c : Thread nD τ) (Pipeline.ucRefs τ sig) (V22 m (outs m) c) ∗ R c) ⊢ iprop((StableHlo.held (c : Thread nD τ) (Pipeline.ucRefs τ sig) (W22 m c) ∗ ∃ r, prngReg c r) ∗ ∃ W, owes (c.tc : Thread nD τ) (0 : CellTallies nD τ sig Unit) W)
    rw [V22_eq]
    iintro ⟨Hh, Hp, HO⟩
    isplitl [Hh Hp]
    · isplitl [Hh]; · iexact Hh
      iexact Hp
    iexact HO

/-- The two result arrays end at the fold's last contents, and the argument arrays as launched. -/
theorem run_results : θ_run defs (onTc (τ := τ) (main (F := F))) ⟨m, fun _ => 0, ρ⟩ (fun r => ∀ c : Dev nD,
      r.2.mem ((c.tc : Thread nD τ).loc main_v151) = W22 m c main_v151
      ∧ r.2.mem ((c.tc : Thread nD τ).loc main_v150) = W22 m c main_v150
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have hc := h c
    refine ⟨hc _ (mem_uc main_v151 (by decide)), hc _ (mem_uc main_v150 (by decide)), ?_⟩
    rw [show W22 m c = V22 m (outs m) c from (V22_eq m c).symm] at hc
    exact ⟨(hc _ (mem_uc main_arg0 (by decide))).trans (V22_main_arg0 m (outs m) c),
      (hc _ (mem_uc main_arg1 (by decide))).trans (V22_main_arg1 m (outs m) c),
      (hc _ (mem_uc main_arg2 (by decide))).trans (V22_main_arg2 m (outs m) c),
      (hc _ (mem_uc main_arg3 (by decide))).trans (V22_main_arg3 m (outs m) c),
      (hc _ (mem_uc main_arg4 (by decide))).trans (V22_main_arg4 m (outs m) c),
      (hc _ (mem_uc main_arg5 (by decide))).trans (V22_main_arg5 m (outs m) c),
      (hc _ (mem_uc main_arg6 (by decide))).trans (V22_main_arg6 m (outs m) c),
      (hc _ (mem_uc main_arg7 (by decide))).trans (V22_main_arg7 m (outs m) c),
      (hc _ (mem_uc main_arg8 (by decide))).trans (V22_main_arg8 m (outs m) c),
      (hc _ (mem_uc main_arg9 (by decide))).trans (V22_main_arg9 m (outs m) c),
      (hc _ (mem_uc main_arg10 (by decide))).trans (V22_main_arg10 m (outs m) c),
      (hc _ (mem_uc main_arg11 (by decide))).trans (V22_main_arg11 m (outs m) c),
      (hc _ (mem_uc main_arg12 (by decide))).trans (V22_main_arg12 m (outs m) c),
      (hc _ (mem_uc main_arg13 (by decide))).trans (V22_main_arg13 m (outs m) c),
      (hc _ (mem_uc main_arg14 (by decide))).trans (V22_main_arg14 m (outs m) c),
      (hc _ (mem_uc main_arg15 (by decide))).trans (V22_main_arg15 m (outs m) c),
      (hc _ (mem_uc main_arg16 (by decide))).trans (V22_main_arg16 m (outs m) c),
      (hc _ (mem_uc main_arg17 (by decide))).trans (V22_main_arg17 m (outs m) c),
      (hc _ (mem_uc main_arg18 (by decide))).trans (V22_main_arg18 m (outs m) c)⟩) (run_all m ρ)

/-- THE FRAME: the argument arrays end as launched (no host operation writes one, no region changes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have hc := h c
    rw [show W22 m c = V22 m (outs m) c from (V22_eq m c).symm] at hc
    exact ⟨(hc _ (mem_uc main_arg0 (by decide))).trans (V22_main_arg0 m (outs m) c),
      (hc _ (mem_uc main_arg1 (by decide))).trans (V22_main_arg1 m (outs m) c),
      (hc _ (mem_uc main_arg2 (by decide))).trans (V22_main_arg2 m (outs m) c),
      (hc _ (mem_uc main_arg3 (by decide))).trans (V22_main_arg3 m (outs m) c),
      (hc _ (mem_uc main_arg4 (by decide))).trans (V22_main_arg4 m (outs m) c),
      (hc _ (mem_uc main_arg5 (by decide))).trans (V22_main_arg5 m (outs m) c),
      (hc _ (mem_uc main_arg6 (by decide))).trans (V22_main_arg6 m (outs m) c),
      (hc _ (mem_uc main_arg7 (by decide))).trans (V22_main_arg7 m (outs m) c),
      (hc _ (mem_uc main_arg8 (by decide))).trans (V22_main_arg8 m (outs m) c),
      (hc _ (mem_uc main_arg9 (by decide))).trans (V22_main_arg9 m (outs m) c),
      (hc _ (mem_uc main_arg10 (by decide))).trans (V22_main_arg10 m (outs m) c),
      (hc _ (mem_uc main_arg11 (by decide))).trans (V22_main_arg11 m (outs m) c),
      (hc _ (mem_uc main_arg12 (by decide))).trans (V22_main_arg12 m (outs m) c),
      (hc _ (mem_uc main_arg13 (by decide))).trans (V22_main_arg13 m (outs m) c),
      (hc _ (mem_uc main_arg14 (by decide))).trans (V22_main_arg14 m (outs m) c),
      (hc _ (mem_uc main_arg15 (by decide))).trans (V22_main_arg15 m (outs m) c),
      (hc _ (mem_uc main_arg16 (by decide))).trans (V22_main_arg16 m (outs m) c),
      (hc _ (mem_uc main_arg17 (by decide))).trans (V22_main_arg17 m (outs m) c),
      (hc _ (mem_uc main_arg18 (by decide))).trans (V22_main_arg18 m (outs m) c)⟩) (run_all m ρ)

end Cert.KernelIdeal.Fold

end
-- ==== Proof.KI.Carry.lean ====
/-
  Bookkeeping over the fold of buffer contents: a buffer keeps its contents through every item that does not
  write it. Stated for the buffers later items read back: the two edge-index vectors, the normalisation column,
  the argument arrays, each layer's aggregated features, and the logits.
-/
import proofs.«158875_j46291157516821_1_alg».proof.Proof.KI.Fold
import Idealize.ShloMosaic.Lib.StableHlo.Run

set_option maxRecDepth 16384

noncomputable section

namespace Cert.Bridge

open Cert.KernelIdeal Cert.KernelIdeal.Gen Cert.KernelIdeal.Fold
open Idealize.ShloMosaic Idealize.ShloMosaic.TcCoe Idealize.ShloMosaic.StableHlo
open Idealize.SL Idealize.SL.Sem

variable {F : FTy → Type} [FloatOps F] (m : (ℓ : Loc nD τ sig) → Buf (Elt F) ℓ)

theorem carry_main_v1_1_2 (c : Dev nD) : W2 m c main_v1 = W1 m c main_v1 :=
  (congrFun (V2_eq m c) main_v1).symm.trans (((V2_of m (outs m) c main_v1 (by decide))).trans (congrFun (V1_eq m c) main_v1))

theorem carry_main_v2_1_2 (c : Dev nD) : W2 m c main_v2 = W1 m c main_v2 :=
  (congrFun (V2_eq m c) main_v2).symm.trans (((V2_of m (outs m) c main_v2 (by decide))).trans (congrFun (V1_eq m c) main_v2))

theorem carry_main_v23_1_2 (c : Dev nD) : W2 m c main_v23 = W1 m c main_v23 :=
  (congrFun (V2_eq m c) main_v23).symm.trans (((V2_of m (outs m) c main_v23 (by decide))).trans (congrFun (V1_eq m c) main_v23))

theorem carry_main_v1_1_8 (c : Dev nD) : W8 m c main_v1 = W1 m c main_v1 :=
  (congrFun (V8_eq m c) main_v1).symm.trans (((V8_of m (outs m) c main_v1 (by decide)).trans ((V7_of m (outs m) c main_v1 (by decide)).trans ((V6_of m (outs m) c main_v1 (by decide)).trans ((V5_of m (outs m) c main_v1 (by decide)).trans ((V4_of m (outs m) c main_v1 (by decide)).trans ((V3_of m (outs m) c main_v1 (by decide)).trans ((V2_of m (outs m) c main_v1 (by decide))))))))).trans (congrFun (V1_eq m c) main_v1))

theorem carry_main_v2_1_8 (c : Dev nD) : W8 m c main_v2 = W1 m c main_v2 :=
  (congrFun (V8_eq m c) main_v2).symm.trans (((V8_of m (outs m) c main_v2 (by decide)).trans ((V7_of m (outs m) c main_v2 (by decide)).trans ((V6_of m (outs m) c main_v2 (by decide)).trans ((V5_of m (outs m) c main_v2 (by decide)).trans ((V4_of m (outs m) c main_v2 (by decide)).trans ((V3_of m (outs m) c main_v2 (by decide)).trans ((V2_of m (outs m) c main_v2 (by decide))))))))).trans (congrFun (V1_eq m c) main_v2))

theorem carry_main_v23_1_8 (c : Dev nD) : W8 m c main_v23 = W1 m c main_v23 :=
  (congrFun (V8_eq m c) main_v23).symm.trans (((V8_of m (outs m) c main_v23 (by decide)).trans ((V7_of m (outs m) c main_v23 (by decide)).trans ((V6_of m (outs m) c main_v23 (by decide)).trans ((V5_of m (outs m) c main_v23 (by decide)).trans ((V4_of m (outs m) c main_v23 (by decide)).trans ((V3_of m (outs m) c main_v23 (by decide)).trans ((V2_of m (outs m) c main_v23 (by decide))))))))).trans (congrFun (V1_eq m c) main_v23))

theorem carry_main_v1_1_14 (c : Dev nD) : W14 m c main_v1 = W1 m c main_v1 :=
  (congrFun (V14_eq m c) main_v1).symm.trans (((V14_of m (outs m) c main_v1 (by decide)).trans ((V13_of m (outs m) c main_v1 (by decide)).trans ((V12_of m (outs m) c main_v1 (by decide)).trans ((V11_of m (outs m) c main_v1 (by decide)).trans ((V10_of m (outs m) c main_v1 (by decide)).trans ((V9_of m (outs m) c main_v1 (by decide)).trans ((V8_of m (outs m) c main_v1 (by decide)).trans ((V7_of m (outs m) c main_v1 (by decide)).trans ((V6_of m (outs m) c main_v1 (by decide)).trans ((V5_of m (outs m) c main_v1 (by decide)).trans ((V4_of m (outs m) c main_v1 (by decide)).trans ((V3_of m (outs m) c main_v1 (by decide)).trans ((V2_of m (outs m) c main_v1 (by decide))))))))))))))).trans (congrFun (V1_eq m c) main_v1))

theorem carry_main_v2_1_14 (c : Dev nD) : W14 m c main_v2 = W1 m c main_v2 :=
  (congrFun (V14_eq m c) main_v2).symm.trans (((V14_of m (outs m) c main_v2 (by decide)).trans ((V13_of m (outs m) c main_v2 (by decide)).trans ((V12_of m (outs m) c main_v2 (by decide)).trans ((V11_of m (outs m) c main_v2 (by decide)).trans ((V10_of m (outs m) c main_v2 (by decide)).trans ((V9_of m (outs m) c main_v2 (by decide)).trans ((V8_of m (outs m) c main_v2 (by decide)).trans ((V7_of m (outs m) c main_v2 (by decide)).trans ((V6_of m (outs m) c main_v2 (by decide)).trans ((V5_of m (outs m) c main_v2 (by decide)).trans ((V4_of m (outs m) c main_v2 (by decide)).trans ((V3_of m (outs m) c main_v2 (by decide)).trans ((V2_of m (outs m) c main_v2 (by decide))))))))))))))).trans (congrFun (V1_eq m c) main_v2))

theorem carry_main_v23_1_14 (c : Dev nD) : W14 m c main_v23 = W1 m c main_v23 :=
  (congrFun (V14_eq m c) main_v23).symm.trans (((V14_of m (outs m) c main_v23 (by decide)).trans ((V13_of m (outs m) c main_v23 (by decide)).trans ((V12_of m (outs m) c main_v23 (by decide)).trans ((V11_of m (outs m) c main_v23 (by decide)).trans ((V10_of m (outs m) c main_v23 (by decide)).trans ((V9_of m (outs m) c main_v23 (by decide)).trans ((V8_of m (outs m) c main_v23 (by decide)).trans ((V7_of m (outs m) c main_v23 (by decide)).trans ((V6_of m (outs m) c main_v23 (by decide)).trans ((V5_of m (outs m) c main_v23 (by decide)).trans ((V4_of m (outs m) c main_v23 (by decide)).trans ((V3_of m (outs m) c main_v23 (by decide)).trans ((V2_of m (outs m) c main_v23 (by decide))))))))))))))).trans (congrFun (V1_eq m c) main_v23))

theorem carry_main_v1_1_20 (c : Dev nD) : W20 m c main_v1 = W1 m c main_v1 :=
  (congrFun (V20_eq m c) main_v1).symm.trans (((V20_of m (outs m) c main_v1 (by decide)).trans ((V19_of m (outs m) c main_v1 (by decide)).trans ((V18_of m (outs m) c main_v1 (by decide)).trans ((V17_of m (outs m) c main_v1 (by decide)).trans ((V16_of m (outs m) c main_v1 (by decide)).trans ((V15_of m (outs m) c main_v1 (by decide)).trans ((V14_of m (outs m) c main_v1 (by decide)).trans ((V13_of m (outs m) c main_v1 (by decide)).trans ((V12_of m (outs m) c main_v1 (by decide)).trans ((V11_of m (outs m) c main_v1 (by decide)).trans ((V10_of m (outs m) c main_v1 (by decide)).trans ((V9_of m (outs m) c main_v1 (by decide)).trans ((V8_of m (outs m) c main_v1 (by decide)).trans ((V7_of m (outs m) c main_v1 (by decide)).trans ((V6_of m (outs m) c main_v1 (by decide)).trans ((V5_of m (outs m) c main_v1 (by decide)).trans ((V4_of m (outs m) c main_v1 (by decide)).trans ((V3_of m (outs m) c main_v1 (by decide)).trans ((V2_of m (outs m) c main_v1 (by decide))))))))))))))))))))).trans (congrFun (V1_eq m c) main_v1))

theorem carry_main_v2_1_20 (c : Dev nD) : W20 m c main_v2 = W1 m c main_v2 :=
  (congrFun (V20_eq m c) main_v2).symm.trans (((V20_of m (outs m) c main_v2 (by decide)).trans ((V19_of m (outs m) c main_v2 (by decide)).trans ((V18_of m (outs m) c main_v2 (by decide)).trans ((V17_of m (outs m) c main_v2 (by decide)).trans ((V16_of m (outs m) c main_v2 (by decide)).trans ((V15_of m (outs m) c main_v2 (by decide)).trans ((V14_of m (outs m) c main_v2 (by decide)).trans ((V13_of m (outs m) c main_v2 (by decide)).trans ((V12_of m (outs m) c main_v2 (by decide)).trans ((V11_of m (outs m) c main_v2 (by decide)).trans ((V10_of m (outs m) c main_v2 (by decide)).trans ((V9_of m (outs m) c main_v2 (by decide)).trans ((V8_of m (outs m) c main_v2 (by decide)).trans ((V7_of m (outs m) c main_v2 (by decide)).trans ((V6_of m (outs m) c main_v2 (by decide)).trans ((V5_of m (outs m) c main_v2 (by decide)).trans ((V4_of m (outs m) c main_v2 (by decide)).trans ((V3_of m (outs m) c main_v2 (by decide)).trans ((V2_of m (outs m) c main_v2 (by decide))))))))))))))))))))).trans (congrFun (V1_eq m c) main_v2))

theorem carry_main_v23_1_20 (c : Dev nD) : W20 m c main_v23 = W1 m c main_v23 :=
  (congrFun (V20_eq m c) main_v23).symm.trans (((V20_of m (outs m) c main_v23 (by decide)).trans ((V19_of m (outs m) c main_v23 (by decide)).trans ((V18_of m (outs m) c main_v23 (by decide)).trans ((V17_of m (outs m) c main_v23 (by decide)).trans ((V16_of m (outs m) c main_v23 (by decide)).trans ((V15_of m (outs m) c main_v23 (by decide)).trans ((V14_of m (outs m) c main_v23 (by decide)).trans ((V13_of m (outs m) c main_v23 (by decide)).trans ((V12_of m (outs m) c main_v23 (by decide)).trans ((V11_of m (outs m) c main_v23 (by decide)).trans ((V10_of m (outs m) c main_v23 (by decide)).trans ((V9_of m (outs m) c main_v23 (by decide)).trans ((V8_of m (outs m) c main_v23 (by decide)).trans ((V7_of m (outs m) c main_v23 (by decide)).trans ((V6_of m (outs m) c main_v23 (by decide)).trans ((V5_of m (outs m) c main_v23 (by decide)).trans ((V4_of m (outs m) c main_v23 (by decide)).trans ((V3_of m (outs m) c main_v23 (by decide)).trans ((V2_of m (outs m) c main_v23 (by decide))))))))))))))))))))).trans (congrFun (V1_eq m c) main_v23))

theorem carry_main_arg0_0_1 (c : Dev nD) : W1 m c main_arg0 = m ((c.tc : Thread nD τ).loc main_arg0) :=
  (congrFun (V1_eq m c) main_arg0).symm.trans (((V1_of m c main_arg0 (by decide))).trans rfl)

theorem carry_main_arg5_0_2 (c : Dev nD) : W2 m c main_arg5 = m ((c.tc : Thread nD τ).loc main_arg5) :=
  (congrFun (V2_eq m c) main_arg5).symm.trans (((V2_of m (outs m) c main_arg5 (by decide)).trans ((V1_of m c main_arg5 (by decide)))).trans rfl)

theorem carry_main_arg1_0_4 (c : Dev nD) : W4 m c main_arg1 = m ((c.tc : Thread nD τ).loc main_arg1) :=
  (congrFun (V4_eq m c) main_arg1).symm.trans (((V4_of m (outs m) c main_arg1 (by decide)).trans ((V3_of m (outs m) c main_arg1 (by decide)).trans ((V2_of m (outs m) c main_arg1 (by decide)).trans ((V1_of m c main_arg1 (by decide)))))).trans rfl)

theorem carry_main_arg11_0_4 (c : Dev nD) : W4 m c main_arg11 = m ((c.tc : Thread nD τ).loc main_arg11) :=
  (congrFun (V4_eq m c) main_arg11).symm.trans (((V4_of m (outs m) c main_arg11 (by decide)).trans ((V3_of m (outs m) c main_arg11 (by decide)).trans ((V2_of m (outs m) c main_arg11 (by decide)).trans ((V1_of m c main_arg11 (by decide)))))).trans rfl)

theorem carry_main_arg10_0_4 (c : Dev nD) : W4 m c main_arg10 = m ((c.tc : Thread nD τ).loc main_arg10) :=
  (congrFun (V4_eq m c) main_arg10).symm.trans (((V4_of m (outs m) c main_arg10 (by decide)).trans ((V3_of m (outs m) c main_arg10 (by decide)).trans ((V2_of m (outs m) c main_arg10 (by decide)).trans ((V1_of m c main_arg10 (by decide)))))).trans rfl)

theorem carry_main_arg6_0_6 (c : Dev nD) : W6 m c main_arg6 = m ((c.tc : Thread nD τ).loc main_arg6) :=
  (congrFun (V6_eq m c) main_arg6).symm.trans (((V6_of m (outs m) c main_arg6 (by decide)).trans ((V5_of m (outs m) c main_arg6 (by decide)).trans ((V4_of m (outs m) c main_arg6 (by decide)).trans ((V3_of m (outs m) c main_arg6 (by decide)).trans ((V2_of m (outs m) c main_arg6 (by decide)).trans ((V1_of m c main_arg6 (by decide)))))))).trans rfl)

theorem carry_main_arg7_0_8 (c : Dev nD) : W8 m c main_arg7 = m ((c.tc : Thread nD τ).loc main_arg7) :=
  (congrFun (V8_eq m c) main_arg7).symm.trans (((V8_of m (outs m) c main_arg7 (by decide)).trans ((V7_of m (outs m) c main_arg7 (by decide)).trans ((V6_of m (outs m) c main_arg7 (by decide)).trans ((V5_of m (outs m) c main_arg7 (by decide)).trans ((V4_of m (outs m) c main_arg7 (by decide)).trans ((V3_of m (outs m) c main_arg7 (by decide)).trans ((V2_of m (outs m) c main_arg7 (by decide)).trans ((V1_of m c main_arg7 (by decide)))))))))).trans rfl)

theorem carry_main_arg1_0_10 (c : Dev nD) : W10 m c main_arg1 = m ((c.tc : Thread nD τ).loc main_arg1) :=
  (congrFun (V10_eq m c) main_arg1).symm.trans (((V10_of m (outs m) c main_arg1 (by decide)).trans ((V9_of m (outs m) c main_arg1 (by decide)).trans ((V8_of m (outs m) c main_arg1 (by decide)).trans ((V7_of m (outs m) c main_arg1 (by decide)).trans ((V6_of m (outs m) c main_arg1 (by decide)).trans ((V5_of m (outs m) c main_arg1 (by decide)).trans ((V4_of m (outs m) c main_arg1 (by decide)).trans ((V3_of m (outs m) c main_arg1 (by decide)).trans ((V2_of m (outs m) c main_arg1 (by decide)).trans ((V1_of m c main_arg1 (by decide)))))))))))).trans rfl)

theorem carry_main_arg16_0_10 (c : Dev nD) : W10 m c main_arg16 = m ((c.tc : Thread nD τ).loc main_arg16) :=
  (congrFun (V10_eq m c) main_arg16).symm.trans (((V10_of m (outs m) c main_arg16 (by decide)).trans ((V9_of m (outs m) c main_arg16 (by decide)).trans ((V8_of m (outs m) c main_arg16 (by decide)).trans ((V7_of m (outs m) c main_arg16 (by decide)).trans ((V6_of m (outs m) c main_arg16 (by decide)).trans ((V5_of m (outs m) c main_arg16 (by decide)).trans ((V4_of m (outs m) c main_arg16 (by decide)).trans ((V3_of m (outs m) c main_arg16 (by decide)).trans ((V2_of m (outs m) c main_arg16 (by decide)).trans ((V1_of m c main_arg16 (by decide)))))))))))).trans rfl)

theorem carry_main_arg13_0_10 (c : Dev nD) : W10 m c main_arg13 = m ((c.tc : Thread nD τ).loc main_arg13) :=
  (congrFun (V10_eq m c) main_arg13).symm.trans (((V10_of m (outs m) c main_arg13 (by decide)).trans ((V9_of m (outs m) c main_arg13 (by decide)).trans ((V8_of m (outs m) c main_arg13 (by decide)).trans ((V7_of m (outs m) c main_arg13 (by decide)).trans ((V6_of m (outs m) c main_arg13 (by decide)).trans ((V5_of m (outs m) c main_arg13 (by decide)).trans ((V4_of m (outs m) c main_arg13 (by decide)).trans ((V3_of m (outs m) c main_arg13 (by decide)).trans ((V2_of m (outs m) c main_arg13 (by decide)).trans ((V1_of m c main_arg13 (by decide)))))))))))).trans rfl)

theorem carry_main_arg12_0_10 (c : Dev nD) : W10 m c main_arg12 = m ((c.tc : Thread nD τ).loc main_arg12) :=
  (congrFun (V10_eq m c) main_arg12).symm.trans (((V10_of m (outs m) c main_arg12 (by decide)).trans ((V9_of m (outs m) c main_arg12 (by decide)).trans ((V8_of m (outs m) c main_arg12 (by decide)).trans ((V7_of m (outs m) c main_arg12 (by decide)).trans ((V6_of m (outs m) c main_arg12 (by decide)).trans ((V5_of m (outs m) c main_arg12 (by decide)).trans ((V4_of m (outs m) c main_arg12 (by decide)).trans ((V3_of m (outs m) c main_arg12 (by decide)).trans ((V2_of m (outs m) c main_arg12 (by decide)).trans ((V1_of m c main_arg12 (by decide)))))))))))).trans rfl)

theorem carry_main_arg8_0_12 (c : Dev nD) : W12 m c main_arg8 = m ((c.tc : Thread nD τ).loc main_arg8) :=
  (congrFun (V12_eq m c) main_arg8).symm.trans (((V12_of m (outs m) c main_arg8 (by decide)).trans ((V11_of m (outs m) c main_arg8 (by decide)).trans ((V10_of m (outs m) c main_arg8 (by decide)).trans ((V9_of m (outs m) c main_arg8 (by decide)).trans ((V8_of m (outs m) c main_arg8 (by decide)).trans ((V7_of m (outs m) c main_arg8 (by decide)).trans ((V6_of m (outs m) c main_arg8 (by decide)).trans ((V5_of m (outs m) c main_arg8 (by decide)).trans ((V4_of m (outs m) c main_arg8 (by decide)).trans ((V3_of m (outs m) c main_arg8 (by decide)).trans ((V2_of m (outs m) c main_arg8 (by decide)).trans ((V1_of m c main_arg8 (by decide)))))))))))))).trans rfl)

theorem carry_main_arg9_0_14 (c : Dev nD) : W14 m c main_arg9 = m ((c.tc : Thread nD τ).loc main_arg9) :=
  (congrFun (V14_eq m c) main_arg9).symm.trans (((V14_of m (outs m) c main_arg9 (by decide)).trans ((V13_of m (outs m) c main_arg9 (by decide)).trans ((V12_of m (outs m) c main_arg9 (by decide)).trans ((V11_of m (outs m) c main_arg9 (by decide)).trans ((V10_of m (outs m) c main_arg9 (by decide)).trans ((V9_of m (outs m) c main_arg9 (by decide)).trans ((V8_of m (outs m) c main_arg9 (by decide)).trans ((V7_of m (outs m) c main_arg9 (by decide)).trans ((V6_of m (outs m) c main_arg9 (by decide)).trans ((V5_of m (outs m) c main_arg9 (by decide)).trans ((V4_of m (outs m) c main_arg9 (by decide)).trans ((V3_of m (outs m) c main_arg9 (by decide)).trans ((V2_of m (outs m) c main_arg9 (by decide)).trans ((V1_of m c main_arg9 (by decide)))))))))))))))).trans rfl)

theorem carry_main_arg1_0_16 (c : Dev nD) : W16 m c main_arg1 = m ((c.tc : Thread nD τ).loc main_arg1) :=
  (congrFun (V16_eq m c) main_arg1).symm.trans (((V16_of m (outs m) c main_arg1 (by decide)).trans ((V15_of m (outs m) c main_arg1 (by decide)).trans ((V14_of m (outs m) c main_arg1 (by decide)).trans ((V13_of m (outs m) c main_arg1 (by decide)).trans ((V12_of m (outs m) c main_arg1 (by decide)).trans ((V11_of m (outs m) c main_arg1 (by decide)).trans ((V10_of m (outs m) c main_arg1 (by decide)).trans ((V9_of m (outs m) c main_arg1 (by decide)).trans ((V8_of m (outs m) c main_arg1 (by decide)).trans ((V7_of m (outs m) c main_arg1 (by decide)).trans ((V6_of m (outs m) c main_arg1 (by decide)).trans ((V5_of m (outs m) c main_arg1 (by decide)).trans ((V4_of m (outs m) c main_arg1 (by decide)).trans ((V3_of m (outs m) c main_arg1 (by decide)).trans ((V2_of m (outs m) c main_arg1 (by decide)).trans ((V1_of m c main_arg1 (by decide)))))))))))))))))).trans rfl)

theorem carry_main_arg16_0_16 (c : Dev nD) : W16 m c main_arg16 = m ((c.tc : Thread nD τ).loc main_arg16) :=
  (congrFun (V16_eq m c) main_arg16).symm.trans (((V16_of m (outs m) c main_arg16 (by decide)).trans ((V15_of m (outs m) c main_arg16 (by decide)).trans ((V14_of m (outs m) c main_arg16 (by decide)).trans ((V13_of m (outs m) c main_arg16 (by decide)).trans ((V12_of m (outs m) c main_arg16 (by decide)).trans ((V11_of m (outs m) c main_arg16 (by decide)).trans ((V10_of m (outs m) c main_arg16 (by decide)).trans ((V9_of m (outs m) c main_arg16 (by decide)).trans ((V8_of m (outs m) c main_arg16 (by decide)).trans ((V7_of m (outs m) c main_arg16 (by decide)).trans ((V6_of m (outs m) c main_arg16 (by decide)).trans ((V5_of m (outs m) c main_arg16 (by decide)).trans ((V4_of m (outs m) c main_arg16 (by decide)).trans ((V3_of m (outs m) c main_arg16 (by decide)).trans ((V2_of m (outs m) c main_arg16 (by decide)).trans ((V1_of m c main_arg16 (by decide)))))))))))))))))).trans rfl)

theorem carry_main_arg15_0_16 (c : Dev nD) : W16 m c main_arg15 = m ((c.tc : Thread nD τ).loc main_arg15) :=
  (congrFun (V16_eq m c) main_arg15).symm.trans (((V16_of m (outs m) c main_arg15 (by decide)).trans ((V15_of m (outs m) c main_arg15 (by decide)).trans ((V14_of m (outs m) c main_arg15 (by decide)).trans ((V13_of m (outs m) c main_arg15 (by decide)).trans ((V12_of m (outs m) c main_arg15 (by decide)).trans ((V11_of m (outs m) c main_arg15 (by decide)).trans ((V10_of m (outs m) c main_arg15 (by decide)).trans ((V9_of m (outs m) c main_arg15 (by decide)).trans ((V8_of m (outs m) c main_arg15 (by decide)).trans ((V7_of m (outs m) c main_arg15 (by decide)).trans ((V6_of m (outs m) c main_arg15 (by decide)).trans ((V5_of m (outs m) c main_arg15 (by decide)).trans ((V4_of m (outs m) c main_arg15 (by decide)).trans ((V3_of m (outs m) c main_arg15 (by decide)).trans ((V2_of m (outs m) c main_arg15 (by decide)).trans ((V1_of m c main_arg15 (by decide)))))))))))))))))).trans rfl)

theorem carry_main_arg14_0_16 (c : Dev nD) : W16 m c main_arg14 = m ((c.tc : Thread nD τ).loc main_arg14) :=
  (congrFun (V16_eq m c) main_arg14).symm.trans (((V16_of m (outs m) c main_arg14 (by decide)).trans ((V15_of m (outs m) c main_arg14 (by decide)).trans ((V14_of m (outs m) c main_arg14 (by decide)).trans ((V13_of m (outs m) c main_arg14 (by decide)).trans ((V12_of m (outs m) c main_arg14 (by decide)).trans ((V11_of m (outs m) c main_arg14 (by decide)).trans ((V10_of m (outs m) c main_arg14 (by decide)).trans ((V9_of m (outs m) c main_arg14 (by decide)).trans ((V8_of m (outs m) c main_arg14 (by decide)).trans ((V7_of m (outs m) c main_arg14 (by decide)).trans ((V6_of m (outs m) c main_arg14 (by decide)).trans ((V5_of m (outs m) c main_arg14 (by decide)).trans ((V4_of m (outs m) c main_arg14 (by decide)).trans ((V3_of m (outs m) c main_arg14 (by decide)).trans ((V2_of m (outs m) c main_arg14 (by decide)).trans ((V1_of m c main_arg14 (by decide)))))))))))))))))).trans rfl)

theorem carry_main_arg17_0_18 (c : Dev nD) : W18 m c main_arg17 = m ((c.tc : Thread nD τ).loc main_arg17) :=
  (congrFun (V18_eq m c) main_arg17).symm.trans (((V18_of m (outs m) c main_arg17 (by decide)).trans ((V17_of m (outs m) c main_arg17 (by decide)).trans ((V16_of m (outs m) c main_arg17 (by decide)).trans ((V15_of m (outs m) c main_arg17 (by decide)).trans ((V14_of m (outs m) c main_arg17 (by decide)).trans ((V13_of m (outs m) c main_arg17 (by decide)).trans ((V12_of m (outs m) c main_arg17 (by decide)).trans ((V11_of m (outs m) c main_arg17 (by decide)).trans ((V10_of m (outs m) c main_arg17 (by decide)).trans ((V9_of m (outs m) c main_arg17 (by decide)).trans ((V8_of m (outs m) c main_arg17 (by decide)).trans ((V7_of m (outs m) c main_arg17 (by decide)).trans ((V6_of m (outs m) c main_arg17 (by decide)).trans ((V5_of m (outs m) c main_arg17 (by decide)).trans ((V4_of m (outs m) c main_arg17 (by decide)).trans ((V3_of m (outs m) c main_arg17 (by decide)).trans ((V2_of m (outs m) c main_arg17 (by decide)).trans ((V1_of m c main_arg17 (by decide)))))))))))))))))))).trans rfl)

theorem carry_main_arg18_0_20 (c : Dev nD) : W20 m c main_arg18 = m ((c.tc : Thread nD τ).loc main_arg18) :=
  (congrFun (V20_eq m c) main_arg18).symm.trans (((V20_of m (outs m) c main_arg18 (by decide)).trans ((V19_of m (outs m) c main_arg18 (by decide)).trans ((V18_of m (outs m) c main_arg18 (by decide)).trans ((V17_of m (outs m) c main_arg18 (by decide)).trans ((V16_of m (outs m) c main_arg18 (by decide)).trans ((V15_of m (outs m) c main_arg18 (by decide)).trans ((V14_of m (outs m) c main_arg18 (by decide)).trans ((V13_of m (outs m) c main_arg18 (by decide)).trans ((V12_of m (outs m) c main_arg18 (by decide)).trans ((V11_of m (outs m) c main_arg18 (by decide)).trans ((V10_of m (outs m) c main_arg18 (by decide)).trans ((V9_of m (outs m) c main_arg18 (by decide)).trans ((V8_of m (outs m) c main_arg18 (by decide)).trans ((V7_of m (outs m) c main_arg18 (by decide)).trans ((V6_of m (outs m) c main_arg18 (by decide)).trans ((V5_of m (outs m) c main_arg18 (by decide)).trans ((V4_of m (outs m) c main_arg18 (by decide)).trans ((V3_of m (outs m) c main_arg18 (by decide)).trans ((V2_of m (outs m) c main_arg18 (by decide)).trans ((V1_of m c main_arg18 (by decide)))))))))))))))))))))).trans rfl)

theorem carry_main_v42_4_6 (c : Dev nD) : W6 m c main_v42 = W4 m c main_v42 :=
  (congrFun (V6_eq m c) main_v42).symm.trans (((V6_of m (outs m) c main_v42 (by decide)).trans ((V5_of m (outs m) c main_v42 (by decide)))).trans (congrFun (V4_eq m c) main_v42))

theorem carry_main_v67_10_12 (c : Dev nD) : W12 m c main_v67 = W10 m c main_v67 :=
  (congrFun (V12_eq m c) main_v67).symm.trans (((V12_of m (outs m) c main_v67 (by decide)).trans ((V11_of m (outs m) c main_v67 (by decide)))).trans (congrFun (V10_eq m c) main_v67))

theorem carry_main_v103_16_18 (c : Dev nD) : W18 m c main_v103 = W16 m c main_v103 :=
  (congrFun (V18_eq m c) main_v103).symm.trans (((V18_of m (outs m) c main_v103 (by decide)).trans ((V17_of m (outs m) c main_v103 (by decide)))).trans (congrFun (V16_eq m c) main_v103))

theorem carry_main_v150_21_22 (c : Dev nD) : W22 m c main_v150 = W21 m c main_v150 :=
  (congrFun (V22_eq m c) main_v150).symm.trans (((V22_of m (outs m) c main_v150 (by decide))).trans (congrFun (V21_eq m c) main_v150))

end Cert.Bridge

end
-- ==== Proof.KI.Stage0.lean ====
/-
  The first stretch of host operations — the self-looped edge lists, the degree by a scatter-add of ones, its
  inverse square root gathered at both ends of every edge and multiplied into the normalisation column — is the same
  chain of operations in both programs: its buffers hold the reference's stages of the same arguments. The weights
  of the first product are the argument's, narrowed to bf16 (no change of value); its bias row is zero.
-/
import proofs.«158875_j46291157516821_1_alg».proof.Proof.KI.Fold
import proofs.«158875_j46291157516821_1_alg».proof.Proof.RefReadP
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

abbrev a0 (c : Dev nD) : (⟨S50000x128, .f32⟩ : BufTy).Contents (Elt Ideal) := m ((c.tc : Thread nD τ).loc main_arg0)
abbrev a1 (c : Dev nD) : (⟨S7x50000x128, .f32⟩ : BufTy).Contents (Elt Ideal) := m ((c.tc : Thread nD τ).loc main_arg1)
abbrev a2 (c : Dev nD) : (⟨S800000, .i32⟩ : BufTy).Contents (Elt Ideal) := m ((c.tc : Thread nD τ).loc main_arg2)
abbrev a3 (c : Dev nD) : (⟨S800000, .i32⟩ : BufTy).Contents (Elt Ideal) := m ((c.tc : Thread nD τ).loc main_arg3)
abbrev a4 (c : Dev nD) : (⟨S128x256, .f32⟩ : BufTy).Contents (Elt Ideal) := m ((c.tc : Thread nD τ).loc main_arg4)
abbrev a5 (c : Dev nD) : (⟨S256, .f32⟩ : BufTy).Contents (Elt Ideal) := m ((c.tc : Thread nD τ).loc main_arg5)
abbrev a6 (c : Dev nD) : (⟨S512x256, .f32⟩ : BufTy).Contents (Elt Ideal) := m ((c.tc : Thread nD τ).loc main_arg6)
abbrev a7 (c : Dev nD) : (⟨S256, .f32⟩ : BufTy).Contents (Elt Ideal) := m ((c.tc : Thread nD τ).loc main_arg7)
abbrev a8 (c : Dev nD) : (⟨S512x256, .f32⟩ : BufTy).Contents (Elt Ideal) := m ((c.tc : Thread nD τ).loc main_arg8)
abbrev a9 (c : Dev nD) : (⟨S256, .f32⟩ : BufTy).Contents (Elt Ideal) := m ((c.tc : Thread nD τ).loc main_arg9)
abbrev a10 (c : Dev nD) : (⟨S128x256, .f32⟩ : BufTy).Contents (Elt Ideal) := m ((c.tc : Thread nD τ).loc main_arg10)
abbrev a11 (c : Dev nD) : (⟨S256, .f32⟩ : BufTy).Contents (Elt Ideal) := m ((c.tc : Thread nD τ).loc main_arg11)
abbrev a12 (c : Dev nD) : (⟨S256x256, .f32⟩ : BufTy).Contents (Elt Ideal) := m ((c.tc : Thread nD τ).loc main_arg12)
abbrev a13 (c : Dev nD) : (⟨S256, .f32⟩ : BufTy).Contents (Elt Ideal) := m ((c.tc : Thread nD τ).loc main_arg13)
abbrev a14 (c : Dev nD) : (⟨S512x256, .f32⟩ : BufTy).Contents (Elt Ideal) := m ((c.tc : Thread nD τ).loc main_arg14)
abbrev a15 (c : Dev nD) : (⟨S256, .f32⟩ : BufTy).Contents (Elt Ideal) := m ((c.tc : Thread nD τ).loc main_arg15)
abbrev a16 (c : Dev nD) : (⟨S2, .f32⟩ : BufTy).Contents (Elt Ideal) := m ((c.tc : Thread nD τ).loc main_arg16)
abbrev a17 (c : Dev nD) : (⟨S512x40, .f32⟩ : BufTy).Contents (Elt Ideal) := m ((c.tc : Thread nD τ).loc main_arg17)
abbrev a18 (c : Dev nD) : (⟨S40, .f32⟩ : BufTy).Contents (Elt Ideal) := m ((c.tc : Thread nD τ).loc main_arg18)

theorem w1_v1 (c : Dev nD) : (W1 m c main_v1 : (⟨S850000, .i32⟩ : BufTy).Contents (Elt Ideal)) = (val_main_v1 (F := Ideal) (a2 m c) : (⟨S850000, .i32⟩ : BufTy).Contents (Elt Ideal)) := by
  unfold W1; after_results_simp <;> rfl

theorem w1_v2 (c : Dev nD) : (W1 m c main_v2 : (⟨S850000, .i32⟩ : BufTy).Contents (Elt Ideal)) = (val_main_v2 (F := Ideal) (a3 m c) : (⟨S850000, .i32⟩ : BufTy).Contents (Elt Ideal)) := by
  unfold W1; after_results_simp <;> rfl

theorem w1_v23 (c : Dev nD) : (W1 m c main_v23 : (⟨S850000x1, .f32⟩ : BufTy).Contents (Elt Ideal)) = (val_main_v31 (F := Ideal) (a2 m c) (a3 m c) : (⟨S850000x1, .f32⟩ : BufTy).Contents (Elt Ideal)) := by
  unfold W1; after_results_simp <;> rfl

theorem w1_v24 (c : Dev nD) : (W1 m c main_v24 : (⟨S1x256, .f32⟩ : BufTy).Contents (Elt Ideal)) = (broadcastInDim S1x256 ![] bcast_S_S1x256 (constant (F := Ideal) S_ .f32 0x00000000#32) : (⟨S1x256, .f32⟩ : BufTy).Contents (Elt Ideal)) := by
  unfold W1; after_results_simp <;> rfl

theorem w1_v25 (c : Dev nD) : (W1 m c main_v25 : (⟨S128x256, .bf16⟩ : BufTy).Contents (Elt Ideal)) = (truncf (F := Ideal) .bf16 (a4 m c) bitsLt_bf16_f32 : (⟨S128x256, .bf16⟩ : BufTy).Contents (Elt Ideal)) := by
  unfold W1; after_results_simp <;> rfl

end Cert.Bridge

end
-- ==== Proof.KI.ValueLib.lean ====
/-
  What the seven regions' value proofs share and no region owns.
-/
import Idealize.ShloMosaic.Lib.ValueIdx

namespace Cert.KernelIdeal.RegVal

/-- The offset of an access to a whole rank-2 buffer, written `![0, 0]`, is the zero function. -/
theorem origin2 : (![0, 0] : Fin 2 → Nat) = fun _ => 0 := funext fun a => by fin_cases a <;> rfl

end Cert.KernelIdeal.RegVal
-- ==== Proof.Spec.lean ====
/-
  The mathematics of one dense layer, stated once for both programs: entry (r, n) of a rows-by-columns product
  with a bias row added, `∑ k, A r k · W k n + b n`, and the same clamped below at zero. Both the tiled kernel's
  output array and the reference's `dot_general`-then-add (-then-maximum) read, index by index, as these functions
  of their operands.
-/
import Idealize.ShloMosaic.PureOps.Ideal
import Idealize.ShloMosaic.Lib.ValueIdx

noncomputable section

namespace Cert.Spec

open Idealize.ShloMosaic

/-- Entry `(r, n)` of `A · W + b` over the extended reals: the sum over the contracted axis, then the bias. -/
def denseAt {M K N : ℕ} (A : Fin M → Fin K → EReal) (W : Fin K → Fin N → EReal) (b : Fin N → EReal)
    (r : Fin M) (n : Fin N) : EReal :=
  (∑ k : Fin K, A r k * W k n) + b n

/-- The same entry clamped below at zero (the layer's rectifier). -/
def denseReluAt {M K N : ℕ} (A : Fin M → Fin K → EReal) (W : Fin K → Fin N → EReal) (b : Fin N → EReal)
    (r : Fin M) (n : Fin N) : EReal :=
  max (denseAt A W b r n) 0

/-- The layer depends on its operands only through their entries. -/
theorem denseAt_congr {M K N : ℕ} {A A' : Fin M → Fin K → EReal} {W W' : Fin K → Fin N → EReal} {b b' : Fin N → EReal}
    (hA : ∀ r k, A r k = A' r k) (hW : ∀ k n, W k n = W' k n) (hb : ∀ n, b n = b' n) (r : Fin M) (n : Fin N) :
    denseAt A W b r n = denseAt A' W' b' r n := by
  unfold denseAt
  rw [hb n]
  congr 1
  exact Finset.sum_congr rfl fun k _ => by rw [hA r k, hW k n]

theorem denseReluAt_congr {M K N : ℕ} {A A' : Fin M → Fin K → EReal} {W W' : Fin K → Fin N → EReal} {b b' : Fin N → EReal}
    (hA : ∀ r k, A r k = A' r k) (hW : ∀ k n, W k n = W' k n) (hb : ∀ n, b n = b' n) (r : Fin M) (n : Fin N) :
    denseReluAt A W b r n = denseReluAt A' W' b' r n := by
  unfold denseReluAt
  rw [denseAt_congr hA hW hb r n]

/-- With a zero bias the layer is the bare product. -/
theorem denseAt_zero_bias {M K N : ℕ} (A : Fin M → Fin K → EReal) (W : Fin K → Fin N → EReal) (r : Fin M) (n : Fin N) :
    denseAt A W (fun _ => 0) r n = ∑ k : Fin K, A r k * W k n := by
  unfold denseAt
  exact add_zero _

end Cert.Spec

end
-- ==== Proof.KI.Value0.lean ====
/-
  Region 0's output array, index by index: after every row block has been written back, entry (r, n) of the
  output is the dense layer of the three arrays the region reads — the sum over the contracted axis of activations
  times weights, plus the bias.
-/
import proofs.«158875_j46291157516821_1_alg».proof.Proof.KI.Region0
import proofs.«158875_j46291157516821_1_alg».proof.Proof.KI.ValueLib
import proofs.«158875_j46291157516821_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's stored value at an index -/

/-- The product's left operand index at output index `j` and contraction index `q`: the row of `j`, then `q`. -/
theorem lhs0_row (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs0_col (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
/-- The right operand's: `q`, then the column of `j`. -/
theorem rhs0_row (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
theorem rhs0_col (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The matrix product into the zero accumulator, at entry `(p, n)`: the sum over the contracted axis. -/
theorem prod0_apply (a : FVec Ideal S2000x128 .bf16) (w : FVec Ideal S128x256 .bf16) (p : Fin 2000) (n : Fin 256) :
    FloatOps.matmul dot_S2000x128_S128x256_S2000x256_1_0_0_1_n_n none a w (constant (F := Ideal) S2000x256 .f32 0x00000000#32) (ix2 p n)
      = ∑ q : Fin 128, a (ix2 p q) * w (ix2 q n) := by
  rw [Ideal.matmul_constant_zero_apply, ← Equiv.sum_comp (contrEquiv1 dot_S2000x128_S128x256_S2000x256_1_0_0_1_n_n 128 rfl rfl).symm]
  refine Finset.sum_congr rfl fun q _ => ?_
  have hq := contrEquiv1_symm_val dot_S2000x128_S128x256_S2000x256_1_0_0_1_n_n 128 rfl rfl q
  have el : dot_S2000x128_S128x256_S2000x256_1_0_0_1_n_n.lhsIdx (ix2 p n) ((contrEquiv1 dot_S2000x128_S128x256_S2000x256_1_0_0_1_n_n 128 rfl rfl).symm q) = ix2 p q := funext fun a => Fin.ext (by
    match a with
    | ⟨0, _⟩ => exact lhs0_row _ _
    | ⟨1, _⟩ => exact (lhs0_col _ _).trans hq)
  have er : dot_S2000x128_S128x256_S2000x256_1_0_0_1_n_n.rhsIdx (ix2 p n) ((contrEquiv1 dot_S2000x128_S128x256_S2000x256_1_0_0_1_n_n 128 rfl rfl).symm q) = ix2 q n := funext fun a => Fin.ext (by
    match a with
    | ⟨0, _⟩ => exact (rhs0_row _ _).trans hq
    | ⟨1, _⟩ => exact rhs0_col _ _)
  rw [el, er]

/-- The bias row broadcast down the rows, at entry `(p, n)`: the row's entry `n`. -/
theorem bias0_apply (b : FVec Ideal S1x256 .f32) (p : Fin 2000) (n : Fin 256) :
    broadcastTo S2000x256 b broadcasts_S1x256_S2000x256 (ix2 p n) = b (ix2 0 n) :=
  broadcastTo_apply b broadcasts_S1x256_S2000x256 (ix2 p n) (ix2 0 n) (fun a => by
    match a with
    | ⟨0, _⟩ => rfl
    | ⟨1, _⟩ => rfl)

/-- THE STORED VALUE at entry `(p, n)` of the block: the loaded rows times the weights, plus the bias. -/
theorem pay0_apply (x0 : Vec Ideal S2000x128 .f32) (x1 : Vec Ideal S128x256 .bf16) (x2 : Vec Ideal S1x256 .f32) (p : Fin 2000) (n : Fin 256) :
    k0_pay1 (F := Ideal) x0 x1 x2 (ix2 p n) = (∑ q : Fin 128, x0 (ix2 p q) * x1 (ix2 q n)) + x2 (ix2 0 n) := by
  unfold k0_pay1
  simp only [shapeCast_self]
  rw [addf_apply, bias0_apply]
  refine congrArg (· + x2 (ix2 0 n)) ?_
  exact prod0_apply _ _ p n

/-- The stored entry is the layer's entry at row `r` of the whole arrays, once the loaded blocks are known to be
    the activations' row `r`, the weights and the bias. -/
theorem pay0_dense (A : S50000x128.Idx → EReal) (W : S128x256.Idx → EReal) (b : S1x256.Idx → EReal)
    (x0 : Vec Ideal S2000x128 .f32) (x1 : Vec Ideal S128x256 .bf16) (x2 : Vec Ideal S1x256 .f32) (p : Fin 2000) (n : Fin 256) (r : Fin 50000)
    (h0 : ∀ q : Fin 128, x0 (ix2 p q) = A (ix2 r q)) (h1 : ∀ q : Fin 128, x1 (ix2 q n) = W (ix2 q n)) (h2 : x2 (ix2 0 n) = b (ix2 0 n)) :
    k0_pay1 (F := Ideal) x0 x1 x2 (ix2 p n)
      = Cert.Spec.denseAt (fun r k => A (ix2 r k)) (fun k n => W (ix2 k n)) (fun n => b (ix2 0 n)) r n := by
  rw [pay0_apply, h2]
  unfold Cert.Spec.denseAt
  refine congrArg (· + b (ix2 0 n)) (Finset.sum_congr rfl fun q _ => ?_)
  rw [h0 q, h1 q]

/-! ## From the blocks to the array -/

variable (V : (c : Dev nD) → (b : Ref sig .tc) → Buf (Elt Ideal) ((c : Thread nD τ).loc b))

/-- What the output array ends holding: the dense layer of the activations, weights and bias arrays as the region
    finds them, entry by entry. -/
def layer0 (c : Dev nD) : S50000x256.Idx → EReal := fun i =>
  Cert.Spec.denseAt (fun r k => (V c main_arg0 : S50000x128.Idx → EReal) (ix2 r k)) (fun k n => (V c main_v25 : S128x256.Idx → EReal) (ix2 k n))
    (fun n => (V c main_v24 : S1x256.Idx → EReal) (ix2 0 n)) (i 0) (i 1)

/-- The index maps over the grid, decided: the activations' row block moves with the output's, which is the point's
    number; the weights and the bias stay at block (0, 0); no window moves along the columns. -/
theorem blocks_at0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the layer of the whole arrays. -/
theorem flushed0_eq (c : Dev nD) (t : Fin cfg0.N) :
    (Reg.dat0 (F := Ideal) V c).flushed 3 t = ((cfg0.win 3).blk t).view.read (Elt Ideal) (layer0 V c) := by
  show (cfg0.win 3).cut (grid0.coords t) ((Reg.dat0 (F := Ideal) V c).after 3 t) = _
  rw [Reg.after0_3]
  unfold Reg.out0_3
  rw [View.canon_unit_zero origin2]
  simp only [View.ld_unit_zero (S := S2000x128) origin2, View.ld_unit_zero (S := S128x256) origin2, View.ld_unit_zero (S := S1x256) origin2]
  obtain ⟨e00, e01, e10, e11, e20, e21, e30, e31⟩ := blocks_at0 t
  funext j
  obtain ⟨p, n, rfl⟩ : ∃ (p : Fin 2000) (n : Fin 256), j = ix2 p n := ⟨j 0, j 1, eq_ix2 j⟩
  show k0_pay1 (F := Ideal) (Reg.iblk0 V c 0 t) (Reg.iblk0 V c 1 t) (Reg.iblk0 V c 2 t) (ix2 p n)
    = layer0 V c (((cfg0.win 3).blk t).view.emb (ix2 p n))
  refine (pay0_dense (V c main_arg0) (V c main_v25) (V c main_v24) _ _ _ p n ((((cfg0.win 3).blk t).view.emb (ix2 p n)) 0) ?_ ?_ ?_).trans ?_
  · intro q
    show (V c main_arg0 : S50000x128.Idx → EReal) (((cfg0.win 0).blk t).view.emb (ix2 p q)) = _
    refine congrArg (V c main_arg0 : S50000x128.Idx → EReal) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * q.val = q.val; omega
  · intro q
    show (V c main_v25 : S128x256.Idx → EReal) (((cfg0.win 1).blk t).view.emb (ix2 q n)) = _
    refine congrArg (V c main_v25 : S128x256.Idx → EReal) (funext fun a => Fin.ext ?_)
    match a with
    | ⟨0, _⟩ => show win0_1.index t (0 : Fin 2) * 128 + 1 * q.val = q.val; omega
    | ⟨1, _⟩ => show win0_1.index t (1 : Fin 2) * 256 + 1 * n.val = n.val; omega
  · show (V c main_v24 : S1x256.Idx → EReal) (((cfg0.win 2).blk t).view.emb (ix2 0 n)) = _
    refine congrArg (V c main_v24 : S1x256.Idx → EReal) (funext fun a => Fin.ext ?_)
    match a with
    | ⟨0, _⟩ => show win0_2.index t (0 : Fin 2) * 1 + 1 * 0 = 0; omega
    | ⟨1, _⟩ => show win0_2.index t (1 : Fin 2) * 256 + 1 * n.val = n.val; omega
  · unfold layer0
    refine congrArg (Cert.Spec.denseAt _ _ _ _) (Fin.ext ?_)
    show n.val = win0_3.index t (1 : Fin 2) * 256 + 1 * n.val
    omega

/-- An index of the array is in point `t`'s block iff each coordinate is in the block's range on its axis. -/
theorem mem_block0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v26).slice (win0_3.rect t)).set ↔ _
  rw [View.set_slice_whole, Rect.mem_set_unit]
  exact Iff.rfl

/-- Every row block is some point's. -/
theorem block_onto0 : ∀ q : Fin 25, ∃ t : Fin cfg0.N, win0_3.index t = ![q.val, 0] :=
  (by decide +kernel : ∀ q : Fin 25, ∃ t : Fin grid0.N, win0_3.index t = ![q.val, 0])

/-- THE COVER: row `r` lies in the block of the point numbered `r / 2000`. -/
theorem covered0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := block_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE ARRAY after all 25 points: the layer of the whole arrays. -/
theorem final0 (c : Dev nD) : (Reg.dat0 (F := Ideal) V c).arrAt 3 cfg0.N = layer0 V c :=
  (Reg.dat0 (F := Ideal) V c).arrAt_eq_of_cover 3 (layer0 V c) (fun t _ => flushed0_eq V c t) covered0

/-- Entry `(r, n)` of region 0's output array. -/
theorem arr0 (c : Dev nD) (r : Fin 50000) (n : Fin 256) :
    ((Reg.dat0 (F := Ideal) V c).arrAt 3 cfg0.N : S50000x256.Idx → EReal) (ix2 r n)
      = Cert.Spec.denseAt (fun r k => (V c main_arg0 : S50000x128.Idx → EReal) (ix2 r k)) (fun k n => (V c main_v25 : S128x256.Idx → EReal) (ix2 k n))
          (fun n => (V c main_v24 : S1x256.Idx → EReal) (ix2 0 n)) r n :=
  congrFun (final0 V c) (ix2 r n)

end Cert.KernelIdeal.RegVal

end
-- ==== Proof.KI.Value1.lean ====
/-
  Region 1's output array, index by index: after every row block has been written back, entry (r, n) of the
  output is the dense layer of the three arrays the region reads — the sum over the contracted axis of activations
  times weights, plus the bias, clamped below at zero.
-/
import proofs.«158875_j46291157516821_1_alg».proof.Proof.KI.Region1
import proofs.«158875_j46291157516821_1_alg».proof.Proof.KI.ValueLib
import proofs.«158875_j46291157516821_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's stored value at an index -/

/-- The product's left operand index at output index `j` and contraction index `q`: the row of `j`, then `q`. -/
theorem lhs1_row (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs1_col (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
/-- The right operand's: `q`, then the column of `j`. -/
theorem rhs1_row (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
theorem rhs1_col (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The matrix product into the zero accumulator, at entry `(p, n)`: the sum over the contracted axis. -/
theorem prod1_apply (a : FVec Ideal S2000x128 .bf16) (w : FVec Ideal S128x256 .bf16) (p : Fin 2000) (n : Fin 256) :
    FloatOps.matmul dot_S2000x128_S128x256_S2000x256_1_0_0_1_n_n none a w (constant (F := Ideal) S2000x256 .f32 0x00000000#32) (ix2 p n)
      = ∑ q : Fin 128, a (ix2 p q) * w (ix2 q n) := by
  rw [Ideal.matmul_constant_zero_apply, ← Equiv.sum_comp (contrEquiv1 dot_S2000x128_S128x256_S2000x256_1_0_0_1_n_n 128 rfl rfl).symm]
  refine Finset.sum_congr rfl fun q _ => ?_
  have hq := contrEquiv1_symm_val dot_S2000x128_S128x256_S2000x256_1_0_0_1_n_n 128 rfl rfl q
  have el : dot_S2000x128_S128x256_S2000x256_1_0_0_1_n_n.lhsIdx (ix2 p n) ((contrEquiv1 dot_S2000x128_S128x256_S2000x256_1_0_0_1_n_n 128 rfl rfl).symm q) = ix2 p q := funext fun a => Fin.ext (by
    match a with
    | ⟨0, _⟩ => exact lhs1_row _ _
    | ⟨1, _⟩ => exact (lhs1_col _ _).trans hq)
  have er : dot_S2000x128_S128x256_S2000x256_1_0_0_1_n_n.rhsIdx (ix2 p n) ((contrEquiv1 dot_S2000x128_S128x256_S2000x256_1_0_0_1_n_n 128 rfl rfl).symm q) = ix2 q n := funext fun a => Fin.ext (by
    match a with
    | ⟨0, _⟩ => exact (rhs1_row _ _).trans hq
    | ⟨1, _⟩ => exact rhs1_col _ _)
  rw [el, er]

/-- The bias row broadcast down the rows, at entry `(p, n)`: the row's entry `n`. -/
theorem bias1_apply (b : FVec Ideal S1x256 .f32) (p : Fin 2000) (n : Fin 256) :
    broadcastTo S2000x256 b broadcasts_S1x256_S2000x256 (ix2 p n) = b (ix2 0 n) :=
  broadcastTo_apply b broadcasts_S1x256_S2000x256 (ix2 p n) (ix2 0 n) (fun a => by
    match a with
    | ⟨0, _⟩ => rfl
    | ⟨1, _⟩ => rfl)

/-- THE STORED VALUE at entry `(p, n)` of the block: the loaded rows times the weights, plus the bias, clamped below at
    zero. -/
theorem pay1_apply (x0 : Vec Ideal S2000x128 .f32) (x1 : Vec Ideal S128x256 .bf16) (x2 : Vec Ideal S1x256 .f32) (p : Fin 2000) (n : Fin 256) :
    k1_pay1 (F := Ideal) x0 x1 x2 (ix2 p n) = max ((∑ q : Fin 128, x0 (ix2 p q) * x1 (ix2 q n)) + x2 (ix2 0 n)) 0 := by
  unfold k1_pay1
  simp only [shapeCast_self]
  rw [maximumf_apply, broadcast_apply, addf_apply, bias1_apply]
  show max _ (Ideal.ofBits .f32 0x00000000#32) = _
  rw [Ideal.ofBits_zero_f32]
  refine congrArg (fun s => max (s + x2 (ix2 0 n)) 0) ?_
  exact prod1_apply _ _ p n

/-- The stored entry is the layer's entry at row `r` of the whole arrays, once the loaded blocks are known to be
    the activations' row `r`, the weights and the bias. -/
theorem pay1_dense (A : S50000x128.Idx → EReal) (W : S128x256.Idx → EReal) (b : S1x256.Idx → EReal)
    (x0 : Vec Ideal S2000x128 .f32) (x1 : Vec Ideal S128x256 .bf16) (x2 : Vec Ideal S1x256 .f32) (p : Fin 2000) (n : Fin 256) (r : Fin 50000)
    (h0 : ∀ q : Fin 128, x0 (ix2 p q) = A (ix2 r q)) (h1 : ∀ q : Fin 128, x1 (ix2 q n) = W (ix2 q n)) (h2 : x2 (ix2 0 n) = b (ix2 0 n)) :
    k1_pay1 (F := Ideal) x0 x1 x2 (ix2 p n)
      = Cert.Spec.denseReluAt (fun r k => A (ix2 r k)) (fun k n => W (ix2 k n)) (fun n => b (ix2 0 n)) r n := by
  rw [pay1_apply, h2]
  unfold Cert.Spec.denseReluAt Cert.Spec.denseAt
  refine congrArg (fun s => max (s + b (ix2 0 n)) 0) (Finset.sum_congr rfl fun q _ => ?_)
  rw [h0 q, h1 q]

/-! ## From the blocks to the array -/

variable (V : (c : Dev nD) → (b : Ref sig .tc) → Buf (Elt Ideal) ((c : Thread nD τ).loc b))

/-- What the output array ends holding: the dense layer of the activations, weights and bias arrays as the region
    finds them, entry by entry. -/
def layer1 (c : Dev nD) : S50000x256.Idx → EReal := fun i =>
  Cert.Spec.denseReluAt (fun r k => (V c main_v44 : S50000x128.Idx → EReal) (ix2 r k)) (fun k n => (V c main_v46 : S128x256.Idx → EReal) (ix2 k n))
    (fun n => (V c main_v45 : S1x256.Idx → EReal) (ix2 0 n)) (i 0) (i 1)

/-- The index maps over the grid, decided: the activations' row block moves with the output's, which is the point's
    number; the weights and the bias stay at block (0, 0); no window moves along the columns. -/
theorem blocks_at1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the layer of the whole arrays. -/
theorem flushed1_eq (c : Dev nD) (t : Fin cfg1.N) :
    (Reg.dat1 (F := Ideal) V c).flushed 3 t = ((cfg1.win 3).blk t).view.read (Elt Ideal) (layer1 V c) := by
  show (cfg1.win 3).cut (grid1.coords t) ((Reg.dat1 (F := Ideal) V c).after 3 t) = _
  rw [Reg.after1_3]
  unfold Reg.out1_3
  rw [View.canon_unit_zero origin2]
  simp only [View.ld_unit_zero (S := S2000x128) origin2, View.ld_unit_zero (S := S128x256) origin2, View.ld_unit_zero (S := S1x256) origin2]
  obtain ⟨e00, e01, e10, e11, e20, e21, e30, e31⟩ := blocks_at1 t
  funext j
  obtain ⟨p, n, rfl⟩ : ∃ (p : Fin 2000) (n : Fin 256), j = ix2 p n := ⟨j 0, j 1, eq_ix2 j⟩
  show k1_pay1 (F := Ideal) (Reg.iblk1 V c 0 t) (Reg.iblk1 V c 1 t) (Reg.iblk1 V c 2 t) (ix2 p n)
    = layer1 V c (((cfg1.win 3).blk t).view.emb (ix2 p n))
  refine (pay1_dense (V c main_v44) (V c main_v46) (V c main_v45) _ _ _ p n ((((cfg1.win 3).blk t).view.emb (ix2 p n)) 0) ?_ ?_ ?_).trans ?_
  · intro q
    show (V c main_v44 : S50000x128.Idx → EReal) (((cfg1.win 0).blk t).view.emb (ix2 p q)) = _
    refine congrArg (V c main_v44 : S50000x128.Idx → EReal) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = q.val; omega
  · intro q
    show (V c main_v46 : S128x256.Idx → EReal) (((cfg1.win 1).blk t).view.emb (ix2 q n)) = _
    refine congrArg (V c main_v46 : S128x256.Idx → EReal) (funext fun a => Fin.ext ?_)
    match a with
    | ⟨0, _⟩ => show win1_1.index t (0 : Fin 2) * 128 + 1 * q.val = q.val; omega
    | ⟨1, _⟩ => show win1_1.index t (1 : Fin 2) * 256 + 1 * n.val = n.val; omega
  · show (V c main_v45 : S1x256.Idx → EReal) (((cfg1.win 2).blk t).view.emb (ix2 0 n)) = _
    refine congrArg (V c main_v45 : S1x256.Idx → EReal) (funext fun a => Fin.ext ?_)
    match a with
    | ⟨0, _⟩ => show win1_2.index t (0 : Fin 2) * 1 + 1 * 0 = 0; omega
    | ⟨1, _⟩ => show win1_2.index t (1 : Fin 2) * 256 + 1 * n.val = n.val; omega
  · unfold layer1
    refine congrArg (Cert.Spec.denseReluAt _ _ _ _) (Fin.ext ?_)
    show n.val = win1_3.index t (1 : Fin 2) * 256 + 1 * n.val
    omega

/-- An index of the array is in point `t`'s block iff each coordinate is in the block's range on its axis. -/
theorem mem_block1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v47).slice (win1_3.rect t)).set ↔ _
  rw [View.set_slice_whole, Rect.mem_set_unit]
  exact Iff.rfl

/-- Every row block is some point's. -/
theorem block_onto1 : ∀ q : Fin 25, ∃ t : Fin cfg1.N, win1_3.index t = ![q.val, 0] :=
  (by decide +kernel : ∀ q : Fin 25, ∃ t : Fin grid1.N, win1_3.index t = ![q.val, 0])

/-- THE COVER: row `r` lies in the block of the point numbered `r / 2000`. -/
theorem covered1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := block_onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- THE ARRAY after all 25 points: the layer of the whole arrays. -/
theorem final1 (c : Dev nD) : (Reg.dat1 (F := Ideal) V c).arrAt 3 cfg1.N = layer1 V c :=
  (Reg.dat1 (F := Ideal) V c).arrAt_eq_of_cover 3 (layer1 V c) (fun t _ => flushed1_eq V c t) covered1

/-- Entry `(r, n)` of region 1's output array. -/
theorem arr1 (c : Dev nD) (r : Fin 50000) (n : Fin 256) :
    ((Reg.dat1 (F := Ideal) V c).arrAt 3 cfg1.N : S50000x256.Idx → EReal) (ix2 r n)
      = Cert.Spec.denseReluAt (fun r k => (V c main_v44 : S50000x128.Idx → EReal) (ix2 r k)) (fun k n => (V c main_v46 : S128x256.Idx → EReal) (ix2 k n))
          (fun n => (V c main_v45 : S1x256.Idx → EReal) (ix2 0 n)) r n :=
  congrFun (final1 V c) (ix2 r n)

end Cert.KernelIdeal.RegVal

end
-- ==== Proof.KI.Value2.lean ====
/-
  Region 2's output array, index by index: after every row block has been written back, entry (r, n) of the
  output is the dense layer of the three arrays the region reads — the sum over the contracted axis of activations
  times weights, plus the bias.
-/
import proofs.«158875_j46291157516821_1_alg».proof.Proof.KI.Region2
import proofs.«158875_j46291157516821_1_alg».proof.Proof.KI.ValueLib
import proofs.«158875_j46291157516821_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's stored value at an index -/

/-- The product's left operand index at output index `j` and contraction index `q`: the row of `j`, then `q`. -/
theorem lhs2_row (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs2_col (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
/-- The right operand's: `q`, then the column of `j`. -/
theorem rhs2_row (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
theorem rhs2_col (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The matrix product into the zero accumulator, at entry `(p, n)`: the sum over the contracted axis. -/
theorem prod2_apply (a : FVec Ideal S2000x512 .bf16) (w : FVec Ideal S512x256 .bf16) (p : Fin 2000) (n : Fin 256) :
    FloatOps.matmul dot_S2000x512_S512x256_S2000x256_1_0_0_1_n_n none a w (constant (F := Ideal) S2000x256 .f32 0x00000000#32) (ix2 p n)
      = ∑ q : Fin 512, a (ix2 p q) * w (ix2 q n) := by
  rw [Ideal.matmul_constant_zero_apply, ← Equiv.sum_comp (contrEquiv1 dot_S2000x512_S512x256_S2000x256_1_0_0_1_n_n 512 rfl rfl).symm]
  refine Finset.sum_congr rfl fun q _ => ?_
  have hq := contrEquiv1_symm_val dot_S2000x512_S512x256_S2000x256_1_0_0_1_n_n 512 rfl rfl q
  have el : dot_S2000x512_S512x256_S2000x256_1_0_0_1_n_n.lhsIdx (ix2 p n) ((contrEquiv1 dot_S2000x512_S512x256_S2000x256_1_0_0_1_n_n 512 rfl rfl).symm q) = ix2 p q := funext fun a => Fin.ext (by
    match a with
    | ⟨0, _⟩ => exact lhs2_row _ _
    | ⟨1, _⟩ => exact (lhs2_col _ _).trans hq)
  have er : dot_S2000x512_S512x256_S2000x256_1_0_0_1_n_n.rhsIdx (ix2 p n) ((contrEquiv1 dot_S2000x512_S512x256_S2000x256_1_0_0_1_n_n 512 rfl rfl).symm q) = ix2 q n := funext fun a => Fin.ext (by
    match a with
    | ⟨0, _⟩ => exact (rhs2_row _ _).trans hq
    | ⟨1, _⟩ => exact rhs2_col _ _)
  rw [el, er]

/-- The bias row broadcast down the rows, at entry `(p, n)`: the row's entry `n`. -/
theorem bias2_apply (b : FVec Ideal S1x256 .f32) (p : Fin 2000) (n : Fin 256) :
    broadcastTo S2000x256 b broadcasts_S1x256_S2000x256 (ix2 p n) = b (ix2 0 n) :=
  broadcastTo_apply b broadcasts_S1x256_S2000x256 (ix2 p n) (ix2 0 n) (fun a => by
    match a with
    | ⟨0, _⟩ => rfl
    | ⟨1, _⟩ => rfl)

/-- THE STORED VALUE at entry `(p, n)` of the block: the loaded rows times the weights, plus the bias. -/
theorem pay2_apply (x0 : Vec Ideal S2000x512 .f32) (x1 : Vec Ideal S512x256 .bf16) (x2 : Vec Ideal S1x256 .f32) (p : Fin 2000) (n : Fin 256) :
    k2_pay1 (F := Ideal) x0 x1 x2 (ix2 p n) = (∑ q : Fin 512, x0 (ix2 p q) * x1 (ix2 q n)) + x2 (ix2 0 n) := by
  unfold k2_pay1
  simp only [shapeCast_self]
  rw [addf_apply, bias2_apply]
  refine congrArg (· + x2 (ix2 0 n)) ?_
  exact prod2_apply _ _ p n

/-- The stored entry is the layer's entry at row `r` of the whole arrays, once the loaded blocks are known to be
    the activations' row `r`, the weights and the bias. -/
theorem pay2_dense (A : S50000x512.Idx → EReal) (W : S512x256.Idx → EReal) (b : S1x256.Idx → EReal)
    (x0 : Vec Ideal S2000x512 .f32) (x1 : Vec Ideal S512x256 .bf16) (x2 : Vec Ideal S1x256 .f32) (p : Fin 2000) (n : Fin 256) (r : Fin 50000)
    (h0 : ∀ q : Fin 512, x0 (ix2 p q) = A (ix2 r q)) (h1 : ∀ q : Fin 512, x1 (ix2 q n) = W (ix2 q n)) (h2 : x2 (ix2 0 n) = b (ix2 0 n)) :
    k2_pay1 (F := Ideal) x0 x1 x2 (ix2 p n)
      = Cert.Spec.denseAt (fun r k => A (ix2 r k)) (fun k n => W (ix2 k n)) (fun n => b (ix2 0 n)) r n := by
  rw [pay2_apply, h2]
  unfold Cert.Spec.denseAt
  refine congrArg (· + b (ix2 0 n)) (Finset.sum_congr rfl fun q _ => ?_)
  rw [h0 q, h1 q]

/-! ## From the blocks to the array -/

variable (V : (c : Dev nD) → (b : Ref sig .tc) → Buf (Elt Ideal) ((c : Thread nD τ).loc b))

/-- What the output array ends holding: the dense layer of the activations, weights and bias arrays as the region
    finds them, entry by entry. -/
def layer2 (c : Dev nD) : S50000x256.Idx → EReal := fun i =>
  Cert.Spec.denseAt (fun r k => (V c main_v48 : S50000x512.Idx → EReal) (ix2 r k)) (fun k n => (V c main_v50 : S512x256.Idx → EReal) (ix2 k n))
    (fun n => (V c main_v49 : S1x256.Idx → EReal) (ix2 0 n)) (i 0) (i 1)

/-- The index maps over the grid, decided: the activations' row block moves with the output's, which is the point's
    number; the weights and the bias stay at block (0, 0); no window moves along the columns. -/
theorem blocks_at2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the layer of the whole arrays. -/
theorem flushed2_eq (c : Dev nD) (t : Fin cfg2.N) :
    (Reg.dat2 (F := Ideal) V c).flushed 3 t = ((cfg2.win 3).blk t).view.read (Elt Ideal) (layer2 V c) := by
  show (cfg2.win 3).cut (grid2.coords t) ((Reg.dat2 (F := Ideal) V c).after 3 t) = _
  rw [Reg.after2_3]
  unfold Reg.out2_3
  rw [View.canon_unit_zero origin2]
  simp only [View.ld_unit_zero (S := S2000x512) origin2, View.ld_unit_zero (S := S512x256) origin2, View.ld_unit_zero (S := S1x256) origin2]
  obtain ⟨e00, e01, e10, e11, e20, e21, e30, e31⟩ := blocks_at2 t
  funext j
  obtain ⟨p, n, rfl⟩ : ∃ (p : Fin 2000) (n : Fin 256), j = ix2 p n := ⟨j 0, j 1, eq_ix2 j⟩
  show k2_pay1 (F := Ideal) (Reg.iblk2 V c 0 t) (Reg.iblk2 V c 1 t) (Reg.iblk2 V c 2 t) (ix2 p n)
    = layer2 V c (((cfg2.win 3).blk t).view.emb (ix2 p n))
  refine (pay2_dense (V c main_v48) (V c main_v50) (V c main_v49) _ _ _ p n ((((cfg2.win 3).blk t).view.emb (ix2 p n)) 0) ?_ ?_ ?_).trans ?_
  · intro q
    show (V c main_v48 : S50000x512.Idx → EReal) (((cfg2.win 0).blk t).view.emb (ix2 p q)) = _
    refine congrArg (V c main_v48 : S50000x512.Idx → EReal) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 512 + 1 * q.val = q.val; omega
  · intro q
    show (V c main_v50 : S512x256.Idx → EReal) (((cfg2.win 1).blk t).view.emb (ix2 q n)) = _
    refine congrArg (V c main_v50 : S512x256.Idx → EReal) (funext fun a => Fin.ext ?_)
    match a with
    | ⟨0, _⟩ => show win2_1.index t (0 : Fin 2) * 512 + 1 * q.val = q.val; omega
    | ⟨1, _⟩ => show win2_1.index t (1 : Fin 2) * 256 + 1 * n.val = n.val; omega
  · show (V c main_v49 : S1x256.Idx → EReal) (((cfg2.win 2).blk t).view.emb (ix2 0 n)) = _
    refine congrArg (V c main_v49 : S1x256.Idx → EReal) (funext fun a => Fin.ext ?_)
    match a with
    | ⟨0, _⟩ => show win2_2.index t (0 : Fin 2) * 1 + 1 * 0 = 0; omega
    | ⟨1, _⟩ => show win2_2.index t (1 : Fin 2) * 256 + 1 * n.val = n.val; omega
  · unfold layer2
    refine congrArg (Cert.Spec.denseAt _ _ _ _) (Fin.ext ?_)
    show n.val = win2_3.index t (1 : Fin 2) * 256 + 1 * n.val
    omega

/-- An index of the array is in point `t`'s block iff each coordinate is in the block's range on its axis. -/
theorem mem_block2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v51).slice (win2_3.rect t)).set ↔ _
  rw [View.set_slice_whole, Rect.mem_set_unit]
  exact Iff.rfl

/-- Every row block is some point's. -/
theorem block_onto2 : ∀ q : Fin 25, ∃ t : Fin cfg2.N, win2_3.index t = ![q.val, 0] :=
  (by decide +kernel : ∀ q : Fin 25, ∃ t : Fin grid2.N, win2_3.index t = ![q.val, 0])

/-- THE COVER: row `r` lies in the block of the point numbered `r / 2000`. -/
theorem covered2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := block_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_block2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- THE ARRAY after all 25 points: the layer of the whole arrays. -/
theorem final2 (c : Dev nD) : (Reg.dat2 (F := Ideal) V c).arrAt 3 cfg2.N = layer2 V c :=
  (Reg.dat2 (F := Ideal) V c).arrAt_eq_of_cover 3 (layer2 V c) (fun t _ => flushed2_eq V c t) covered2

/-- Entry `(r, n)` of region 2's output array. -/
theorem arr2 (c : Dev nD) (r : Fin 50000) (n : Fin 256) :
    ((Reg.dat2 (F := Ideal) V c).arrAt 3 cfg2.N : S50000x256.Idx → EReal) (ix2 r n)
      = Cert.Spec.denseAt (fun r k => (V c main_v48 : S50000x512.Idx → EReal) (ix2 r k)) (fun k n => (V c main_v50 : S512x256.Idx → EReal) (ix2 k n))
          (fun n => (V c main_v49 : S1x256.Idx → EReal) (ix2 0 n)) r n :=
  congrFun (final2 V c) (ix2 r n)

end Cert.KernelIdeal.RegVal

end
-- ==== Proof.KI.Value3.lean ====
/-
  Region 3's output array, index by index: after every row block has been written back, entry (r, n) of the
  output is the dense layer of the three arrays the region reads — the sum over the contracted axis of activations
  times weights, plus the bias, clamped below at zero.
-/
import proofs.«158875_j46291157516821_1_alg».proof.Proof.KI.Region3
import proofs.«158875_j46291157516821_1_alg».proof.Proof.KI.ValueLib
import proofs.«158875_j46291157516821_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's stored value at an index -/

/-- The product's left operand index at output index `j` and contraction index `q`: the row of `j`, then `q`. -/
theorem lhs3_row (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs3_col (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
/-- The right operand's: `q`, then the column of `j`. -/
theorem rhs3_row (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
theorem rhs3_col (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix product into the zero accumulator, at entry `(p, n)`: the sum over the contracted axis. -/
theorem prod3_apply (a : FVec Ideal S2000x256 .bf16) (w : FVec Ideal S256x256 .bf16) (p : Fin 2000) (n : Fin 256) :
    FloatOps.matmul dot_S2000x256_S256x256_S2000x256_1_0_0_1_n_n none a w (constant (F := Ideal) S2000x256 .f32 0x00000000#32) (ix2 p n)
      = ∑ q : Fin 256, a (ix2 p q) * w (ix2 q n) := by
  rw [Ideal.matmul_constant_zero_apply, ← Equiv.sum_comp (contrEquiv1 dot_S2000x256_S256x256_S2000x256_1_0_0_1_n_n 256 rfl rfl).symm]
  refine Finset.sum_congr rfl fun q _ => ?_
  have hq := contrEquiv1_symm_val dot_S2000x256_S256x256_S2000x256_1_0_0_1_n_n 256 rfl rfl q
  have el : dot_S2000x256_S256x256_S2000x256_1_0_0_1_n_n.lhsIdx (ix2 p n) ((contrEquiv1 dot_S2000x256_S256x256_S2000x256_1_0_0_1_n_n 256 rfl rfl).symm q) = ix2 p q := funext fun a => Fin.ext (by
    match a with
    | ⟨0, _⟩ => exact lhs3_row _ _
    | ⟨1, _⟩ => exact (lhs3_col _ _).trans hq)
  have er : dot_S2000x256_S256x256_S2000x256_1_0_0_1_n_n.rhsIdx (ix2 p n) ((contrEquiv1 dot_S2000x256_S256x256_S2000x256_1_0_0_1_n_n 256 rfl rfl).symm q) = ix2 q n := funext fun a => Fin.ext (by
    match a with
    | ⟨0, _⟩ => exact (rhs3_row _ _).trans hq
    | ⟨1, _⟩ => exact rhs3_col _ _)
  rw [el, er]

/-- The bias row broadcast down the rows, at entry `(p, n)`: the row's entry `n`. -/
theorem bias3_apply (b : FVec Ideal S1x256 .f32) (p : Fin 2000) (n : Fin 256) :
    broadcastTo S2000x256 b broadcasts_S1x256_S2000x256 (ix2 p n) = b (ix2 0 n) :=
  broadcastTo_apply b broadcasts_S1x256_S2000x256 (ix2 p n) (ix2 0 n) (fun a => by
    match a with
    | ⟨0, _⟩ => rfl
    | ⟨1, _⟩ => rfl)

/-- THE STORED VALUE at entry `(p, n)` of the block: the loaded rows times the weights, plus the bias, clamped below at
    zero. -/
theorem pay3_apply (x0 : Vec Ideal S2000x256 .f32) (x1 : Vec Ideal S256x256 .bf16) (x2 : Vec Ideal S1x256 .f32) (p : Fin 2000) (n : Fin 256) :
    k3_pay1 (F := Ideal) x0 x1 x2 (ix2 p n) = max ((∑ q : Fin 256, x0 (ix2 p q) * x1 (ix2 q n)) + x2 (ix2 0 n)) 0 := by
  unfold k3_pay1
  simp only [shapeCast_self]
  rw [maximumf_apply, broadcast_apply, addf_apply, bias3_apply]
  show max _ (Ideal.ofBits .f32 0x00000000#32) = _
  rw [Ideal.ofBits_zero_f32]
  refine congrArg (fun s => max (s + x2 (ix2 0 n)) 0) ?_
  exact prod3_apply _ _ p n

/-- The stored entry is the layer's entry at row `r` of the whole arrays, once the loaded blocks are known to be
    the activations' row `r`, the weights and the bias. -/
theorem pay3_dense (A : S50000x256.Idx → EReal) (W : S256x256.Idx → EReal) (b : S1x256.Idx → EReal)
    (x0 : Vec Ideal S2000x256 .f32) (x1 : Vec Ideal S256x256 .bf16) (x2 : Vec Ideal S1x256 .f32) (p : Fin 2000) (n : Fin 256) (r : Fin 50000)
    (h0 : ∀ q : Fin 256, x0 (ix2 p q) = A (ix2 r q)) (h1 : ∀ q : Fin 256, x1 (ix2 q n) = W (ix2 q n)) (h2 : x2 (ix2 0 n) = b (ix2 0 n)) :
    k3_pay1 (F := Ideal) x0 x1 x2 (ix2 p n)
      = Cert.Spec.denseReluAt (fun r k => A (ix2 r k)) (fun k n => W (ix2 k n)) (fun n => b (ix2 0 n)) r n := by
  rw [pay3_apply, h2]
  unfold Cert.Spec.denseReluAt Cert.Spec.denseAt
  refine congrArg (fun s => max (s + b (ix2 0 n)) 0) (Finset.sum_congr rfl fun q _ => ?_)
  rw [h0 q, h1 q]

/-! ## From the blocks to the array -/

variable (V : (c : Dev nD) → (b : Ref sig .tc) → Buf (Elt Ideal) ((c : Thread nD τ).loc b))

/-- What the output array ends holding: the dense layer of the activations, weights and bias arrays as the region
    finds them, entry by entry. -/
def layer3 (c : Dev nD) : S50000x256.Idx → EReal := fun i =>
  Cert.Spec.denseReluAt (fun r k => (V c main_v80 : S50000x256.Idx → EReal) (ix2 r k)) (fun k n => (V c main_v82 : S256x256.Idx → EReal) (ix2 k n))
    (fun n => (V c main_v81 : S1x256.Idx → EReal) (ix2 0 n)) (i 0) (i 1)

/-- The index maps over the grid, decided: the activations' row block moves with the output's, which is the point's
    number; the weights and the bias stay at block (0, 0); no window moves along the columns. -/
theorem blocks_at3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of the layer of the whole arrays. -/
theorem flushed3_eq (c : Dev nD) (t : Fin cfg3.N) :
    (Reg.dat3 (F := Ideal) V c).flushed 3 t = ((cfg3.win 3).blk t).view.read (Elt Ideal) (layer3 V c) := by
  show (cfg3.win 3).cut (grid3.coords t) ((Reg.dat3 (F := Ideal) V c).after 3 t) = _
  rw [Reg.after3_3]
  unfold Reg.out3_3
  rw [View.canon_unit_zero origin2]
  simp only [View.ld_unit_zero (S := S2000x256) origin2, View.ld_unit_zero (S := S256x256) origin2, View.ld_unit_zero (S := S1x256) origin2]
  obtain ⟨e00, e01, e10, e11, e20, e21, e30, e31⟩ := blocks_at3 t
  funext j
  obtain ⟨p, n, rfl⟩ : ∃ (p : Fin 2000) (n : Fin 256), j = ix2 p n := ⟨j 0, j 1, eq_ix2 j⟩
  show k3_pay1 (F := Ideal) (Reg.iblk3 V c 0 t) (Reg.iblk3 V c 1 t) (Reg.iblk3 V c 2 t) (ix2 p n)
    = layer3 V c (((cfg3.win 3).blk t).view.emb (ix2 p n))
  refine (pay3_dense (V c main_v80) (V c main_v82) (V c main_v81) _ _ _ p n ((((cfg3.win 3).blk t).view.emb (ix2 p n)) 0) ?_ ?_ ?_).trans ?_
  · intro q
    show (V c main_v80 : S50000x256.Idx → EReal) (((cfg3.win 0).blk t).view.emb (ix2 p q)) = _
    refine congrArg (V c main_v80 : S50000x256.Idx → EReal) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 256 + 1 * q.val = q.val; omega
  · intro q
    show (V c main_v82 : S256x256.Idx → EReal) (((cfg3.win 1).blk t).view.emb (ix2 q n)) = _
    refine congrArg (V c main_v82 : S256x256.Idx → EReal) (funext fun a => Fin.ext ?_)
    match a with
    | ⟨0, _⟩ => show win3_1.index t (0 : Fin 2) * 256 + 1 * q.val = q.val; omega
    | ⟨1, _⟩ => show win3_1.index t (1 : Fin 2) * 256 + 1 * n.val = n.val; omega
  · show (V c main_v81 : S1x256.Idx → EReal) (((cfg3.win 2).blk t).view.emb (ix2 0 n)) = _
    refine congrArg (V c main_v81 : S1x256.Idx → EReal) (funext fun a => Fin.ext ?_)
    match a with
    | ⟨0, _⟩ => show win3_2.index t (0 : Fin 2) * 1 + 1 * 0 = 0; omega
    | ⟨1, _⟩ => show win3_2.index t (1 : Fin 2) * 256 + 1 * n.val = n.val; omega
  · unfold layer3
    refine congrArg (Cert.Spec.denseReluAt _ _ _ _) (Fin.ext ?_)
    show n.val = win3_3.index t (1 : Fin 2) * 256 + 1 * n.val
    omega

/-- An index of the array is in point `t`'s block iff each coordinate is in the block's range on its axis. -/
theorem mem_block3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v83).slice (win3_3.rect t)).set ↔ _
  rw [View.set_slice_whole, Rect.mem_set_unit]
  exact Iff.rfl

/-- Every row block is some point's. -/
theorem block_onto3 : ∀ q : Fin 25, ∃ t : Fin cfg3.N, win3_3.index t = ![q.val, 0] :=
  (by decide +kernel : ∀ q : Fin 25, ∃ t : Fin grid3.N, win3_3.index t = ![q.val, 0])

/-- THE COVER: row `r` lies in the block of the point numbered `r / 2000`. -/
theorem covered3 (i : S50000x256.Idx) : ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ := block_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- THE ARRAY after all 25 points: the layer of the whole arrays. -/
theorem final3 (c : Dev nD) : (Reg.dat3 (F := Ideal) V c).arrAt 3 cfg3.N = layer3 V c :=
  (Reg.dat3 (F := Ideal) V c).arrAt_eq_of_cover 3 (layer3 V c) (fun t _ => flushed3_eq V c t) covered3

/-- Entry `(r, n)` of region 3's output array. -/
theorem arr3 (c : Dev nD) (r : Fin 50000) (n : Fin 256) :
    ((Reg.dat3 (F := Ideal) V c).arrAt 3 cfg3.N : S50000x256.Idx → EReal) (ix2 r n)
      = Cert.Spec.denseReluAt (fun r k => (V c main_v80 : S50000x256.Idx → EReal) (ix2 r k)) (fun k n => (V c main_v82 : S256x256.Idx → EReal) (ix2 k n))
          (fun n => (V c main_v81 : S1x256.Idx → EReal) (ix2 0 n)) r n :=
  congrFun (final3 V c) (ix2 r n)

end Cert.KernelIdeal.RegVal

end
-- ==== Proof.KI.Value4.lean ====
/-
  Region 4's output array, index by index: after every row block has been written back, entry (r, n) of the
  output is the dense layer of the three arrays the region reads — the sum over the contracted axis of activations
  times weights, plus the bias.
-/
import proofs.«158875_j46291157516821_1_alg».proof.Proof.KI.Region4
import proofs.«158875_j46291157516821_1_alg».proof.Proof.KI.ValueLib
import proofs.«158875_j46291157516821_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's stored value at an index -/

/-- The product's left operand index at output index `j` and contraction index `q`: the row of `j`, then `q`. -/
theorem lhs4_row (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs4_col (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
/-- The right operand's: `q`, then the column of `j`. -/
theorem rhs4_row (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
theorem rhs4_col (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The matrix product into the zero accumulator, at entry `(p, n)`: the sum over the contracted axis. -/
theorem prod4_apply (a : FVec Ideal S2000x512 .bf16) (w : FVec Ideal S512x256 .bf16) (p : Fin 2000) (n : Fin 256) :
    FloatOps.matmul dot_S2000x512_S512x256_S2000x256_1_0_0_1_n_n none a w (constant (F := Ideal) S2000x256 .f32 0x00000000#32) (ix2 p n)
      = ∑ q : Fin 512, a (ix2 p q) * w (ix2 q n) := by
  rw [Ideal.matmul_constant_zero_apply, ← Equiv.sum_comp (contrEquiv1 dot_S2000x512_S512x256_S2000x256_1_0_0_1_n_n 512 rfl rfl).symm]
  refine Finset.sum_congr rfl fun q _ => ?_
  have hq := contrEquiv1_symm_val dot_S2000x512_S512x256_S2000x256_1_0_0_1_n_n 512 rfl rfl q
  have el : dot_S2000x512_S512x256_S2000x256_1_0_0_1_n_n.lhsIdx (ix2 p n) ((contrEquiv1 dot_S2000x512_S512x256_S2000x256_1_0_0_1_n_n 512 rfl rfl).symm q) = ix2 p q := funext fun a => Fin.ext (by
    match a with
    | ⟨0, _⟩ => exact lhs4_row _ _
    | ⟨1, _⟩ => exact (lhs4_col _ _).trans hq)
  have er : dot_S2000x512_S512x256_S2000x256_1_0_0_1_n_n.rhsIdx (ix2 p n) ((contrEquiv1 dot_S2000x512_S512x256_S2000x256_1_0_0_1_n_n 512 rfl rfl).symm q) = ix2 q n := funext fun a => Fin.ext (by
    match a with
    | ⟨0, _⟩ => exact (rhs4_row _ _).trans hq
    | ⟨1, _⟩ => exact rhs4_col _ _)
  rw [el, er]

/-- The bias row broadcast down the rows, at entry `(p, n)`: the row's entry `n`. -/
theorem bias4_apply (b : FVec Ideal S1x256 .f32) (p : Fin 2000) (n : Fin 256) :
    broadcastTo S2000x256 b broadcasts_S1x256_S2000x256 (ix2 p n) = b (ix2 0 n) :=
  broadcastTo_apply b broadcasts_S1x256_S2000x256 (ix2 p n) (ix2 0 n) (fun a => by
    match a with
    | ⟨0, _⟩ => rfl
    | ⟨1, _⟩ => rfl)

/-- THE STORED VALUE at entry `(p, n)` of the block: the loaded rows times the weights, plus the bias. -/
theorem pay4_apply (x0 : Vec Ideal S2000x512 .f32) (x1 : Vec Ideal S512x256 .bf16) (x2 : Vec Ideal S1x256 .f32) (p : Fin 2000) (n : Fin 256) :
    k4_pay1 (F := Ideal) x0 x1 x2 (ix2 p n) = (∑ q : Fin 512, x0 (ix2 p q) * x1 (ix2 q n)) + x2 (ix2 0 n) := by
  unfold k4_pay1
  simp only [shapeCast_self]
  rw [addf_apply, bias4_apply]
  refine congrArg (· + x2 (ix2 0 n)) ?_
  exact prod4_apply _ _ p n

/-- The stored entry is the layer's entry at row `r` of the whole arrays, once the loaded blocks are known to be
    the activations' row `r`, the weights and the bias. -/
theorem pay4_dense (A : S50000x512.Idx → EReal) (W : S512x256.Idx → EReal) (b : S1x256.Idx → EReal)
    (x0 : Vec Ideal S2000x512 .f32) (x1 : Vec Ideal S512x256 .bf16) (x2 : Vec Ideal S1x256 .f32) (p : Fin 2000) (n : Fin 256) (r : Fin 50000)
    (h0 : ∀ q : Fin 512, x0 (ix2 p q) = A (ix2 r q)) (h1 : ∀ q : Fin 512, x1 (ix2 q n) = W (ix2 q n)) (h2 : x2 (ix2 0 n) = b (ix2 0 n)) :
    k4_pay1 (F := Ideal) x0 x1 x2 (ix2 p n)
      = Cert.Spec.denseAt (fun r k => A (ix2 r k)) (fun k n => W (ix2 k n)) (fun n => b (ix2 0 n)) r n := by
  rw [pay4_apply, h2]
  unfold Cert.Spec.denseAt
  refine congrArg (· + b (ix2 0 n)) (Finset.sum_congr rfl fun q _ => ?_)
  rw [h0 q, h1 q]

/-! ## From the blocks to the array -/

variable (V : (c : Dev nD) → (b : Ref sig .tc) → Buf (Elt Ideal) ((c : Thread nD τ).loc b))

/-- What the output array ends holding: the dense layer of the activations, weights and bias arrays as the region
    finds them, entry by entry. -/
def layer4 (c : Dev nD) : S50000x256.Idx → EReal := fun i =>
  Cert.Spec.denseAt (fun r k => (V c main_v84 : S50000x512.Idx → EReal) (ix2 r k)) (fun k n => (V c main_v86 : S512x256.Idx → EReal) (ix2 k n))
    (fun n => (V c main_v85 : S1x256.Idx → EReal) (ix2 0 n)) (i 0) (i 1)

/-- The index maps over the grid, decided: the activations' row block moves with the output's, which is the point's
    number; the weights and the bias stay at block (0, 0); no window moves along the columns. -/
theorem blocks_at4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is block `t` of the layer of the whole arrays. -/
theorem flushed4_eq (c : Dev nD) (t : Fin cfg4.N) :
    (Reg.dat4 (F := Ideal) V c).flushed 3 t = ((cfg4.win 3).blk t).view.read (Elt Ideal) (layer4 V c) := by
  show (cfg4.win 3).cut (grid4.coords t) ((Reg.dat4 (F := Ideal) V c).after 3 t) = _
  rw [Reg.after4_3]
  unfold Reg.out4_3
  rw [View.canon_unit_zero origin2]
  simp only [View.ld_unit_zero (S := S2000x512) origin2, View.ld_unit_zero (S := S512x256) origin2, View.ld_unit_zero (S := S1x256) origin2]
  obtain ⟨e00, e01, e10, e11, e20, e21, e30, e31⟩ := blocks_at4 t
  funext j
  obtain ⟨p, n, rfl⟩ : ∃ (p : Fin 2000) (n : Fin 256), j = ix2 p n := ⟨j 0, j 1, eq_ix2 j⟩
  show k4_pay1 (F := Ideal) (Reg.iblk4 V c 0 t) (Reg.iblk4 V c 1 t) (Reg.iblk4 V c 2 t) (ix2 p n)
    = layer4 V c (((cfg4.win 3).blk t).view.emb (ix2 p n))
  refine (pay4_dense (V c main_v84) (V c main_v86) (V c main_v85) _ _ _ p n ((((cfg4.win 3).blk t).view.emb (ix2 p n)) 0) ?_ ?_ ?_).trans ?_
  · intro q
    show (V c main_v84 : S50000x512.Idx → EReal) (((cfg4.win 0).blk t).view.emb (ix2 p q)) = _
    refine congrArg (V c main_v84 : S50000x512.Idx → EReal) (funext fun a => Fin.ext ?_)
    match a with
    | ⟨0, _⟩ => show win4_0.index t (0 : Fin 2) * 2000 + 1 * p.val = win4_3.index t (0 : Fin 2) * 2000 + 1 * p.val; omega
    | ⟨1, _⟩ => show win4_0.index t (1 : Fin 2) * 512 + 1 * q.val = q.val; omega
  · intro q
    show (V c main_v86 : S512x256.Idx → EReal) (((cfg4.win 1).blk t).view.emb (ix2 q n)) = _
    refine congrArg (V c main_v86 : S512x256.Idx → EReal) (funext fun a => Fin.ext ?_)
    match a with
    | ⟨0, _⟩ => show win4_1.index t (0 : Fin 2) * 512 + 1 * q.val = q.val; omega
    | ⟨1, _⟩ => show win4_1.index t (1 : Fin 2) * 256 + 1 * n.val = n.val; omega
  · show (V c main_v85 : S1x256.Idx → EReal) (((cfg4.win 2).blk t).view.emb (ix2 0 n)) = _
    refine congrArg (V c main_v85 : S1x256.Idx → EReal) (funext fun a => Fin.ext ?_)
    match a with
    | ⟨0, _⟩ => show win4_2.index t (0 : Fin 2) * 1 + 1 * 0 = 0; omega
    | ⟨1, _⟩ => show win4_2.index t (1 : Fin 2) * 256 + 1 * n.val = n.val; omega
  · unfold layer4
    refine congrArg (Cert.Spec.denseAt _ _ _ _) (Fin.ext ?_)
    show n.val = win4_3.index t (1 : Fin 2) * 256 + 1 * n.val
    omega

/-- An index of the array is in point `t`'s block iff each coordinate is in the block's range on its axis. -/
theorem mem_block4 (t : Fin cfg4.N) (i : S50000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v87).slice (win4_3.rect t)).set ↔ _
  rw [View.set_slice_whole, Rect.mem_set_unit]
  exact Iff.rfl

/-- Every row block is some point's. -/
theorem block_onto4 : ∀ q : Fin 25, ∃ t : Fin cfg4.N, win4_3.index t = ![q.val, 0] :=
  (by decide +kernel : ∀ q : Fin 25, ∃ t : Fin grid4.N, win4_3.index t = ![q.val, 0])

/-- THE COVER: row `r` lies in the block of the point numbered `r / 2000`. -/
theorem covered4 (i : S50000x256.Idx) : ∃ t : Fin cfg4.N, (cfg4.win 3).flush t = true ∧ i ∈ ((cfg4.win 3).blk t).view.set := by
  have hi0 : (i 0).val < 50000 := (i 0).isLt
  have hi1 : (i 1).val < 256 := (i 1).isLt
  obtain ⟨t, ht⟩ := block_onto4 ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_block4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- THE ARRAY after all 25 points: the layer of the whole arrays. -/
theorem final4 (c : Dev nD) : (Reg.dat4 (F := Ideal) V c).arrAt 3 cfg4.N = layer4 V c :=
  (Reg.dat4 (F := Ideal) V c).arrAt_eq_of_cover 3 (layer4 V c) (fun t _ => flushed4_eq V c t) covered4

/-- Entry `(r, n)` of region 4's output array. -/
theorem arr4 (c : Dev nD) (r : Fin 50000) (n : Fin 256) :
    ((Reg.dat4 (F := Ideal) V c).arrAt 3 cfg4.N : S50000x256.Idx → EReal) (ix2 r n)
      = Cert.Spec.denseAt (fun r k => (V c main_v84 : S50000x512.Idx → EReal) (ix2 r k)) (fun k n => (V c main_v86 : S512x256.Idx → EReal) (ix2 k n))
          (fun n => (V c main_v85 : S1x256.Idx → EReal) (ix2 0 n)) r n :=
  congrFun (final4 V c) (ix2 r n)

end Cert.KernelIdeal.RegVal

end
-- ==== Proof.KI.Value5.lean ====
/-
  Region 5's output array, index by index: after every row block has been written back, entry (r, n) of the
  output is the dense layer of the three arrays the region reads — the sum over the contracted axis of activations
  times weights, plus the bias, clamped below at zero.
-/
import proofs.«158875_j46291157516821_1_alg».proof.Proof.KI.Region5
import proofs.«158875_j46291157516821_1_alg».proof.Proof.KI.ValueLib
import proofs.«158875_j46291157516821_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's stored value at an index -/

/-- The product's left operand index at output index `j` and contraction index `q`: the row of `j`, then `q`. -/
theorem lhs5_row (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs5_col (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
/-- The right operand's: `q`, then the column of `j`. -/
theorem rhs5_row (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
theorem rhs5_col (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The matrix product into the zero accumulator, at entry `(p, n)`: the sum over the contracted axis. -/
theorem prod5_apply (a : FVec Ideal S2000x512 .bf16) (w : FVec Ideal S512x256 .bf16) (p : Fin 2000) (n : Fin 256) :
    FloatOps.matmul dot_S2000x512_S512x256_S2000x256_1_0_0_1_n_n none a w (constant (F := Ideal) S2000x256 .f32 0x00000000#32) (ix2 p n)
      = ∑ q : Fin 512, a (ix2 p q) * w (ix2 q n) := by
  rw [Ideal.matmul_constant_zero_apply, ← Equiv.sum_comp (contrEquiv1 dot_S2000x512_S512x256_S2000x256_1_0_0_1_n_n 512 rfl rfl).symm]
  refine Finset.sum_congr rfl fun q _ => ?_
  have hq := contrEquiv1_symm_val dot_S2000x512_S512x256_S2000x256_1_0_0_1_n_n 512 rfl rfl q
  have el : dot_S2000x512_S512x256_S2000x256_1_0_0_1_n_n.lhsIdx (ix2 p n) ((contrEquiv1 dot_S2000x512_S512x256_S2000x256_1_0_0_1_n_n 512 rfl rfl).symm q) = ix2 p q := funext fun a => Fin.ext (by
    match a with
    | ⟨0, _⟩ => exact lhs5_row _ _
    | ⟨1, _⟩ => exact (lhs5_col _ _).trans hq)
  have er : dot_S2000x512_S512x256_S2000x256_1_0_0_1_n_n.rhsIdx (ix2 p n) ((contrEquiv1 dot_S2000x512_S512x256_S2000x256_1_0_0_1_n_n 512 rfl rfl).symm q) = ix2 q n := funext fun a => Fin.ext (by
    match a with
    | ⟨0, _⟩ => exact (rhs5_row _ _).trans hq
    | ⟨1, _⟩ => exact rhs5_col _ _)
  rw [el, er]

/-- The bias row broadcast down the rows, at entry `(p, n)`: the row's entry `n`. -/
theorem bias5_apply (b : FVec Ideal S1x256 .f32) (p : Fin 2000) (n : Fin 256) :
    broadcastTo S2000x256 b broadcasts_S1x256_S2000x256 (ix2 p n) = b (ix2 0 n) :=
  broadcastTo_apply b broadcasts_S1x256_S2000x256 (ix2 p n) (ix2 0 n) (fun a => by
    match a with
    | ⟨0, _⟩ => rfl
    | ⟨1, _⟩ => rfl)

/-- THE STORED VALUE at entry `(p, n)` of the block: the loaded rows times the weights, plus the bias, clamped below at
    zero. -/
theorem pay5_apply (x0 : Vec Ideal S2000x512 .f32) (x1 : Vec Ideal S512x256 .bf16) (x2 : Vec Ideal S1x256 .f32) (p : Fin 2000) (n : Fin 256) :
    k5_pay1 (F := Ideal) x0 x1 x2 (ix2 p n) = max ((∑ q : Fin 512, x0 (ix2 p q) * x1 (ix2 q n)) + x2 (ix2 0 n)) 0 := by
  unfold k5_pay1
  simp only [shapeCast_self]
  rw [maximumf_apply, broadcast_apply, addf_apply, bias5_apply]
  show max _ (Ideal.ofBits .f32 0x00000000#32) = _
  rw [Ideal.ofBits_zero_f32]
  refine congrArg (fun s => max (s + x2 (ix2 0 n)) 0) ?_
  exact prod5_apply _ _ p n

/-- The stored entry is the layer's entry at row `r` of the whole arrays, once the loaded blocks are known to be
    the activations' row `r`, the weights and the bias. -/
theorem pay5_dense (A : S50000x512.Idx → EReal) (W : S512x256.Idx → EReal) (b : S1x256.Idx → EReal)
    (x0 : Vec Ideal S2000x512 .f32) (x1 : Vec Ideal S512x256 .bf16) (x2 : Vec Ideal S1x256 .f32) (p : Fin 2000) (n : Fin 256) (r : Fin 50000)
    (h0 : ∀ q : Fin 512, x0 (ix2 p q) = A (ix2 r q)) (h1 : ∀ q : Fin 512, x1 (ix2 q n) = W (ix2 q n)) (h2 : x2 (ix2 0 n) = b (ix2 0 n)) :
    k5_pay1 (F := Ideal) x0 x1 x2 (ix2 p n)
      = Cert.Spec.denseReluAt (fun r k => A (ix2 r k)) (fun k n => W (ix2 k n)) (fun n => b (ix2 0 n)) r n := by
  rw [pay5_apply, h2]
  unfold Cert.Spec.denseReluAt Cert.Spec.denseAt
  refine congrArg (fun s => max (s + b (ix2 0 n)) 0) (Finset.sum_congr rfl fun q _ => ?_)
  rw [h0 q, h1 q]

/-! ## From the blocks to the array -/

variable (V : (c : Dev nD) → (b : Ref sig .tc) → Buf (Elt Ideal) ((c : Thread nD τ).loc b))

/-- What the output array ends holding: the dense layer of the activations, weights and bias arrays as the region
    finds them, entry by entry. -/
def layer5 (c : Dev nD) : S50000x256.Idx → EReal := fun i =>
  Cert.Spec.denseReluAt (fun r k => (V c main_v128 : S50000x512.Idx → EReal) (ix2 r k)) (fun k n => (V c main_v130 : S512x256.Idx → EReal) (ix2 k n))
    (fun n => (V c main_v129 : S1x256.Idx → EReal) (ix2 0 n)) (i 0) (i 1)

/-- The index maps over the grid, decided: the activations' row block moves with the output's, which is the point's
    number; the weights and the bias stay at block (0, 0); no window moves along the columns. -/
theorem blocks_at5 : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- WHAT POINT `t` WRITES BACK is block `t` of the layer of the whole arrays. -/
theorem flushed5_eq (c : Dev nD) (t : Fin cfg5.N) :
    (Reg.dat5 (F := Ideal) V c).flushed 3 t = ((cfg5.win 3).blk t).view.read (Elt Ideal) (layer5 V c) := by
  show (cfg5.win 3).cut (grid5.coords t) ((Reg.dat5 (F := Ideal) V c).after 3 t) = _
  rw [Reg.after5_3]
  unfold Reg.out5_3
  rw [View.canon_unit_zero origin2]
  simp only [View.ld_unit_zero (S := S2000x512) origin2, View.ld_unit_zero (S := S512x256) origin2, View.ld_unit_zero (S := S1x256) origin2]
  obtain ⟨e00, e01, e10, e11, e20, e21, e30, e31⟩ := blocks_at5 t
  funext j
  obtain ⟨p, n, rfl⟩ : ∃ (p : Fin 2000) (n : Fin 256), j = ix2 p n := ⟨j 0, j 1, eq_ix2 j⟩
  show k5_pay1 (F := Ideal) (Reg.iblk5 V c 0 t) (Reg.iblk5 V c 1 t) (Reg.iblk5 V c 2 t) (ix2 p n)
    = layer5 V c (((cfg5.win 3).blk t).view.emb (ix2 p n))
  refine (pay5_dense (V c main_v128) (V c main_v130) (V c main_v129) _ _ _ p n ((((cfg5.win 3).blk t).view.emb (ix2 p n)) 0) ?_ ?_ ?_).trans ?_
  · intro q
    show (V c main_v128 : S50000x512.Idx → EReal) (((cfg5.win 0).blk t).view.emb (ix2 p q)) = _
    refine congrArg (V c main_v128 : S50000x512.Idx → EReal) (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 512 + 1 * q.val = q.val; omega
  · intro q
    show (V c main_v130 : S512x256.Idx → EReal) (((cfg5.win 1).blk t).view.emb (ix2 q n)) = _
    refine congrArg (V c main_v130 : S512x256.Idx → EReal) (funext fun a => Fin.ext ?_)
    match a with
    | ⟨0, _⟩ => show win5_1.index t (0 : Fin 2) * 512 + 1 * q.val = q.val; omega
    | ⟨1, _⟩ => show win5_1.index t (1 : Fin 2) * 256 + 1 * n.val = n.val; omega
  · show (V c main_v129 : S1x256.Idx → EReal) (((cfg5.win 2).blk t).view.emb (ix2 0 n)) = _
    refine congrArg (V c main_v129 : S1x256.Idx → EReal) (funext fun a => Fin.ext ?_)
    match a with
    | ⟨0, _⟩ => show win5_2.index t (0 : Fin 2) * 1 + 1 * 0 = 0; omega
    | ⟨1, _⟩ => show win5_2.index t (1 : Fin 2) * 256 + 1 * n.val = n.val; omega
  · unfold layer5
    refine congrArg (Cert.Spec.denseReluAt _ _ _ _) (Fin.ext ?_)
    show n.val = win5_3.index t (1 : Fin 2) * 256 + 1 * n.val
    omega

/-- An index of the array is in point `t`'s block iff each coordinate is in the block's range on its axis. -/
theorem mem_block5 (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v131).slice (win5_3.rect t)).set ↔ _
  rw [View.set_slice_whole, Rect.mem_set_unit]
  exact Iff.rfl

/-- Every row block is some point's. -/
theorem block_onto5 : ∀ q : Fin 25, ∃ t : Fin cfg5.N, win5_3.index t = ![q.val, 0] :=
  (by decide +kernel : ∀ q : Fin 25, ∃ t : Fin grid5.N, win5_3.index t = ![q.val, 0])

/-- THE COVER: row `r` lies in the block of the point numbered `r / 2000`. -/
theorem covered5 (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  obtain ⟨t, ht⟩ := block_onto5 ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_block5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 256 ≤ (i 1).val ∧ (i 1).val < win5_3.index t (1 : Fin 2) * 256 + 256; omega

/-- THE ARRAY after all 25 points: the layer of the whole arrays. -/
theorem final5 (c : Dev nD) : (Reg.dat5 (F := Ideal) V c).arrAt 3 cfg5.N = layer5 V c :=
  (Reg.dat5 (F := Ideal) V c).arrAt_eq_of_cover 3 (layer5 V c) (fun t _ => flushed5_eq V c t) covered5

/-- Entry `(r, n)` of region 5's output array. -/
theorem arr5 (c : Dev nD) (r : Fin 50000) (n : Fin 256) :
    ((Reg.dat5 (F := Ideal) V c).arrAt 3 cfg5.N : S50000x256.Idx → EReal) (ix2 r n)
      = Cert.Spec.denseReluAt (fun r k => (V c main_v128 : S50000x512.Idx → EReal) (ix2 r k)) (fun k n => (V c main_v130 : S512x256.Idx → EReal) (ix2 k n))
          (fun n => (V c main_v129 : S1x256.Idx → EReal) (ix2 0 n)) r n :=
  congrFun (final5 V c) (ix2 r n)

end Cert.KernelIdeal.RegVal

end
-- ==== Proof.KI.Value6.lean ====
/-
  Region 6's output array, index by index: after every row block has been written back, entry (r, n) of the
  output is the dense layer of the three arrays the region reads — the sum over the contracted axis of activations
  times weights, plus the bias.
-/
import proofs.«158875_j46291157516821_1_alg».proof.Proof.KI.Region6
import proofs.«158875_j46291157516821_1_alg».proof.Proof.KI.ValueLib
import proofs.«158875_j46291157516821_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's stored value at an index -/

/-- The product's left operand index at output index `j` and contraction index `q`: the row of `j`, then `q`. -/
theorem lhs6_row (j : S2000x40.Idx) (q : dot_S2000x512_S512x40_S2000x40_1_0_0_1_n_n.contr.Idx) :
    (dot_S2000x512_S512x40_S2000x40_1_0_0_1_n_n.lhsIdx j q 0).val = (j 0).val := by
  unfold DotDims.lhsIdx
  rw [dif_neg (show ¬(0 : Fin S2000x512.rank) ∈ dot_S2000x512_S512x40_S2000x40_1_0_0_1_n_n.lhsBatch by decide), dif_pos (show (0 : Fin S2000x512.rank) ∈ dot_S2000x512_S512x40_S2000x40_1_0_0_1_n_n.lhsNonContracting by decide)]
  rfl
theorem lhs6_col (j : S2000x40.Idx) (q : dot_S2000x512_S512x40_S2000x40_1_0_0_1_n_n.contr.Idx) :
    (dot_S2000x512_S512x40_S2000x40_1_0_0_1_n_n.lhsIdx j q 1).val = (q ⟨0, by decide⟩).val :=
  dot_S2000x512_S512x40_S2000x40_1_0_0_1_n_n.lhsIdx_val_of_single rfl j q
/-- The right operand's: `q`, then the column of `j`. -/
theorem rhs6_row (j : S2000x40.Idx) (q : dot_S2000x512_S512x40_S2000x40_1_0_0_1_n_n.contr.Idx) :
    (dot_S2000x512_S512x40_S2000x40_1_0_0_1_n_n.rhsIdx j q 0).val = (q ⟨0, by decide⟩).val :=
  dot_S2000x512_S512x40_S2000x40_1_0_0_1_n_n.rhsIdx_val_of_single rfl j q
theorem rhs6_col (j : S2000x40.Idx) (q : dot_S2000x512_S512x40_S2000x40_1_0_0_1_n_n.contr.Idx) :
    (dot_S2000x512_S512x40_S2000x40_1_0_0_1_n_n.rhsIdx j q 1).val = (j 1).val := by
  unfold DotDims.rhsIdx
  rw [dif_neg (show ¬(1 : Fin S512x40.rank) ∈ dot_S2000x512_S512x40_S2000x40_1_0_0_1_n_n.rhsBatch by decide), dif_pos (show (1 : Fin S512x40.rank) ∈ dot_S2000x512_S512x40_S2000x40_1_0_0_1_n_n.rhsNonContracting by decide)]
  rfl

/-- The matrix product into the zero accumulator, at entry `(p, n)`: the sum over the contracted axis. -/
theorem prod6_apply (a : FVec Ideal S2000x512 .bf16) (w : FVec Ideal S512x40 .bf16) (p : Fin 2000) (n : Fin 40) :
    FloatOps.matmul dot_S2000x512_S512x40_S2000x40_1_0_0_1_n_n none a w (constant (F := Ideal) S2000x40 .f32 0x00000000#32) (ix2 p n)
      = ∑ q : Fin 512, a (ix2 p q) * w (ix2 q n) := by
  rw [Ideal.matmul_constant_zero_apply, ← Equiv.sum_comp (contrEquiv1 dot_S2000x512_S512x40_S2000x40_1_0_0_1_n_n 512 rfl rfl).symm]
  refine Finset.sum_congr rfl fun q _ => ?_
  have hq := contrEquiv1_symm_val dot_S2000x512_S512x40_S2000x40_1_0_0_1_n_n 512 rfl rfl q
  have el : dot_S2000x512_S512x40_S2000x40_1_0_0_1_n_n.lhsIdx (ix2 p n) ((contrEquiv1 dot_S2000x512_S512x40_S2000x40_1_0_0_1_n_n 512 rfl rfl).symm q) = ix2 p q := funext fun a => Fin.ext (by
    match a with
    | ⟨0, _⟩ => exact lhs6_row _ _
    | ⟨1, _⟩ => exact (lhs6_col _ _).trans hq)
  have er : dot_S2000x512_S512x40_S2000x40_1_0_0_1_n_n.rhsIdx (ix2 p n) ((contrEquiv1 dot_S2000x512_S512x40_S2000x40_1_0_0_1_n_n 512 rfl rfl).symm q) = ix2 q n := funext fun a => Fin.ext (by
    match a with
    | ⟨0, _⟩ => exact (rhs6_row _ _).trans hq
    | ⟨1, _⟩ => exact rhs6_col _ _)
  rw [el, er]

/-- The bias row broadcast down the rows, at entry `(p, n)`: the row's entry `n`. -/
theorem bias6_apply (b : FVec Ideal S1x40 .f32) (p : Fin 2000) (n : Fin 40) :
    broadcastTo S2000x40 b broadcasts_S1x40_S2000x40 (ix2 p n) = b (ix2 0 n) :=
  broadcastTo_apply b broadcasts_S1x40_S2000x40 (ix2 p n) (ix2 0 n) (fun a => by
    match a with
    | ⟨0, _⟩ => rfl
    | ⟨1, _⟩ => rfl)

/-- THE STORED VALUE at entry `(p, n)` of the block: the loaded rows times the weights, plus the bias. -/
theorem pay6_apply (x0 : Vec Ideal S2000x512 .f32) (x1 : Vec Ideal S512x40 .bf16) (x2 : Vec Ideal S1x40 .f32) (p : Fin 2000) (n : Fin 40) :
    k6_pay1 (F := Ideal) x0 x1 x2 (ix2 p n) = (∑ q : Fin 512, x0 (ix2 p q) * x1 (ix2 q n)) + x2 (ix2 0 n) := by
  unfold k6_pay1
  simp only [shapeCast_self]
  rw [addf_apply, bias6_apply]
  refine congrArg (· + x2 (ix2 0 n)) ?_
  exact prod6_apply _ _ p n

/-- The stored entry is the layer's entry at row `r` of the whole arrays, once the loaded blocks are known to be
    the activations' row `r`, the weights and the bias. -/
theorem pay6_dense (A : S50000x512.Idx → EReal) (W : S512x40.Idx → EReal) (b : S1x40.Idx → EReal)
    (x0 : Vec Ideal S2000x512 .f32) (x1 : Vec Ideal S512x40 .bf16) (x2 : Vec Ideal S1x40 .f32) (p : Fin 2000) (n : Fin 40) (r : Fin 50000)
    (h0 : ∀ q : Fin 512, x0 (ix2 p q) = A (ix2 r q)) (h1 : ∀ q : Fin 512, x1 (ix2 q n) = W (ix2 q n)) (h2 : x2 (ix2 0 n) = b (ix2 0 n)) :
    k6_pay1 (F := Ideal) x0 x1 x2 (ix2 p n)
      = Cert.Spec.denseAt (fun r k => A (ix2 r k)) (fun k n => W (ix2 k n)) (fun n => b (ix2 0 n)) r n := by
  rw [pay6_apply, h2]
  unfold Cert.Spec.denseAt
  refine congrArg (· + b (ix2 0 n)) (Finset.sum_congr rfl fun q _ => ?_)
  rw [h0 q, h1 q]

/-! ## From the blocks to the array -/

variable (V : (c : Dev nD) → (b : Ref sig .tc) → Buf (Elt Ideal) ((c : Thread nD τ).loc b))

/-- What the output array ends holding: the dense layer of the activations, weights and bias arrays as the region
    finds them, entry by entry. -/
def layer6 (c : Dev nD) : S50000x40.Idx → EReal := fun i =>
  Cert.Spec.denseAt (fun r k => (V c main_v132 : S50000x512.Idx → EReal) (ix2 r k)) (fun k n => (V c main_v134 : S512x40.Idx → EReal) (ix2 k n))
    (fun n => (V c main_v133 : S1x40.Idx → EReal) (ix2 0 n)) (i 0) (i 1)

/-- The index maps over the grid, decided: the activations' row block moves with the output's, which is the point's
    number; the weights and the bias stay at block (0, 0); no window moves along the columns. -/
theorem blocks_at6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- WHAT POINT `t` WRITES BACK is block `t` of the layer of the whole arrays. -/
theorem flushed6_eq (c : Dev nD) (t : Fin cfg6.N) :
    (Reg.dat6 (F := Ideal) V c).flushed 3 t = ((cfg6.win 3).blk t).view.read (Elt Ideal) (layer6 V c) := by
  show (cfg6.win 3).cut (grid6.coords t) ((Reg.dat6 (F := Ideal) V c).after 3 t) = _
  rw [Reg.after6_3]
  unfold Reg.out6_3
  rw [View.canon_unit_zero origin2]
  simp only [View.ld_unit_zero (S := S2000x512) origin2, View.ld_unit_zero (S := S512x40) origin2, View.ld_unit_zero (S := S1x40) origin2]
  obtain ⟨e00, e01, e10, e11, e20, e21, e30, e31⟩ := blocks_at6 t
  funext j
  obtain ⟨p, n, rfl⟩ : ∃ (p : Fin 2000) (n : Fin 40), j = ix2 p n := ⟨j 0, j 1, eq_ix2 j⟩
  show k6_pay1 (F := Ideal) (Reg.iblk6 V c 0 t) (Reg.iblk6 V c 1 t) (Reg.iblk6 V c 2 t) (ix2 p n)
    = layer6 V c (((cfg6.win 3).blk t).view.emb (ix2 p n))
  refine (pay6_dense (V c main_v132) (V c main_v134) (V c main_v133) _ _ _ p n ((((cfg6.win 3).blk t).view.emb (ix2 p n)) 0) ?_ ?_ ?_).trans ?_
  · intro q
    show (V c main_v132 : S50000x512.Idx → EReal) (((cfg6.win 0).blk t).view.emb (ix2 p q)) = _
    refine congrArg (V c main_v132 : S50000x512.Idx → EReal) (funext fun a => Fin.ext ?_)
    match a with
    | ⟨0, _⟩ => show win6_0.index t (0 : Fin 2) * 2000 + 1 * p.val = win6_3.index t (0 : Fin 2) * 2000 + 1 * p.val; omega
    | ⟨1, _⟩ => show win6_0.index t (1 : Fin 2) * 512 + 1 * q.val = q.val; omega
  · intro q
    show (V c main_v134 : S512x40.Idx → EReal) (((cfg6.win 1).blk t).view.emb (ix2 q n)) = _
    refine congrArg (V c main_v134 : S512x40.Idx → EReal) (funext fun a => Fin.ext ?_)
    match a with
    | ⟨0, _⟩ => show win6_1.index t (0 : Fin 2) * 512 + 1 * q.val = q.val; omega
    | ⟨1, _⟩ => show win6_1.index t (1 : Fin 2) * 40 + 1 * n.val = n.val; omega
  · show (V c main_v133 : S1x40.Idx → EReal) (((cfg6.win 2).blk t).view.emb (ix2 0 n)) = _
    refine congrArg (V c main_v133 : S1x40.Idx → EReal) (funext fun a => Fin.ext ?_)
    match a with
    | ⟨0, _⟩ => show win6_2.index t (0 : Fin 2) * 1 + 1 * 0 = 0; omega
    | ⟨1, _⟩ => show win6_2.index t (1 : Fin 2) * 40 + 1 * n.val = n.val; omega
  · unfold layer6
    refine congrArg (Cert.Spec.denseAt _ _ _ _) (Fin.ext ?_)
    show n.val = win6_3.index t (1 : Fin 2) * 40 + 1 * n.val
    omega

/-- An index of the array is in point `t`'s block iff each coordinate is in the block's range on its axis. -/
theorem mem_block6 (t : Fin cfg6.N) (i : S50000x40.Idx) :
    i ∈ ((cfg6.win 3).blk t).view.set ↔ ∀ a : Fin 2, win6_3.index t a * S2000x40.size a ≤ (i a).val ∧ (i a).val < win6_3.index t a * S2000x40.size a + S2000x40.size a := by
  show i ∈ ((View.whole main_v135).slice (win6_3.rect t)).set ↔ _
  rw [View.set_slice_whole, Rect.mem_set_unit]
  exact Iff.rfl

/-- Every row block is some point's. -/
theorem block_onto6 : ∀ q : Fin 25, ∃ t : Fin cfg6.N, win6_3.index t = ![q.val, 0] :=
  (by decide +kernel : ∀ q : Fin 25, ∃ t : Fin grid6.N, win6_3.index t = ![q.val, 0])

/-- THE COVER: row `r` lies in the block of the point numbered `r / 2000`. -/
theorem covered6 (i : S50000x40.Idx) : ∃ t : Fin cfg6.N, (cfg6.win 3).flush t = true ∧ i ∈ ((cfg6.win 3).blk t).view.set := by
  have hi0 : (i 0).val < 50000 := (i 0).isLt
  have hi1 : (i 1).val < 40 := (i 1).isLt
  obtain ⟨t, ht⟩ := block_onto6 ⟨(i 0).val / 2000, by omega⟩
  have q0 : win6_3.index t (0 : Fin 2) = (i 0).val / 2000 := congrFun ht 0
  have q1 : win6_3.index t (1 : Fin 2) = 0 := congrFun ht 1
  refine ⟨t, flush6_3 t, ?_⟩
  rw [mem_block6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 40 ≤ (i 1).val ∧ (i 1).val < win6_3.index t (1 : Fin 2) * 40 + 40; omega

/-- THE ARRAY after all 25 points: the layer of the whole arrays. -/
theorem final6 (c : Dev nD) : (Reg.dat6 (F := Ideal) V c).arrAt 3 cfg6.N = layer6 V c :=
  (Reg.dat6 (F := Ideal) V c).arrAt_eq_of_cover 3 (layer6 V c) (fun t _ => flushed6_eq V c t) covered6

/-- Entry `(r, n)` of region 6's output array. -/
theorem arr6 (c : Dev nD) (r : Fin 50000) (n : Fin 40) :
    ((Reg.dat6 (F := Ideal) V c).arrAt 3 cfg6.N : S50000x40.Idx → EReal) (ix2 r n)
      = Cert.Spec.denseAt (fun r k => (V c main_v132 : S50000x512.Idx → EReal) (ix2 r k)) (fun k n => (V c main_v134 : S512x40.Idx → EReal) (ix2 k n))
          (fun n => (V c main_v133 : S1x40.Idx → EReal) (ix2 0 n)) r n :=
  congrFun (final6 V c) (ix2 r n)

end Cert.KernelIdeal.RegVal

end
-- ==== Proof.RefDot.lean ====
/-
  The reference's dense products read at an index. Each of the four contraction records of the reference program
  contracts axis 1 of the left operand with axis 0 of the right one and has no batch axis, so over the extended
  reals entry (r, n) of the product is the sum over k of A[r, k] * W[k, n]. The three rectified layers
  ("product, plus the bias row, clamped below at zero") and the four bare products are then the shared
  specification's dense layer of their operands' entries.
-/
import proofs.«158875_j46291157516821_1_alg».proof.Proof.RefReadP
import proofs.«158875_j46291157516821_1_alg».proof.Proof.Spec

noncomputable section

namespace Cert.Bridge

open Cert.ReferenceIdeal Cert.ReferenceIdeal.Gen Cert.ReferenceIdeal.ReadP Idealize.ShloMosaic Idealize.ShloMosaic.TcCoe Idealize.SL.Sem Idealize.ShloMosaic.StableHlo

/-! ## The four contractions, over arbitrary operands -/

/-! ### [50000,128] by [128,256] -/

theorem dot_128_256_lhs0 (i : S50000x256.Idx) (q : dot_S50000x128_S128x256_S50000x256_1_0_0_1_n_n.contr.Idx) : (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide),
    dif_pos (show (0 : Fin S50000x128.rank) ∈ dot_S50000x128_S128x256_S50000x256_1_0_0_1_n_n.lhsNonContracting by decide)]
  rfl
theorem dot_128_256_lhs1 (i : S50000x256.Idx) (q : dot_S50000x128_S128x256_S50000x256_1_0_0_1_n_n.contr.Idx) : (dot_S50000x128_S128x256_S50000x256_1_0_0_1_n_n.lhsIdx i q 1).val = (q ⟨0, by decide⟩).val :=
  dot_S50000x128_S128x256_S50000x256_1_0_0_1_n_n.lhsIdx_val_of_single rfl i q
theorem dot_128_256_rhs0 (i : S50000x256.Idx) (q : dot_S50000x128_S128x256_S50000x256_1_0_0_1_n_n.contr.Idx) : (dot_S50000x128_S128x256_S50000x256_1_0_0_1_n_n.rhsIdx i q 0).val = (q ⟨0, by decide⟩).val :=
  dot_S50000x128_S128x256_S50000x256_1_0_0_1_n_n.rhsIdx_val_of_single rfl i q
theorem dot_128_256_rhs1 (i : S50000x256.Idx) (q : dot_S50000x128_S128x256_S50000x256_1_0_0_1_n_n.contr.Idx) : (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide),
    dif_pos (show (1 : Fin S128x256.rank) ∈ dot_S50000x128_S128x256_S50000x256_1_0_0_1_n_n.rhsNonContracting by decide)]
  rfl

/-- Entry (r, n) of the [50000,128] by [128,256] product is the sum over the contracted axis. -/
theorem dot_128_256 (A : FVec Ideal S50000x128 .f32) (W : FVec Ideal S128x256 .f32) (r : Fin 50000) (n : Fin 256) :
    Host.dotGeneral (F := Ideal) dot_S50000x128_S128x256_S50000x256_1_0_0_1_n_n none A W (ValueIdx.ix2 r n)
      = ∑ k : Fin 128, A (ValueIdx.ix2 r k) * W (ValueIdx.ix2 k n) := by
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx (ValueIdx.ix2 r n) ((ValueIdx.contrEquiv1 dot_S50000x128_S128x256_S50000x256_1_0_0_1_n_n 128 rfl rfl).symm k) = ValueIdx.ix2 r k :=
    funext fun a => Fin.ext (by
      match a with
      | ⟨0, _⟩ => exact dot_128_256_lhs0 _ _
      | ⟨1, _⟩ => exact (dot_128_256_lhs1 _ _).trans hk)
  have er : dot_S50000x128_S128x256_S50000x256_1_0_0_1_n_n.rhsIdx (ValueIdx.ix2 r n) ((ValueIdx.contrEquiv1 dot_S50000x128_S128x256_S50000x256_1_0_0_1_n_n 128 rfl rfl).symm k) = ValueIdx.ix2 k n :=
    funext fun a => Fin.ext (by
      match a with
      | ⟨0, _⟩ => exact (dot_128_256_rhs0 _ _).trans hk
      | ⟨1, _⟩ => exact dot_128_256_rhs1 _ _)
  rw [el, er]

/-! ### [50000,512] by [512,256] -/

theorem dot_512_256_lhs0 (i : S50000x256.Idx) (q : dot_S50000x512_S512x256_S50000x256_1_0_0_1_n_n.contr.Idx) : (dot_S50000x512_S512x256_S50000x256_1_0_0_1_n_n.lhsIdx i q 0).val = (i 0).val := by
  unfold DotDims.lhsIdx
  rw [dif_neg (show ¬(0 : Fin S50000x512.rank) ∈ dot_S50000x512_S512x256_S50000x256_1_0_0_1_n_n.lhsBatch by decide),
    dif_pos (show (0 : Fin S50000x512.rank) ∈ dot_S50000x512_S512x256_S50000x256_1_0_0_1_n_n.lhsNonContracting by decide)]
  rfl
theorem dot_512_256_lhs1 (i : S50000x256.Idx) (q : dot_S50000x512_S512x256_S50000x256_1_0_0_1_n_n.contr.Idx) : (dot_S50000x512_S512x256_S50000x256_1_0_0_1_n_n.lhsIdx i q 1).val = (q ⟨0, by decide⟩).val :=
  dot_S50000x512_S512x256_S50000x256_1_0_0_1_n_n.lhsIdx_val_of_single rfl i q
theorem dot_512_256_rhs0 (i : S50000x256.Idx) (q : dot_S50000x512_S512x256_S50000x256_1_0_0_1_n_n.contr.Idx) : (dot_S50000x512_S512x256_S50000x256_1_0_0_1_n_n.rhsIdx i q 0).val = (q ⟨0, by decide⟩).val :=
  dot_S50000x512_S512x256_S50000x256_1_0_0_1_n_n.rhsIdx_val_of_single rfl i q
theorem dot_512_256_rhs1 (i : S50000x256.Idx) (q : dot_S50000x512_S512x256_S50000x256_1_0_0_1_n_n.contr.Idx) : (dot_S50000x512_S512x256_S50000x256_1_0_0_1_n_n.rhsIdx i q 1).val = (i 1).val := by
  unfold DotDims.rhsIdx
  rw [dif_neg (show ¬(1 : Fin S512x256.rank) ∈ dot_S50000x512_S512x256_S50000x256_1_0_0_1_n_n.rhsBatch by decide),
    dif_pos (show (1 : Fin S512x256.rank) ∈ dot_S50000x512_S512x256_S50000x256_1_0_0_1_n_n.rhsNonContracting by decide)]
  rfl

/-- Entry (r, n) of the [50000,512] by [512,256] product is the sum over the contracted axis. -/
theorem dot_512_256 (A : FVec Ideal S50000x512 .f32) (W : FVec Ideal S512x256 .f32) (r : Fin 50000) (n : Fin 256) :
    Host.dotGeneral (F := Ideal) dot_S50000x512_S512x256_S50000x256_1_0_0_1_n_n none A W (ValueIdx.ix2 r n)
      = ∑ k : Fin 512, A (ValueIdx.ix2 r k) * W (ValueIdx.ix2 k n) := by
  simp only [Host.dotGeneral]
  rw [Ideal.dotGeneral_apply, ← Equiv.sum_comp (ValueIdx.contrEquiv1 dot_S50000x512_S512x256_S50000x256_1_0_0_1_n_n 512 rfl rfl).symm]
  refine Finset.sum_congr rfl fun k _ => ?_
  have hk := ValueIdx.contrEquiv1_symm_val dot_S50000x512_S512x256_S50000x256_1_0_0_1_n_n 512 rfl rfl k
  have el : dot_S50000x512_S512x256_S50000x256_1_0_0_1_n_n.lhsIdx (ValueIdx.ix2 r n) ((ValueIdx.contrEquiv1 dot_S50000x512_S512x256_S50000x256_1_0_0_1_n_n 512 rfl rfl).symm k) = ValueIdx.ix2 r k :=
    funext fun a => Fin.ext (by
      match a with
      | ⟨0, _⟩ => exact dot_512_256_lhs0 _ _
      | ⟨1, _⟩ => exact (dot_512_256_lhs1 _ _).trans hk)
  have er : dot_S50000x512_S512x256_S50000x256_1_0_0_1_n_n.rhsIdx (ValueIdx.ix2 r n) ((ValueIdx.contrEquiv1 dot_S50000x512_S512x256_S50000x256_1_0_0_1_n_n 512 rfl rfl).symm k) = ValueIdx.ix2 k n :=
    funext fun a => Fin.ext (by
      match a with
      | ⟨0, _⟩ => exact (dot_512_256_rhs0 _ _).trans hk
      | ⟨1, _⟩ => exact dot_512_256_rhs1 _ _)
  rw [el, er]

/-! ### [50000,256] by [256,256] -/

theorem dot_256_256_lhs0 (i : S50000x256.Idx) (q : dot_S50000x256_S256x256_S50000x256_1_0_0_1_n_n.contr.Idx) : (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide),
    dif_pos (show (0 : Fin S50000x256.rank) ∈ dot_S50000x256_S256x256_S50000x256_1_0_0_1_n_n.lhsNonContracting by decide)]
  rfl
theorem dot_256_256_lhs1 (i : S50000x256.Idx) (q : dot_S50000x256_S256x256_S50000x256_1_0_0_1_n_n.contr.Idx) : (dot_S50000x256_S256x256_S50000x256_1_0_0_1_n_n.lhsIdx i q 1).val = (q ⟨0, by decide⟩).val :=
  dot_S50000x256_S256x256_S50000x256_1_0_0_1_n_n.lhsIdx_val_of_single rfl i q
theorem dot_256_256_rhs0 (i : S50000x256.Idx) (q : dot_S50000x256_S256x256_S50000x256_1_0_0_1_n_n.contr.Idx) : (dot_S50000x256_S256x256_S50000x256_1_0_0_1_n_n.rhsIdx i q 0).val = (q ⟨0, by decide⟩).val :=
  dot_S50000x256_S256x256_S50000x256_1_0_0_1_n_n.rhsIdx_val_of_single rfl i q
theorem dot_256_256_rhs1 (i : S50000x256.Idx) (q : dot_S50000x256_S256x256_S50000x256_1_0_0_1_n_n.contr.Idx) : (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide),
    dif_pos (show (1 : Fin S256x256.rank) ∈ dot_S50000x256_S256x256_S50000x256_1_0_0_1_n_n.rhsNonContracting by decide)]
  rfl

/-- Entry (r, n) of the [50000,256] by [256,256] product is the sum over the contracted axis. -/
theorem dot_256_256 (A : FVec Ideal S50000x256 .f32) (W : FVec Ideal S256x256 .f32) (r : Fin 50000) (n : Fin 256) :
    Host.dotGeneral (F := Ideal) dot_S50000x256_S256x256_S50000x256_1_0_0_1_n_n none A W (ValueIdx.ix2 r n)
      = ∑ k : Fin 256, A (ValueIdx.ix2 r k) * W (ValueIdx.ix2 k n) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx (ValueIdx.ix2 r n) ((ValueIdx.contrEquiv1 dot_S50000x256_S256x256_S50000x256_1_0_0_1_n_n 256 rfl rfl).symm k) = ValueIdx.ix2 r k :=
    funext fun a => Fin.ext (by
      match a with
      | ⟨0, _⟩ => exact dot_256_256_lhs0 _ _
      | ⟨1, _⟩ => exact (dot_256_256_lhs1 _ _).trans hk)
  have er : dot_S50000x256_S256x256_S50000x256_1_0_0_1_n_n.rhsIdx (ValueIdx.ix2 r n) ((ValueIdx.contrEquiv1 dot_S50000x256_S256x256_S50000x256_1_0_0_1_n_n 256 rfl rfl).symm k) = ValueIdx.ix2 k n :=
    funext fun a => Fin.ext (by
      match a with
      | ⟨0, _⟩ => exact (dot_256_256_rhs0 _ _).trans hk
      | ⟨1, _⟩ => exact dot_256_256_rhs1 _ _)
  rw [el, er]

/-! ### [50000,512] by [512,40] -/

theorem dot_512_40_lhs0 (i : S50000x40.Idx) (q : dot_S50000x512_S512x40_S50000x40_1_0_0_1_n_n.contr.Idx) : (dot_S50000x512_S512x40_S50000x40_1_0_0_1_n_n.lhsIdx i q 0).val = (i 0).val := by
  unfold DotDims.lhsIdx
  rw [dif_neg (show ¬(0 : Fin S50000x512.rank) ∈ dot_S50000x512_S512x40_S50000x40_1_0_0_1_n_n.lhsBatch by decide),
    dif_pos (show (0 : Fin S50000x512.rank) ∈ dot_S50000x512_S512x40_S50000x40_1_0_0_1_n_n.lhsNonContracting by decide)]
  rfl
theorem dot_512_40_lhs1 (i : S50000x40.Idx) (q : dot_S50000x512_S512x40_S50000x40_1_0_0_1_n_n.contr.Idx) : (dot_S50000x512_S512x40_S50000x40_1_0_0_1_n_n.lhsIdx i q 1).val = (q ⟨0, by decide⟩).val :=
  dot_S50000x512_S512x40_S50000x40_1_0_0_1_n_n.lhsIdx_val_of_single rfl i q
theorem dot_512_40_rhs0 (i : S50000x40.Idx) (q : dot_S50000x512_S512x40_S50000x40_1_0_0_1_n_n.contr.Idx) : (dot_S50000x512_S512x40_S50000x40_1_0_0_1_n_n.rhsIdx i q 0).val = (q ⟨0, by decide⟩).val :=
  dot_S50000x512_S512x40_S50000x40_1_0_0_1_n_n.rhsIdx_val_of_single rfl i q
theorem dot_512_40_rhs1 (i : S50000x40.Idx) (q : dot_S50000x512_S512x40_S50000x40_1_0_0_1_n_n.contr.Idx) : (dot_S50000x512_S512x40_S50000x40_1_0_0_1_n_n.rhsIdx i q 1).val = (i 1).val := by
  unfold DotDims.rhsIdx
  rw [dif_neg (show ¬(1 : Fin S512x40.rank) ∈ dot_S50000x512_S512x40_S50000x40_1_0_0_1_n_n.rhsBatch by decide),
    dif_pos (show (1 : Fin S512x40.rank) ∈ dot_S50000x512_S512x40_S50000x40_1_0_0_1_n_n.rhsNonContracting by decide)]
  rfl

/-- Entry (r, n) of the [50000,512] by [512,40] product is the sum over the contracted axis. -/
theorem dot_512_40 (A : FVec Ideal S50000x512 .f32) (W : FVec Ideal S512x40 .f32) (r : Fin 50000) (n : Fin 40) :
    Host.dotGeneral (F := Ideal) dot_S50000x512_S512x40_S50000x40_1_0_0_1_n_n none A W (ValueIdx.ix2 r n)
      = ∑ k : Fin 512, A (ValueIdx.ix2 r k) * W (ValueIdx.ix2 k n) := by
  simp only [Host.dotGeneral]
  rw [Ideal.dotGeneral_apply, ← Equiv.sum_comp (ValueIdx.contrEquiv1 dot_S50000x512_S512x40_S50000x40_1_0_0_1_n_n 512 rfl rfl).symm]
  refine Finset.sum_congr rfl fun k _ => ?_
  have hk := ValueIdx.contrEquiv1_symm_val dot_S50000x512_S512x40_S50000x40_1_0_0_1_n_n 512 rfl rfl k
  have el : dot_S50000x512_S512x40_S50000x40_1_0_0_1_n_n.lhsIdx (ValueIdx.ix2 r n) ((ValueIdx.contrEquiv1 dot_S50000x512_S512x40_S50000x40_1_0_0_1_n_n 512 rfl rfl).symm k) = ValueIdx.ix2 r k :=
    funext fun a => Fin.ext (by
      match a with
      | ⟨0, _⟩ => exact dot_512_40_lhs0 _ _
      | ⟨1, _⟩ => exact (dot_512_40_lhs1 _ _).trans hk)
  have er : dot_S50000x512_S512x40_S50000x40_1_0_0_1_n_n.rhsIdx (ValueIdx.ix2 r n) ((ValueIdx.contrEquiv1 dot_S50000x512_S512x40_S50000x40_1_0_0_1_n_n 512 rfl rfl).symm k) = ValueIdx.ix2 k n :=
    funext fun a => Fin.ext (by
      match a with
      | ⟨0, _⟩ => exact (dot_512_40_rhs0 _ _).trans hk
      | ⟨1, _⟩ => exact dot_512_40_rhs1 _ _)
  rw [el, er]

/-! ## The three rectified layers of the reference, read at an index -/

/-- Layer 0 of the reference at (r, n): the dense layer of its input's entries, the weight's and the bias's, clamped at zero. -/
theorem lin0_apply (x1 : FVec Ideal S7x50000x128 .f32) (x10 : FVec Ideal S128x256 .f32) (x11 : FVec Ideal S256 .f32) (r : Fin 50000) (n : Fin 256) :
    val_main_v48 (F := Ideal) x1 x10 x11 (ValueIdx.ix2 r n)
      = Cert.Spec.denseReluAt (fun r k => val_main_v43 (F := Ideal) x1 (ValueIdx.ix2 r k)) (fun k n => x10 (ValueIdx.ix2 k n))
          (fun n => x11 (ValueIdx.ix1 n)) r n := by
  have hb : val_main_v46 (F := Ideal) x11 (ValueIdx.ix2 r n) = x11 (ValueIdx.ix1 n) := by
    rw [val_main_v46_apply, val_main_v45_apply]
    exact congrArg x11 (funext fun a => match a with | ⟨0, _⟩ => rfl)
  have hz : val_main_call1_v0 (F := Ideal) (ValueIdx.ix2 r n) = 0 := by
    rw [val_main_call1_v0_apply, val_main_call1_cst_apply]
    exact Ideal.ofBits_zero_f32
  show max (val_main_v44 (F := Ideal) x1 x10 (ValueIdx.ix2 r n) + val_main_v46 (F := Ideal) x11 (ValueIdx.ix2 r n))
      (val_main_call1_v0 (F := Ideal) (ValueIdx.ix2 r n)) = _
  rw [hb, hz]
  unfold val_main_v44
  rw [dot_128_256]
  rfl

/-- Layer 1 of the reference at (r, n): the dense layer of its input's entries, the weight's and the bias's, clamped at zero. -/
theorem lin1_apply (x1 : FVec Ideal S7x50000x128 .f32) (x12 : FVec Ideal S256x256 .f32) (x13 : FVec Ideal S256 .f32) (x16 : FVec Ideal S2 .f32) (r : Fin 50000) (n : Fin 256) :
    val_main_v81 (F := Ideal) x1 x12 x13 x16 (ValueIdx.ix2 r n)
      = Cert.Spec.denseReluAt (fun r k => val_main_v76 (F := Ideal) x1 x16 (ValueIdx.ix2 r k)) (fun k n => x12 (ValueIdx.ix2 k n))
          (fun n => x13 (ValueIdx.ix1 n)) r n := by
  have hb : val_main_v79 (F := Ideal) x13 (ValueIdx.ix2 r n) = x13 (ValueIdx.ix1 n) := by
    rw [val_main_v79_apply, val_main_v78_apply]
    exact congrArg x13 (funext fun a => match a with | ⟨0, _⟩ => rfl)
  have hz : val_main_call3_v0 (F := Ideal) (ValueIdx.ix2 r n) = 0 := by
    rw [val_main_call3_v0_apply, val_main_call3_cst_apply]
    exact Ideal.ofBits_zero_f32
  show max (val_main_v77 (F := Ideal) x1 x12 x16 (ValueIdx.ix2 r n) + val_main_v79 (F := Ideal) x13 (ValueIdx.ix2 r n))
      (val_main_call3_v0 (F := Ideal) (ValueIdx.ix2 r n)) = _
  rw [hb, hz]
  unfold val_main_v77
  rw [dot_256_256]
  rfl

/-- Layer 2 of the reference at (r, n): the dense layer of its input's entries, the weight's and the bias's, clamped at zero. -/
theorem lin2_apply (x1 : FVec Ideal S7x50000x128 .f32) (x14 : FVec Ideal S512x256 .f32) (x15 : FVec Ideal S256 .f32) (x16 : FVec Ideal S2 .f32) (r : Fin 50000) (n : Fin 256) :
    val_main_v114 (F := Ideal) x1 x14 x15 x16 (ValueIdx.ix2 r n)
      = Cert.Spec.denseReluAt (fun r k => val_main_v109 (F := Ideal) x1 x16 (ValueIdx.ix2 r k)) (fun k n => x14 (ValueIdx.ix2 k n))
          (fun n => x15 (ValueIdx.ix1 n)) r n := by
  have hb : val_main_v112 (F := Ideal) x15 (ValueIdx.ix2 r n) = x15 (ValueIdx.ix1 n) := by
    rw [val_main_v112_apply, val_main_v111_apply]
    exact congrArg x15 (funext fun a => match a with | ⟨0, _⟩ => rfl)
  have hz : val_main_call5_v0 (F := Ideal) (ValueIdx.ix2 r n) = 0 := by
    rw [val_main_call5_v0_apply, val_main_call5_cst_apply]
    exact Ideal.ofBits_zero_f32
  show max (val_main_v110 (F := Ideal) x1 x14 x16 (ValueIdx.ix2 r n) + val_main_v112 (F := Ideal) x15 (ValueIdx.ix2 r n))
      (val_main_call5_v0 (F := Ideal) (ValueIdx.ix2 r n)) = _
  rw [hb, hz]
  unfold val_main_v110
  rw [dot_512_256]
  rfl

/-! ## The bare products, as the dense layer with a zero bias -/

theorem conv_apply_128_256 (A : FVec Ideal S50000x128 .f32) (W : FVec Ideal S128x256 .f32) (r : Fin 50000) (n : Fin 256) :
    Host.dotGeneral (F := Ideal) dot_S50000x128_S128x256_S50000x256_1_0_0_1_n_n none A W (ValueIdx.ix2 r n)
      = Cert.Spec.denseAt (fun r k => A (ValueIdx.ix2 r k)) (fun k n => W (ValueIdx.ix2 k n)) (fun _ => 0) r n := by
  rw [Cert.Spec.denseAt_zero_bias]
  exact dot_128_256 A W r n

theorem conv_apply_512_256 (A : FVec Ideal S50000x512 .f32) (W : FVec Ideal S512x256 .f32) (r : Fin 50000) (n : Fin 256) :
    Host.dotGeneral (F := Ideal) dot_S50000x512_S512x256_S50000x256_1_0_0_1_n_n none A W (ValueIdx.ix2 r n)
      = Cert.Spec.denseAt (fun r k => A (ValueIdx.ix2 r k)) (fun k n => W (ValueIdx.ix2 k n)) (fun _ => 0) r n := by
  rw [Cert.Spec.denseAt_zero_bias]
  exact dot_512_256 A W r n

theorem conv_apply_256_256 (A : FVec Ideal S50000x256 .f32) (W : FVec Ideal S256x256 .f32) (r : Fin 50000) (n : Fin 256) :
    Host.dotGeneral (F := Ideal) dot_S50000x256_S256x256_S50000x256_1_0_0_1_n_n none A W (ValueIdx.ix2 r n)
      = Cert.Spec.denseAt (fun r k => A (ValueIdx.ix2 r k)) (fun k n => W (ValueIdx.ix2 k n)) (fun _ => 0) r n := by
  rw [Cert.Spec.denseAt_zero_bias]
  exact dot_256_256 A W r n

theorem conv_apply_512_40 (A : FVec Ideal S50000x512 .f32) (W : FVec Ideal S512x40 .f32) (r : Fin 50000) (n : Fin 40) :
    Host.dotGeneral (F := Ideal) dot_S50000x512_S512x40_S50000x40_1_0_0_1_n_n none A W (ValueIdx.ix2 r n)
      = Cert.Spec.denseAt (fun r k => A (ValueIdx.ix2 r k)) (fun k n => W (ValueIdx.ix2 k n)) (fun _ => 0) r n := by
  rw [Cert.Spec.denseAt_zero_bias]
  exact dot_512_40 A W r n

end Cert.Bridge
-- ==== Proof.LfBridge.lean ====
/-
  The kernel program's dense-layer inputs, as the host operations of the kernel program build them from the feature
  array [7, 50000, 128] and the two order weights: plane 0 as a matrix; planes 1 and 2, each scaled by its order
  weight, side by side; planes 3 to 6, scaled by the order weights in turn, side by side. Each is read here at an
  index (row r, column q): the column's block q / 128 names the plane and the weight, q % 128 the feature.
  The reference program builds the same three matrices another way (a slice of several planes at once, times the order
  weights tiled and broadcast, the plane axis then moved inside the row axis and merged with the feature axis); read at
  the same index it gives the same product of the same two entries, so the two programs' inputs are equal.
-/
import proofs.«158875_j46291157516821_1_alg».proof.Proof.Gen.KernelIdeal
import proofs.«158875_j46291157516821_1_alg».proof.Proof.RefReadP
import Idealize.ShloMosaic.Lib.Pipeline.Value
import Idealize.ShloMosaic.Lib.ValueIdx
import Idealize.ShloMosaic.PureOps.Ideal

noncomputable section

namespace Cert.Bridge

section Kernel

open Cert.KernelIdeal Cert.KernelIdeal.Gen Idealize.ShloMosaic Idealize.ShloMosaic.TcCoe Idealize.SL.Sem

/-! ## One plane, one broadcast weight, one scaled plane -/

/-- Plane `p` of the feature array, reshaped to a matrix, at (r, f) is the array at (p, r, f). -/
theorem plane_apply {α : Type} (p : Nat) (hp : p < 7) (h : S7x50000x128.Slices ![p, 0, 0] S1x50000x128)
    (x1 : S7x50000x128.Idx → α) (r : Fin 50000) (f : Fin 128) :
    shapeCast S50000x128 (extractStridedSlice S1x50000x128 ![p, 0, 0] x1 h) shapeCasts_S1x50000x128_S50000x128 (ValueIdx.ix2 r f)
      = x1 (ValueIdx.ix3 ⟨p, hp⟩ r f) := by
  rw [shapeCast_apply _ shapeCasts_S1x50000x128_S50000x128 (ValueIdx.ix2 r f) (ValueIdx.ix3 0 r f)
    (by rw [Shape.rowMajor_val_three, Shape.rowMajor_val_two]
        show (0 * 50000 + r.val) * 128 + f.val = r.val * 128 + f.val
        omega)]
  exact extractStridedSlice_apply ![p, 0, 0] x1 h (ValueIdx.ix3 0 r f) (ValueIdx.ix3 ⟨p, hp⟩ r f) (fun a => match a with
    | ⟨0, _⟩ => by show p = p + 0; omega
    | ⟨1, _⟩ => by show r.val = 0 + r.val; omega
    | ⟨2, _⟩ => by show f.val = 0 + f.val; omega)

/-- Order weight `c`, sliced out, made a scalar and broadcast over a matrix, is that weight everywhere. -/
theorem weight_apply {α : Type} (c : Nat) (hc : c < 2) (h : S2.Slices ![c] S1) (x16 : S2.Idx → α) (i : S50000x128.Idx) :
    broadcastInDim S50000x128 ![] bcast_S_S50000x128 (shapeCast S_ (extractStridedSlice S1 ![c] x16 h) shapeCasts_S1_S_) i
      = x16 (ValueIdx.ix1 ⟨c, hc⟩) := by
  rw [broadcastInDim_apply _ bcast_S_S50000x128 _ i ValueIdx.ix0 (fun a => a.elim0)]
  rw [shapeCast_apply _ shapeCasts_S1_S_ ValueIdx.ix0 (ValueIdx.ix1 0)
    (by rw [Shape.rowMajor_val_one]; exact (Shape.rowMajorPi_zero _ _).symm)]
  exact extractStridedSlice_apply ![c] x16 h (ValueIdx.ix1 0) (ValueIdx.ix1 ⟨c, hc⟩) (fun a => match a with
    | ⟨0, _⟩ => by show c = c + 0; omega)

/-- A plane scaled by a broadcast order weight, over the extended reals: the weight times the entry. -/
theorem scaled_apply (c : Nat) (hc : c < 2) (hs : S2.Slices ![c] S1) (p : Nat) (hp : p < 7)
    (h : S7x50000x128.Slices ![p, 0, 0] S1x50000x128)
    (x1 : FVec Ideal S7x50000x128 .f32) (x16 : FVec Ideal S2 .f32) (r : Fin 50000) (f : Fin 128) :
    mulf (F := Ideal) (broadcastInDim S50000x128 ![] bcast_S_S50000x128 (shapeCast S_ (extractStridedSlice S1 ![c] x16 hs) shapeCasts_S1_S_))
        (shapeCast S50000x128 (extractStridedSlice S1x50000x128 ![p, 0, 0] x1 h) shapeCasts_S1x50000x128_S50000x128) (ValueIdx.ix2 r f)
      = x16 (ValueIdx.ix1 ⟨c, hc⟩) * x1 (ValueIdx.ix3 ⟨p, hp⟩ r f) := by
  rw [ValueIdx.mulf_apply, weight_apply c hc hs x16, plane_apply p hp h x1 r f]

/-! ## The three inputs -/

variable {F : FTy → Type} [FloatOps F]

/-- Layer 0's input: plane 0. -/
def lfK0 (x1 : FVec F S7x50000x128 .f32) : FVec F S50000x128 .f32 :=
  shapeCast S50000x128 (extractStridedSlice S1x50000x128 ![0, 0, 0] x1 slices_S7x50000x128_S1x50000x128_0_0_0) shapeCasts_S1x50000x128_S50000x128

/-- Layer 1's input: planes 1 and 2, scaled by the two order weights, joined along the columns. -/
def lfK1 (x1 : FVec F S7x50000x128 .f32) (x16 : FVec F S2 .f32) : FVec F S50000x256 .f32 :=
  concatenate S50000x256 1
    [⟨S50000x128, mulf (broadcastInDim S50000x128 ![] bcast_S_S50000x128 (shapeCast S_ (extractStridedSlice S1 ![0] x16 slices_S2_S1_0) shapeCasts_S1_S_))
        (shapeCast S50000x128 (extractStridedSlice S1x50000x128 ![1, 0, 0] x1 slices_S7x50000x128_S1x50000x128_1_0_0) shapeCasts_S1x50000x128_S50000x128)⟩,
     ⟨S50000x128, mulf (broadcastInDim S50000x128 ![] bcast_S_S50000x128 (shapeCast S_ (extractStridedSlice S1 ![1] x16 slices_S2_S1_1) shapeCasts_S1_S_))
        (shapeCast S50000x128 (extractStridedSlice S1x50000x128 ![2, 0, 0] x1 slices_S7x50000x128_S1x50000x128_2_0_0) shapeCasts_S1x50000x128_S50000x128)⟩]
    concatenates_S50000x128_S50000x128_S50000x256_d1

theorem lfK0_apply (x1 : FVec F S7x50000x128 .f32) (r : Fin 50000) (f : Fin 128) :
    lfK0 x1 (ValueIdx.ix2 r f) = x1 (ValueIdx.ix3 0 r f) :=
  plane_apply 0 (by decide) slices_S7x50000x128_S1x50000x128_0_0_0 x1 r f

/-- Layer 2's input: planes 3 to 6, scaled by the order weights in turn, joined along the columns. -/
def lfK2 (x1 : FVec F S7x50000x128 .f32) (x16 : FVec F S2 .f32) : FVec F S50000x512 .f32 :=
  concatenate S50000x512 1
    [⟨S50000x128, mulf (broadcastInDim S50000x128 ![] bcast_S_S50000x128 (shapeCast S_ (extractStridedSlice S1 ![0] x16 slices_S2_S1_0) shapeCasts_S1_S_))
        (shapeCast S50000x128 (extractStridedSlice S1x50000x128 ![3, 0, 0] x1 slices_S7x50000x128_S1x50000x128_3_0_0) shapeCasts_S1x50000x128_S50000x128)⟩,
     ⟨S50000x128, mulf (broadcastInDim S50000x128 ![] bcast_S_S50000x128 (shapeCast S_ (extractStridedSlice S1 ![1] x16 slices_S2_S1_1) shapeCasts_S1_S_))
        (shapeCast S50000x128 (extractStridedSlice S1x50000x128 ![4, 0, 0] x1 slices_S7x50000x128_S1x50000x128_4_0_0) shapeCasts_S1x50000x128_S50000x128)⟩,
     ⟨S50000x128, mulf (broadcastInDim S50000x128 ![] bcast_S_S50000x128 (shapeCast S_ (extractStridedSlice S1 ![0] x16 slices_S2_S1_0) shapeCasts_S1_S_))
        (shapeCast S50000x128 (extractStridedSlice S1x50000x128 ![5, 0, 0] x1 slices_S7x50000x128_S1x50000x128_5_0_0) shapeCasts_S1x50000x128_S50000x128)⟩,
     ⟨S50000x128, mulf (broadcastInDim S50000x128 ![] bcast_S_S50000x128 (shapeCast S_ (extractStridedSlice S1 ![1] x16 slices_S2_S1_1) shapeCasts_S1_S_))
        (shapeCast S50000x128 (extractStridedSlice S1x50000x128 ![6, 0, 0] x1 slices_S7x50000x128_S1x50000x128_6_0_0) shapeCasts_S1x50000x128_S50000x128)⟩]
    concatenates_S50000x128_S50000x128_S50000x128_S50000x128_S50000x512_d1

/-- Layer 1's input at (r, q): order weight q / 128 times plane 1 + q / 128 at (r, q % 128). -/
theorem lfK1_apply (x1 : FVec Ideal S7x50000x128 .f32) (x16 : FVec Ideal S2 .f32) (r : Fin 50000) (q : Fin 256) :
    lfK1 x1 x16 (ValueIdx.ix2 r q)
      = x16 (ValueIdx.ix1 ⟨q.val / 128, by have := q.isLt; omega⟩)
        * x1 (ValueIdx.ix3 ⟨1 + q.val / 128, by have := q.isLt; omega⟩ r ⟨q.val % 128, Nat.mod_lt _ (by decide)⟩) := by
  have hq := q.isLt
  obtain ⟨k, hk⟩ : ∃ k, q.val / 128 = k := ⟨_, rfl⟩
  have hk2 : k < 2 := by omega
  unfold lfK1
  interval_cases k
  · refine (concatenate_apply_piece 1 _ _ (ValueIdx.ix2 r q) 0 (by show (0 : Nat) < 2; decide) S50000x128 _ rfl rfl 0 rfl
      (ValueIdx.ix2 r ⟨q.val % 128, Nat.mod_lt _ (by decide)⟩) ?_ ?_).trans ?_
    · intro b hb
      match b with
      | ⟨0, _⟩ => rfl
      | ⟨1, _⟩ => exact absurd rfl hb
    · show 0 + q.val % 128 = q.val
      omega
    · rw [scaled_apply 0 (by decide) slices_S2_S1_0 1 (by decide) slices_S7x50000x128_S1x50000x128_1_0_0 x1 x16 r _]
      congr 2
      · exact congrArg ValueIdx.ix1 (Fin.ext hk.symm)
      · exact congrArg (fun p => ValueIdx.ix3 p r _) (Fin.ext (by show 1 = 1 + q.val / 128; omega))
  · refine (concatenate_apply_piece 1 _ _ (ValueIdx.ix2 r q) 1 (by show (1 : Nat) < 2; decide) S50000x128 _ rfl rfl 128 rfl
      (ValueIdx.ix2 r ⟨q.val % 128, Nat.mod_lt _ (by decide)⟩) ?_ ?_).trans ?_
    · intro b hb
      match b with
      | ⟨0, _⟩ => rfl
      | ⟨1, _⟩ => exact absurd rfl hb
    · show 128 + q.val % 128 = q.val
      omega
    · rw [scaled_apply 1 (by decide) slices_S2_S1_1 2 (by decide) slices_S7x50000x128_S1x50000x128_2_0_0 x1 x16 r _]
      congr 2
      · exact congrArg ValueIdx.ix1 (Fin.ext hk.symm)
      · exact congrArg (fun p => ValueIdx.ix3 p r _) (Fin.ext (by show 2 = 1 + q.val / 128; omega))

/-- Layer 2's input at (r, q): order weight (q / 128) % 2 times plane 3 + q / 128 at (r, q % 128). -/
theorem lfK2_apply (x1 : FVec Ideal S7x50000x128 .f32) (x16 : FVec Ideal S2 .f32) (r : Fin 50000) (q : Fin 512) :
    lfK2 x1 x16 (ValueIdx.ix2 r q)
      = x16 (ValueIdx.ix1 ⟨q.val / 128 % 2, Nat.mod_lt _ (by decide)⟩)
        * x1 (ValueIdx.ix3 ⟨3 + q.val / 128, by have := q.isLt; omega⟩ r ⟨q.val % 128, Nat.mod_lt _ (by decide)⟩) := by
  have hq := q.isLt
  obtain ⟨k, hk⟩ : ∃ k, q.val / 128 = k := ⟨_, rfl⟩
  have hk4 : k < 4 := by omega
  unfold lfK2
  interval_cases k
  · refine (concatenate_apply_piece 1 _ _ (ValueIdx.ix2 r q) 0 (by show (0 : Nat) < 4; decide) S50000x128 _ rfl rfl 0 rfl
      (ValueIdx.ix2 r ⟨q.val % 128, Nat.mod_lt _ (by decide)⟩) ?_ ?_).trans ?_
    · intro b hb
      match b with
      | ⟨0, _⟩ => rfl
      | ⟨1, _⟩ => exact absurd rfl hb
    · show 0 + q.val % 128 = q.val
      omega
    · rw [scaled_apply 0 (by decide) slices_S2_S1_0 3 (by decide) slices_S7x50000x128_S1x50000x128_3_0_0 x1 x16 r _]
      congr 2
      · exact congrArg ValueIdx.ix1 (Fin.ext (by show 0 = q.val / 128 % 2; omega))
      · exact congrArg (fun p => ValueIdx.ix3 p r _) (Fin.ext (by show 3 = 3 + q.val / 128; omega))
  · refine (concatenate_apply_piece 1 _ _ (ValueIdx.ix2 r q) 1 (by show (1 : Nat) < 4; decide) S50000x128 _ rfl rfl 128 rfl
      (ValueIdx.ix2 r ⟨q.val % 128, Nat.mod_lt _ (by decide)⟩) ?_ ?_).trans ?_
    · intro b hb
      match b with
      | ⟨0, _⟩ => rfl
      | ⟨1, _⟩ => exact absurd rfl hb
    · show 128 + q.val % 128 = q.val
      omega
    · rw [scaled_apply 1 (by decide) slices_S2_S1_1 4 (by decide) slices_S7x50000x128_S1x50000x128_4_0_0 x1 x16 r _]
      congr 2
      · exact congrArg ValueIdx.ix1 (Fin.ext (by show 1 = q.val / 128 % 2; omega))
      · exact congrArg (fun p => ValueIdx.ix3 p r _) (Fin.ext (by show 4 = 3 + q.val / 128; omega))
  · refine (concatenate_apply_piece 1 _ _ (ValueIdx.ix2 r q) 2 (by show (2 : Nat) < 4; decide) S50000x128 _ rfl rfl 256 rfl
      (ValueIdx.ix2 r ⟨q.val % 128, Nat.mod_lt _ (by decide)⟩) ?_ ?_).trans ?_
    · intro b hb
      match b with
      | ⟨0, _⟩ => rfl
      | ⟨1, _⟩ => exact absurd rfl hb
    · show 256 + q.val % 128 = q.val
      omega
    · rw [scaled_apply 0 (by decide) slices_S2_S1_0 5 (by decide) slices_S7x50000x128_S1x50000x128_5_0_0 x1 x16 r _]
      congr 2
      · exact congrArg ValueIdx.ix1 (Fin.ext (by show 0 = q.val / 128 % 2; omega))
      · exact congrArg (fun p => ValueIdx.ix3 p r _) (Fin.ext (by show 5 = 3 + q.val / 128; omega))
  · refine (concatenate_apply_piece 1 _ _ (ValueIdx.ix2 r q) 3 (by show (3 : Nat) < 4; decide) S50000x128 _ rfl rfl 384 rfl
      (ValueIdx.ix2 r ⟨q.val % 128, Nat.mod_lt _ (by decide)⟩) ?_ ?_).trans ?_
    · intro b hb
      match b with
      | ⟨0, _⟩ => rfl
      | ⟨1, _⟩ => exact absurd rfl hb
    · show 384 + q.val % 128 = q.val
      omega
    · rw [scaled_apply 1 (by decide) slices_S2_S1_1 6 (by decide) slices_S7x50000x128_S1x50000x128_6_0_0 x1 x16 r _]
      congr 2
      · exact congrArg ValueIdx.ix1 (Fin.ext (by show 1 = q.val / 128 % 2; omega))
      · exact congrArg (fun p => ValueIdx.ix3 p r _) (Fin.ext (by show 6 = 3 + q.val / 128; omega))

end Kernel

/-! ## The reference's three inputs, read at an index -/

section Reference

open Cert.ReferenceIdeal Cert.ReferenceIdeal.Gen Cert.ReferenceIdeal.ReadP Idealize.ShloMosaic Idealize.ShloMosaic.TcCoe Idealize.SL.Sem

/-- The reference's layer-0 input (slice of plane 0, transposed, reshaped) at (r, f) is the feature array at (0, r, f). -/
theorem ref0_apply {F : FTy → Type} [FloatOps F] (x1 : FVec F S7x50000x128 .f32) (r : Fin 50000) (f : Fin 128) :
    val_main_v43 (F := F) x1 (ValueIdx.ix2 r f) = x1 (ValueIdx.ix3 0 r f) := by
  have hf := f.isLt
  rw [val_main_v43_apply, val_main_v42_apply, val_main_v41_apply]
  refine congrArg x1 (funext fun a => Fin.ext ?_)
  match a with
  | ⟨0, _⟩ => rfl
  | ⟨1, _⟩ =>
    show (r.val * 128 + f.val) / 128 = r.val
    omega
  | ⟨2, _⟩ =>
    show (r.val * 128 + f.val) % 128 = f.val
    omega

/-- The reference's layer-1 input at (r, q): the two planes are scaled by the order weights as one [2, 50000, 128]
    array, the plane axis is moved inside the row axis and merged with the feature axis, so column q is plane
    1 + q / 128, feature q % 128, scaled by order weight q / 128. -/
theorem ref1_apply (x1 : FVec Ideal S7x50000x128 .f32) (x16 : FVec Ideal S2 .f32) (r : Fin 50000) (q : Fin 256) :
    val_main_v76 (F := Ideal) x1 x16 (ValueIdx.ix2 r q)
      = x16 (ValueIdx.ix1 ⟨q.val / 128, by have := q.isLt; omega⟩)
        * x1 (ValueIdx.ix3 ⟨1 + q.val / 128, by have := q.isLt; omega⟩ r ⟨q.val % 128, Nat.mod_lt _ (by decide)⟩) := by
  have hq := q.isLt
  rw [val_main_v76_apply, val_main_v75_apply, val_main_v74_apply, val_main_v73_apply, val_main_v72_apply,
    val_main_v71_apply, val_main_v70_apply, val_main_v69_apply, val_main_v68_apply, Ideal.mulf_def]
  congr 2
  · refine funext fun a => Fin.ext ?_
    match a with
    | ⟨0, _⟩ =>
      show 0 * 2 + (((r.val * 256 + q.val) / 128 % 2 * 1 + 0) * 1 + 0) % 2 = q.val / 128
      omega
  · refine funext fun a => Fin.ext ?_
    match a with
    | ⟨0, _⟩ =>
      show 1 + (r.val * 256 + q.val) / 128 % 2 = 1 + q.val / 128
      omega
    | ⟨1, _⟩ =>
      show (r.val * 256 + q.val) / 256 = r.val
      omega
    | ⟨2, _⟩ =>
      show (r.val * 256 + q.val) % 128 = q.val % 128
      omega

/-- The reference's layer-2 input at (r, q): the same with four planes, the two order weights tiled twice: column q is
    plane 3 + q / 128, feature q % 128, scaled by order weight (q / 128) % 2. -/
theorem ref2_apply (x1 : FVec Ideal S7x50000x128 .f32) (x16 : FVec Ideal S2 .f32) (r : Fin 50000) (q : Fin 512) :
    val_main_v109 (F := Ideal) x1 x16 (ValueIdx.ix2 r q)
      = x16 (ValueIdx.ix1 ⟨q.val / 128 % 2, Nat.mod_lt _ (by decide)⟩)
        * x1 (ValueIdx.ix3 ⟨3 + q.val / 128, by have := q.isLt; omega⟩ r ⟨q.val % 128, Nat.mod_lt _ (by decide)⟩) := by
  have hq := q.isLt
  rw [val_main_v109_apply, val_main_v108_apply, val_main_v107_apply, val_main_v106_apply, val_main_v105_apply,
    val_main_v104_apply, val_main_v103_apply, val_main_v102_apply, val_main_v101_apply, Ideal.mulf_def]
  congr 2
  · refine funext fun a => Fin.ext ?_
    match a with
    | ⟨0, _⟩ =>
      show 0 * 2 + (((r.val * 512 + q.val) / 128 % 4 * 1 + 0) * 1 + 0) % 2 = q.val / 128 % 2
      omega
  · refine funext fun a => Fin.ext ?_
    match a with
    | ⟨0, _⟩ =>
      show 3 + (r.val * 512 + q.val) / 128 % 4 = 3 + q.val / 128
      omega
    | ⟨1, _⟩ =>
      show (r.val * 512 + q.val) / 512 = r.val
      omega
    | ⟨2, _⟩ =>
      show (r.val * 512 + q.val) % 128 = q.val % 128
      omega

end Reference

/-! ## The two programs' inputs are equal -/

section Equal

open Cert.ReferenceIdeal Cert.ReferenceIdeal.Gen Cert.ReferenceIdeal.ReadP Idealize.ShloMosaic Idealize.ShloMosaic.TcCoe Idealize.SL.Sem

theorem lfK0_eq (x1 : FVec Ideal S7x50000x128 .f32) : lfK0 x1 = val_main_v43 (F := Ideal) x1 := by
  funext i
  rw [ValueIdx.eq_ix2 i]
  exact (lfK0_apply x1 (i 0) (i 1)).trans (ref0_apply x1 (i 0) (i 1)).symm

theorem lfK1_eq (x1 : FVec Ideal S7x50000x128 .f32) (x16 : FVec Ideal S2 .f32) :
    lfK1 x1 x16 = val_main_v76 (F := Ideal) x1 x16 := by
  funext i
  rw [ValueIdx.eq_ix2 i]
  exact (lfK1_apply x1 x16 (i 0) (i 1)).trans (ref1_apply x1 x16 (i 0) (i 1)).symm

theorem lfK2_eq (x1 : FVec Ideal S7x50000x128 .f32) (x16 : FVec Ideal S2 .f32) :
    lfK2 x1 x16 = val_main_v109 (F := Ideal) x1 x16 := by
  funext i
  rw [ValueIdx.eq_ix2 i]
  exact (lfK2_apply x1 x16 (i 0) (i 1)).trans (ref2_apply x1 x16 (i 0) (i 1)).symm

end Equal

end Cert.Bridge
-- ==== Proof.RegionCore.lean ====
/-
  Each of the kernel program's seven tiled regions leaves an output array that reads, entry by entry, as the shared
  dense layer of the three arrays it was given: activations, weights, bias row. The kernel program's host operations
  fill those three arrays: the activations are a feature matrix or an earlier stage, the weights are the weight argument
  (its change of format is the identity over the extended reals), and the bias row is either the bias vector
  reshaped to one row or, for a bare product, a row of zeros. Read at an index these are the reference's operands, so
  the region's array is the reference's stage.
-/
import proofs.«158875_j46291157516821_1_alg».proof.Proof.RefDot
import proofs.«158875_j46291157516821_1_alg».proof.Proof.LfBridge

noncomputable section

namespace Cert.Bridge

open Cert.KernelIdeal Cert.KernelIdeal.Gen Idealize.ShloMosaic Idealize.ShloMosaic.TcCoe Idealize.SL.Sem Idealize.ShloMosaic.StableHlo
open Idealize.ShloMosaic.ValueIdx

/-! ## The bias rows at an index -/

/-- The zero bias row of a bare product: a broadcast of the constant zero. -/
theorem zeroBias256_apply (n : Fin 256) :
    broadcastInDim S1x256 ![] bcast_S_S1x256 (constant (F := Ideal) S_ .f32 0x00000000#32) (ix2 0 n) = 0 := by
  rw [broadcastInDim_apply _ bcast_S_S1x256 _ (ix2 0 n) ix0 (fun a => a.elim0)]
  exact Ideal.ofBits_zero_f32

theorem zeroBias40_apply (n : Fin 40) :
    broadcastInDim S1x40 ![] bcast_S_S1x40 (constant (F := Ideal) S_ .f32 0x00000000#32) (ix2 0 n) = 0 := by
  rw [broadcastInDim_apply _ bcast_S_S1x40 _ (ix2 0 n) ix0 (fun a => a.elim0)]
  exact Ideal.ofBits_zero_f32

/-- A bias vector reshaped to one row, at (0, n), is its entry n. -/
theorem biasRow_apply (x : FVec Ideal S256 .f32) (n : Fin 256) :
    shapeCast S1x256 x shapeCasts_S256_S1x256 (ix2 0 n) = x (ix1 n) :=
  shapeCast_apply x shapeCasts_S256_S1x256 (ix2 0 n) (ix1 n)
    (by rw [Shape.rowMajor_val_one, Shape.rowMajor_val_two]
        show n.val = 0 * 256 + n.val
        omega)

/-! ## The seven regions' arrays are the reference's stages -/

/-- Region 0: an output array that reads, entry by entry, as the dense layer of the three operand arrays is the
    reference's stage, once the operands are what the kernel program's host operations wrote there. -/
theorem region0_core (arr : S50000x256.Idx → EReal) (A : S50000x128.Idx → EReal) (W : S128x256.Idx → EReal) (b : S1x256.Idx → EReal)
    (x0 : FVec Ideal S50000x128 .f32) (x4 : FVec Ideal S128x256 .f32)
    (harr : ∀ (r : Fin 50000) (n : Fin 256), arr (ix2 r n)
      = Cert.Spec.denseAt (fun r k => A (ix2 r k)) (fun k n => W (ix2 k n)) (fun n => b (ix2 0 n)) r n)
    (hA : A = x0) (hW : W = truncf .bf16 x4 bitsLt_bf16_f32)
    (hb : b = broadcastInDim S1x256 ![] bcast_S_S1x256 (constant (F := Ideal) S_ .f32 0x00000000#32)) :
    arr = Cert.ReferenceIdeal.ReadP.val_main_v23 (F := Ideal) x0 x4 := by
  funext i
  have hi : i = ix2 (n0 := 50000) (n1 := 256) (i 0) (i 1) := ValueIdx.eq_ix2 i
  rw [hi, harr (i 0) (i 1)]
  unfold Cert.ReferenceIdeal.ReadP.val_main_v23
  rw [conv_apply_128_256 x0 x4 (i 0) (i 1)]
  refine Cert.Spec.denseAt_congr (fun r k => ?_) (fun k n => ?_) (fun n => ?_) (i 0) (i 1)
  · exact congrFun hA _
  · exact congrFun hW _
  · rw [hb]
    exact zeroBias256_apply n

/-- Region 1: an output array that reads, entry by entry, as the dense layer of the three operand arrays is the
    reference's stage, once the operands are what the kernel program's host operations wrote there. -/
theorem region1_core (arr : S50000x256.Idx → EReal) (A : S50000x128.Idx → EReal) (W : S128x256.Idx → EReal) (b : S1x256.Idx → EReal)
    (x1 : FVec Ideal S7x50000x128 .f32) (x10 : FVec Ideal S128x256 .f32) (x11 : FVec Ideal S256 .f32)
    (harr : ∀ (r : Fin 50000) (n : Fin 256), arr (ix2 r n)
      = Cert.Spec.denseReluAt (fun r k => A (ix2 r k)) (fun k n => W (ix2 k n)) (fun n => b (ix2 0 n)) r n)
    (hA : A = lfK0 x1) (hW : W = truncf .bf16 x10 bitsLt_bf16_f32)
    (hb : b = shapeCast S1x256 x11 shapeCasts_S256_S1x256) :
    arr = Cert.ReferenceIdeal.ReadP.val_main_v48 (F := Ideal) x1 x10 x11 := by
  funext i
  have hi : i = ix2 (n0 := 50000) (n1 := 256) (i 0) (i 1) := ValueIdx.eq_ix2 i
  rw [hi, harr (i 0) (i 1)]
  rw [lin0_apply x1 x10 x11 (i 0) (i 1)]
  refine Cert.Spec.denseReluAt_congr (fun r k => ?_) (fun k n => ?_) (fun n => ?_) (i 0) (i 1)
  · exact (congrFun hA _).trans (congrFun (lfK0_eq x1) _)
  · exact congrFun hW _
  · rw [hb]
    exact biasRow_apply x11 n

/-- Region 2: an output array that reads, entry by entry, as the dense layer of the three operand arrays is the
    reference's stage, once the operands are what the kernel program's host operations wrote there. -/
theorem region2_core (arr : S50000x256.Idx → EReal) (A : S50000x512.Idx → EReal) (W : S512x256.Idx → EReal) (b : S1x256.Idx → EReal)
    (A' : FVec Ideal S50000x512 .f32) (x6 : FVec Ideal S512x256 .f32)
    (harr : ∀ (r : Fin 50000) (n : Fin 256), arr (ix2 r n)
      = Cert.Spec.denseAt (fun r k => A (ix2 r k)) (fun k n => W (ix2 k n)) (fun n => b (ix2 0 n)) r n)
    (hA : A = A') (hW : W = truncf .bf16 x6 bitsLt_bf16_f32)
    (hb : b = broadcastInDim S1x256 ![] bcast_S_S1x256 (constant (F := Ideal) S_ .f32 0x00000000#32)) :
    arr = Host.dotGeneral (F := Ideal) Cert.ReferenceIdeal.dot_S50000x512_S512x256_S50000x256_1_0_0_1_n_n none A' x6 := by
  funext i
  have hi : i = ix2 (n0 := 50000) (n1 := 256) (i 0) (i 1) := ValueIdx.eq_ix2 i
  rw [hi, harr (i 0) (i 1)]
  rw [conv_apply_512_256 A' x6 (i 0) (i 1)]
  refine Cert.Spec.denseAt_congr (fun r k => ?_) (fun k n => ?_) (fun n => ?_) (i 0) (i 1)
  · exact congrFun hA _
  · exact congrFun hW _
  · rw [hb]
    exact zeroBias256_apply n

/-- Region 3: an output array that reads, entry by entry, as the dense layer of the three operand arrays is the
    reference's stage, once the operands are what the kernel program's host operations wrote there. -/
theorem region3_core (arr : S50000x256.Idx → EReal) (A : S50000x256.Idx → EReal) (W : S256x256.Idx → EReal) (b : S1x256.Idx → EReal)
    (x1 : FVec Ideal S7x50000x128 .f32) (x12 : FVec Ideal S256x256 .f32) (x13 : FVec Ideal S256 .f32) (x16 : FVec Ideal S2 .f32)
    (harr : ∀ (r : Fin 50000) (n : Fin 256), arr (ix2 r n)
      = Cert.Spec.denseReluAt (fun r k => A (ix2 r k)) (fun k n => W (ix2 k n)) (fun n => b (ix2 0 n)) r n)
    (hA : A = lfK1 x1 x16) (hW : W = truncf .bf16 x12 bitsLt_bf16_f32)
    (hb : b = shapeCast S1x256 x13 shapeCasts_S256_S1x256) :
    arr = Cert.ReferenceIdeal.ReadP.val_main_v81 (F := Ideal) x1 x12 x13 x16 := by
  funext i
  have hi : i = ix2 (n0 := 50000) (n1 := 256) (i 0) (i 1) := ValueIdx.eq_ix2 i
  rw [hi, harr (i 0) (i 1)]
  rw [lin1_apply x1 x12 x13 x16 (i 0) (i 1)]
  refine Cert.Spec.denseReluAt_congr (fun r k => ?_) (fun k n => ?_) (fun n => ?_) (i 0) (i 1)
  · exact (congrFun hA _).trans (congrFun (lfK1_eq x1 x16) _)
  · exact congrFun hW _
  · rw [hb]
    exact biasRow_apply x13 n

/-- Region 4: an output array that reads, entry by entry, as the dense layer of the three operand arrays is the
    reference's stage, once the operands are what the kernel program's host operations wrote there. -/
theorem region4_core (arr : S50000x256.Idx → EReal) (A : S50000x512.Idx → EReal) (W : S512x256.Idx → EReal) (b : S1x256.Idx → EReal)
    (A' : FVec Ideal S50000x512 .f32) (x8 : FVec Ideal S512x256 .f32)
    (harr : ∀ (r : Fin 50000) (n : Fin 256), arr (ix2 r n)
      = Cert.Spec.denseAt (fun r k => A (ix2 r k)) (fun k n => W (ix2 k n)) (fun n => b (ix2 0 n)) r n)
    (hA : A = A') (hW : W = truncf .bf16 x8 bitsLt_bf16_f32)
    (hb : b = broadcastInDim S1x256 ![] bcast_S_S1x256 (constant (F := Ideal) S_ .f32 0x00000000#32)) :
    arr = Host.dotGeneral (F := Ideal) Cert.ReferenceIdeal.dot_S50000x512_S512x256_S50000x256_1_0_0_1_n_n none A' x8 := by
  funext i
  have hi : i = ix2 (n0 := 50000) (n1 := 256) (i 0) (i 1) := ValueIdx.eq_ix2 i
  rw [hi, harr (i 0) (i 1)]
  rw [conv_apply_512_256 A' x8 (i 0) (i 1)]
  refine Cert.Spec.denseAt_congr (fun r k => ?_) (fun k n => ?_) (fun n => ?_) (i 0) (i 1)
  · exact congrFun hA _
  · exact congrFun hW _
  · rw [hb]
    exact zeroBias256_apply n

/-- Region 5: an output array that reads, entry by entry, as the dense layer of the three operand arrays is the
    reference's stage, once the operands are what the kernel program's host operations wrote there. -/
theorem region5_core (arr : S50000x256.Idx → EReal) (A : S50000x512.Idx → EReal) (W : S512x256.Idx → EReal) (b : S1x256.Idx → EReal)
    (x1 : FVec Ideal S7x50000x128 .f32) (x14 : FVec Ideal S512x256 .f32) (x15 : FVec Ideal S256 .f32) (x16 : FVec Ideal S2 .f32)
    (harr : ∀ (r : Fin 50000) (n : Fin 256), arr (ix2 r n)
      = Cert.Spec.denseReluAt (fun r k => A (ix2 r k)) (fun k n => W (ix2 k n)) (fun n => b (ix2 0 n)) r n)
    (hA : A = lfK2 x1 x16) (hW : W = truncf .bf16 x14 bitsLt_bf16_f32)
    (hb : b = shapeCast S1x256 x15 shapeCasts_S256_S1x256) :
    arr = Cert.ReferenceIdeal.ReadP.val_main_v114 (F := Ideal) x1 x14 x15 x16 := by
  funext i
  have hi : i = ix2 (n0 := 50000) (n1 := 256) (i 0) (i 1) := ValueIdx.eq_ix2 i
  rw [hi, harr (i 0) (i 1)]
  rw [lin2_apply x1 x14 x15 x16 (i 0) (i 1)]
  refine Cert.Spec.denseReluAt_congr (fun r k => ?_) (fun k n => ?_) (fun n => ?_) (i 0) (i 1)
  · exact (congrFun hA _).trans (congrFun (lfK2_eq x1 x16) _)
  · exact congrFun hW _
  · rw [hb]
    exact biasRow_apply x15 n

/-- Region 6: an output array that reads, entry by entry, as the dense layer of the three operand arrays is the
    reference's stage, once the operands are what the kernel program's host operations wrote there. -/
theorem region6_core (arr : S50000x40.Idx → EReal) (A : S50000x512.Idx → EReal) (W : S512x40.Idx → EReal) (b : S1x40.Idx → EReal)
    (A' : FVec Ideal S50000x512 .f32) (x17 : FVec Ideal S512x40 .f32)
    (harr : ∀ (r : Fin 50000) (n : Fin 40), arr (ix2 r n)
      = Cert.Spec.denseAt (fun r k => A (ix2 r k)) (fun k n => W (ix2 k n)) (fun n => b (ix2 0 n)) r n)
    (hA : A = A') (hW : W = truncf .bf16 x17 bitsLt_bf16_f32)
    (hb : b = broadcastInDim S1x40 ![] bcast_S_S1x40 (constant (F := Ideal) S_ .f32 0x00000000#32)) :
    arr = Host.dotGeneral (F := Ideal) Cert.ReferenceIdeal.dot_S50000x512_S512x40_S50000x40_1_0_0_1_n_n none A' x17 := by
  funext i
  have hi : i = ix2 (n0 := 50000) (n1 := 40) (i 0) (i 1) := ValueIdx.eq_ix2 i
  rw [hi, harr (i 0) (i 1)]
  rw [conv_apply_512_40 A' x17 (i 0) (i 1)]
  refine Cert.Spec.denseAt_congr (fun r k => ?_) (fun k n => ?_) (fun n => ?_) (i 0) (i 1)
  · exact congrFun hA _
  · exact congrFun hW _
  · rw [hb]
    exact zeroBias40_apply n

end Cert.Bridge
-- ==== Proof.KI.RegionVal.lean ====
/-
  The seven regions' output arrays in the reference's terms: each region's array, entry by entry the dense layer of
  its three operand arrays, is the reference's stage once those arrays hold what the kernel program's host
  operations wrote into them (stated as hypotheses here; the run of the host operations supplies them).
-/
import proofs.«158875_j46291157516821_1_alg».proof.Proof.KI.Value0
import proofs.«158875_j46291157516821_1_alg».proof.Proof.KI.Value1
import proofs.«158875_j46291157516821_1_alg».proof.Proof.KI.Value2
import proofs.«158875_j46291157516821_1_alg».proof.Proof.KI.Value3
import proofs.«158875_j46291157516821_1_alg».proof.Proof.KI.Value4
import proofs.«158875_j46291157516821_1_alg».proof.Proof.KI.Value5
import proofs.«158875_j46291157516821_1_alg».proof.Proof.KI.Value6
import proofs.«158875_j46291157516821_1_alg».proof.Proof.RegionCore

set_option maxRecDepth 16384

noncomputable section

namespace Cert.Bridge

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx

variable (V : (c : Dev nD) → (b : Ref sig .tc) → Buf (Elt Ideal) ((c : Thread nD τ).loc b))

/-- Region 0's output array, once its three operand arrays hold what the host operations before it wrote. -/
theorem region0_val (c : Dev nD) (x0 : FVec Ideal S50000x128 .f32) (x4 : FVec Ideal S128x256 .f32)
    (hA : (V c main_arg0 : S50000x128.Idx → EReal) = x0)
    (hW : (V c main_v25 : S128x256.Idx → EReal) = truncf .bf16 x4 bitsLt_bf16_f32)
    (hb : (V c main_v24 : S1x256.Idx → EReal) = broadcastInDim S1x256 ![] bcast_S_S1x256 (constant (F := Ideal) S_ .f32 0x00000000#32)) :
    ((Reg.dat0 (F := Ideal) V c).arrAt 3 cfg0.N : S50000x256.Idx → EReal) = Cert.ReferenceIdeal.ReadP.val_main_v23 (F := Ideal) x0 x4 :=
  region0_core _ _ _ _ x0 x4 (RegVal.arr0 V c) hA hW hb

/-- Region 1's output array, once its three operand arrays hold what the host operations before it wrote. -/
theorem region1_val (c : Dev nD) (x1 : FVec Ideal S7x50000x128 .f32) (x10 : FVec Ideal S128x256 .f32) (x11 : FVec Ideal S256 .f32)
    (hA : (V c main_v44 : S50000x128.Idx → EReal) = lfK0 x1)
    (hW : (V c main_v46 : S128x256.Idx → EReal) = truncf .bf16 x10 bitsLt_bf16_f32)
    (hb : (V c main_v45 : S1x256.Idx → EReal) = shapeCast S1x256 x11 shapeCasts_S256_S1x256) :
    ((Reg.dat1 (F := Ideal) V c).arrAt 3 cfg1.N : S50000x256.Idx → EReal) = Cert.ReferenceIdeal.ReadP.val_main_v48 (F := Ideal) x1 x10 x11 :=
  region1_core _ _ _ _ x1 x10 x11 (RegVal.arr1 V c) hA hW hb

/-- Region 2's output array, once its three operand arrays hold what the host operations before it wrote. -/
theorem region2_val (c : Dev nD) (A' : FVec Ideal S50000x512 .f32) (x6 : FVec Ideal S512x256 .f32)
    (hA : (V c main_v48 : S50000x512.Idx → EReal) = A')
    (hW : (V c main_v50 : S512x256.Idx → EReal) = truncf .bf16 x6 bitsLt_bf16_f32)
    (hb : (V c main_v49 : S1x256.Idx → EReal) = broadcastInDim S1x256 ![] bcast_S_S1x256 (constant (F := Ideal) S_ .f32 0x00000000#32)) :
    ((Reg.dat2 (F := Ideal) V c).arrAt 3 cfg2.N : S50000x256.Idx → EReal) = Host.dotGeneral (F := Ideal) Cert.ReferenceIdeal.dot_S50000x512_S512x256_S50000x256_1_0_0_1_n_n none A' x6 :=
  region2_core _ _ _ _ A' x6 (RegVal.arr2 V c) hA hW hb

/-- Region 3's output array, once its three operand arrays hold what the host operations before it wrote. -/
theorem region3_val (c : Dev nD) (x1 : FVec Ideal S7x50000x128 .f32) (x12 : FVec Ideal S256x256 .f32) (x13 : FVec Ideal S256 .f32) (x16 : FVec Ideal S2 .f32)
    (hA : (V c main_v80 : S50000x256.Idx → EReal) = lfK1 x1 x16)
    (hW : (V c main_v82 : S256x256.Idx → EReal) = truncf .bf16 x12 bitsLt_bf16_f32)
    (hb : (V c main_v81 : S1x256.Idx → EReal) = shapeCast S1x256 x13 shapeCasts_S256_S1x256) :
    ((Reg.dat3 (F := Ideal) V c).arrAt 3 cfg3.N : S50000x256.Idx → EReal) = Cert.ReferenceIdeal.ReadP.val_main_v81 (F := Ideal) x1 x12 x13 x16 :=
  region3_core _ _ _ _ x1 x12 x13 x16 (RegVal.arr3 V c) hA hW hb

/-- Region 4's output array, once its three operand arrays hold what the host operations before it wrote. -/
theorem region4_val (c : Dev nD) (A' : FVec Ideal S50000x512 .f32) (x8 : FVec Ideal S512x256 .f32)
    (hA : (V c main_v84 : S50000x512.Idx → EReal) = A')
    (hW : (V c main_v86 : S512x256.Idx → EReal) = truncf .bf16 x8 bitsLt_bf16_f32)
    (hb : (V c main_v85 : S1x256.Idx → EReal) = broadcastInDim S1x256 ![] bcast_S_S1x256 (constant (F := Ideal) S_ .f32 0x00000000#32)) :
    ((Reg.dat4 (F := Ideal) V c).arrAt 3 cfg4.N : S50000x256.Idx → EReal) = Host.dotGeneral (F := Ideal) Cert.ReferenceIdeal.dot_S50000x512_S512x256_S50000x256_1_0_0_1_n_n none A' x8 :=
  region4_core _ _ _ _ A' x8 (RegVal.arr4 V c) hA hW hb

/-- Region 5's output array, once its three operand arrays hold what the host operations before it wrote. -/
theorem region5_val (c : Dev nD) (x1 : FVec Ideal S7x50000x128 .f32) (x14 : FVec Ideal S512x256 .f32) (x15 : FVec Ideal S256 .f32) (x16 : FVec Ideal S2 .f32)
    (hA : (V c main_v128 : S50000x512.Idx → EReal) = lfK2 x1 x16)
    (hW : (V c main_v130 : S512x256.Idx → EReal) = truncf .bf16 x14 bitsLt_bf16_f32)
    (hb : (V c main_v129 : S1x256.Idx → EReal) = shapeCast S1x256 x15 shapeCasts_S256_S1x256) :
    ((Reg.dat5 (F := Ideal) V c).arrAt 3 cfg5.N : S50000x256.Idx → EReal) = Cert.ReferenceIdeal.ReadP.val_main_v114 (F := Ideal) x1 x14 x15 x16 :=
  region5_core _ _ _ _ x1 x14 x15 x16 (RegVal.arr5 V c) hA hW hb

/-- Region 6's output array, once its three operand arrays hold what the host operations before it wrote. -/
theorem region6_val (c : Dev nD) (A' : FVec Ideal S50000x512 .f32) (x17 : FVec Ideal S512x40 .f32)
    (hA : (V c main_v132 : S50000x512.Idx → EReal) = A')
    (hW : (V c main_v134 : S512x40.Idx → EReal) = truncf .bf16 x17 bitsLt_bf16_f32)
    (hb : (V c main_v133 : S1x40.Idx → EReal) = broadcastInDim S1x40 ![] bcast_S_S1x40 (constant (F := Ideal) S_ .f32 0x00000000#32)) :
    ((Reg.dat6 (F := Ideal) V c).arrAt 3 cfg6.N : S50000x40.Idx → EReal) = Host.dotGeneral (F := Ideal) Cert.ReferenceIdeal.dot_S50000x512_S512x40_S50000x40_1_0_0_1_n_n none A' x17 :=
  region6_core _ _ _ _ A' x17 (RegVal.arr6 V c) hA hW hb

end Cert.Bridge
-- ==== Proof.KI.CallSegs.lean ====
/-
  The module-local function calls of the kernel program's host side, each over arbitrary buffer contents: the
  rectifier (a maximum with a broadcast zero) after each layer's aggregation, and the final log-softmax along the
  rows. The reference's stages of the same calls are restated with the same operand terms, so the two meet.
-/
import proofs.«158875_j46291157516821_1_alg».proof.Proof.Gen.KernelIdeal.Launch
import proofs.«158875_j46291157516821_1_alg».proof.Proof.RefReadP
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.ShloMosaic.StableHlo
open Idealize.SL Idealize.SL.Sem

/-! ## The rectifier calls -/

/-- The rectifier's call after layer 1's aggregation: its result buffer holds the maximum of the operand buffer and a
    broadcast zero, whatever the other buffers hold. -/
theorem relu_seg1 (V : Valuation τ sig (Elt Ideal)) :
    (StableHlo.after hostOps1_1 V main_v42 : (⟨S50000x256, .f32⟩ : BufTy).Contents (Elt Ideal))
      = maximumf (V main_v41 : (⟨S50000x256, .f32⟩ : BufTy).Contents (Elt Ideal)) (broadcastInDim S50000x256 ![] bcast_S_S50000x256 (constant (F := Ideal) S_ .f32 0x00000000#32)) := by
  after_results_simp
  simp only [TRef.toBuf, TRef.ofBuf, cast_eq]

/-- The rectifier's call after layer 3's aggregation: its result buffer holds the maximum of the operand buffer and a
    broadcast zero, whatever the other buffers hold. -/
theorem relu_seg3 (V : Valuation τ sig (Elt Ideal)) :
    (StableHlo.after hostOps3_1 V main_v67 : (⟨S50000x256, .f32⟩ : BufTy).Contents (Elt Ideal))
      = maximumf (V main_v66 : (⟨S50000x256, .f32⟩ : BufTy).Contents (Elt Ideal)) (broadcastInDim S50000x256 ![] bcast_S_S50000x256 (constant (F := Ideal) S_ .f32 0x00000000#32)) := by
  after_results_simp
  simp only [TRef.toBuf, TRef.ofBuf, cast_eq]

/-- The rectifier's call after layer 5's aggregation: its result buffer holds the maximum of the operand buffer and a
    broadcast zero, whatever the other buffers hold. -/
theorem relu_seg5 (V : Valuation τ sig (Elt Ideal)) :
    (StableHlo.after hostOps5_1 V main_v103 : (⟨S50000x256, .f32⟩ : BufTy).Contents (Elt Ideal))
      = maximumf (V main_v102 : (⟨S50000x256, .f32⟩ : BufTy).Contents (Elt Ideal)) (broadcastInDim S50000x256 ![] bcast_S_S50000x256 (constant (F := Ideal) S_ .f32 0x00000000#32)) := by
  after_results_simp
  simp only [TRef.toBuf, TRef.ofBuf, cast_eq]

/-- The reference's rectified stage, with the same second operand spelt out. -/
theorem ref_relu0 (x0 : (⟨S50000x128, .f32⟩ : BufTy).Contents (Elt Ideal)) (x2 x3 : (⟨S800000, .i32⟩ : BufTy).Contents (Elt Ideal)) (x4 : (⟨S128x256, .f32⟩ : BufTy).Contents (Elt Ideal)) (x5 : (⟨S256, .f32⟩ : BufTy).Contents (Elt Ideal)) :
    Cert.ReferenceIdeal.ReadP.val_main_v40 (F := Ideal) x0 x2 x3 x4 x5
      = maximumf (Cert.ReferenceIdeal.ReadP.val_main_v39 (F := Ideal) x0 x2 x3 x4 x5) (broadcastInDim S50000x256 ![] bcast_S_S50000x256 (constant (F := Ideal) S_ .f32 0x00000000#32)) := by
  unfold Cert.ReferenceIdeal.ReadP.val_main_v40 Cert.ReferenceIdeal.ReadP.val_main_call0_v0 Cert.ReferenceIdeal.ReadP.val_main_call0_cst
  rfl

/-- The reference's rectified stage, with the same second operand spelt out. -/
theorem ref_relu2 (x0 : (⟨S50000x128, .f32⟩ : BufTy).Contents (Elt Ideal)) (x1 : (⟨S7x50000x128, .f32⟩ : BufTy).Contents (Elt Ideal)) (x2 x3 : (⟨S800000, .i32⟩ : BufTy).Contents (Elt Ideal)) (x4 : (⟨S128x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x10 : (⟨S128x256, .f32⟩ : BufTy).Contents (Elt Ideal)) (x11 : (⟨S256, .f32⟩ : BufTy).Contents (Elt Ideal)) :
    Cert.ReferenceIdeal.ReadP.val_main_v67 (F := Ideal) x0 x1 x2 x3 x4 x5 x6 x7 x10 x11
      = maximumf (Cert.ReferenceIdeal.ReadP.val_main_v66 (F := Ideal) x0 x1 x2 x3 x4 x5 x6 x7 x10 x11) (broadcastInDim S50000x256 ![] bcast_S_S50000x256 (constant (F := Ideal) S_ .f32 0x00000000#32)) := by
  unfold Cert.ReferenceIdeal.ReadP.val_main_v67 Cert.ReferenceIdeal.ReadP.val_main_call2_v0 Cert.ReferenceIdeal.ReadP.val_main_call2_cst
  rfl

/-- The reference's rectified stage, with the same second operand spelt out. -/
theorem ref_relu4 (x0 : (⟨S50000x128, .f32⟩ : BufTy).Contents (Elt Ideal)) (x1 : (⟨S7x50000x128, .f32⟩ : BufTy).Contents (Elt Ideal)) (x2 x3 : (⟨S800000, .i32⟩ : BufTy).Contents (Elt Ideal)) (x4 : (⟨S128x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S512x256, .f32⟩ : BufTy).Contents (Elt Ideal)) (x9 : (⟨S256, .f32⟩ : BufTy).Contents (Elt Ideal)) (x10 : (⟨S128x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x16 : (⟨S2, .f32⟩ : BufTy).Contents (Elt Ideal)) :
    Cert.ReferenceIdeal.ReadP.val_main_v100 (F := Ideal) x0 x1 x2 x3 x4 x5 x6 x7 x8 x9 x10 x11 x12 x13 x16
      = maximumf (Cert.ReferenceIdeal.ReadP.val_main_v99 (F := Ideal) x0 x1 x2 x3 x4 x5 x6 x7 x8 x9 x10 x11 x12 x13 x16) (broadcastInDim S50000x256 ![] bcast_S_S50000x256 (constant (F := Ideal) S_ .f32 0x00000000#32)) := by
  unfold Cert.ReferenceIdeal.ReadP.val_main_v100 Cert.ReferenceIdeal.ReadP.val_main_call4_v0 Cert.ReferenceIdeal.ReadP.val_main_call4_cst
  rfl

/-! ## The final log-softmax call -/

/-- A row's entries less the row's maximum (the maximum taken from minus infinity and clamped below at it). -/
def lsmShift (x : (⟨S50000x40, .f32⟩ : BufTy).Contents (Elt Ideal)) : (⟨S50000x40, .f32⟩ : BufTy).Contents (Elt Ideal) :=
  subf x (broadcastInDim S50000x40 ![0, 1] bcast_S50000x1_S50000x40_0_1 (broadcastInDim S50000x1 ![0] bcast_S50000_S50000x1_0
    (maximumf (broadcastInDim S50000 ![] bcast_S_S50000 (constant (F := Ideal) S_ .f32 0xFF800000#32))
      (Host.reduce FloatOps.maximumf x (constant (F := Ideal) S_ .f32 0xFF800000#32) reducesTo_S50000x40_S50000_d1 h_S_))))

/-- The log-softmax along the rows, operation by operation: the shifted entries less the logarithm of the row sum of
    their exponentials. -/
def logSoftmaxK (x : (⟨S50000x40, .f32⟩ : BufTy).Contents (Elt Ideal)) : (⟨S50000x40, .f32⟩ : BufTy).Contents (Elt Ideal) :=
  subf (lsmShift x) (broadcastInDim S50000x40 ![0, 1] bcast_S50000x1_S50000x40_0_1 (Host.log (broadcastInDim S50000x1 ![0] bcast_S50000_S50000x1_0
    (Host.reduceAdd (Host.exp (lsmShift x)) (constant (F := Ideal) S_ .f32 0x00000000#32) reducesTo_S50000x40_S50000_d1 h_S_))))

/-- Reading back what was just stored at a typed reference gives the value stored. -/
theorem ofBuf_toBuf {Val : EltTy → Type} {T : BufTy} (x : TRef sig T) (v : T.Contents Val) : x.ofBuf (x.toBuf v) = v := by
  obtain ⟨r, h, _, _⟩ := x
  subst h
  rfl

/-- The log-softmax call's result buffer holds the log-softmax of its operand buffer. -/
theorem lsm_seg (V : Valuation τ sig (Elt Ideal)) :
    (StableHlo.after hostOps7_1 V main_v151 : (⟨S50000x40, .f32⟩ : BufTy).Contents (Elt Ideal)) = logSoftmaxK (V main_v150 : (⟨S50000x40, .f32⟩ : BufTy).Contents (Elt Ideal)) := by
  after_results
  simp only [ofBuf_toBuf]
  simp only [TRef.toBuf, TRef.ofBuf, cast_eq]
  rfl

/-- The reference's last stage is the same chain on its last-but-one stage. -/
theorem ref_lsm (x0 : (⟨S50000x128, .f32⟩ : BufTy).Contents (Elt Ideal)) (x1 : (⟨S7x50000x128, .f32⟩ : BufTy).Contents (Elt Ideal)) (x2 x3 : (⟨S800000, .i32⟩ : BufTy).Contents (Elt Ideal)) (x4 : (⟨S128x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S512x256, .f32⟩ : BufTy).Contents (Elt Ideal)) (x9 : (⟨S256, .f32⟩ : BufTy).Contents (Elt Ideal)) (x10 : (⟨S128x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S512x256, .f32⟩ : BufTy).Contents (Elt Ideal)) (x15 : (⟨S256, .f32⟩ : BufTy).Contents (Elt Ideal)) (x16 : (⟨S2, .f32⟩ : BufTy).Contents (Elt Ideal)) (x17 : (⟨S512x40, .f32⟩ : BufTy).Contents (Elt Ideal)) (x18 : (⟨S40, .f32⟩ : BufTy).Contents (Elt Ideal)) :
    Cert.ReferenceIdeal.ReadP.val_main_v133 (F := Ideal) x0 x1 x2 x3 x4 x5 x6 x7 x8 x9 x10 x11 x12 x13 x14 x15 x16 x17 x18 = logSoftmaxK (Cert.ReferenceIdeal.ReadP.val_main_v132 (F := Ideal) x0 x1 x2 x3 x4 x5 x6 x7 x8 x9 x10 x11 x12 x13 x14 x15 x16 x17 x18) := by
  unfold Cert.ReferenceIdeal.ReadP.val_main_v133 Cert.ReferenceIdeal.ReadP.val_main_call6_v10 Cert.ReferenceIdeal.ReadP.val_main_call6_v9 Cert.ReferenceIdeal.ReadP.val_main_call6_v8 Cert.ReferenceIdeal.ReadP.val_main_call6_v7 Cert.ReferenceIdeal.ReadP.val_main_call6_v6 Cert.ReferenceIdeal.ReadP.val_main_call6_v5 Cert.ReferenceIdeal.ReadP.val_main_call6_v4 Cert.ReferenceIdeal.ReadP.val_main_call6_v3 Cert.ReferenceIdeal.ReadP.val_main_call6_v2 Cert.ReferenceIdeal.ReadP.val_main_call6_v1 Cert.ReferenceIdeal.ReadP.val_main_call6_v0 Cert.ReferenceIdeal.ReadP.val_main_call6_cst Cert.ReferenceIdeal.ReadP.val_main_call6_cst_0 Cert.ReferenceIdeal.ReadP.val_main_call6_cst_1 logSoftmaxK lsmShift
  rfl

end Cert.Bridge
-- ==== Proof.KI.StageA.lean ====
/-
  Layer 0. The first product is the reference's (region 0); the aggregation over the edge list — gather at the
  sources, scale by the normalisation, scatter-add at the targets, add the bias, clamp at zero — is the reference's chain
  on equal operands; the layer's feature matrix is plane 0 of the feature array, and its dense layer (region 1) is the
  reference's product, bias and clamp.
-/
import proofs.«158875_j46291157516821_1_alg».proof.Proof.KI.Carry
import proofs.«158875_j46291157516821_1_alg».proof.Proof.KI.Stage0
import proofs.«158875_j46291157516821_1_alg».proof.Proof.KI.RegionVal
import proofs.«158875_j46291157516821_1_alg».proof.Proof.KI.CallSegs
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

theorem w2_v26 (c : Dev nD) : (W2 m c main_v26 : (⟨S50000x256, .f32⟩ : BufTy).Contents (Elt Ideal)) = val_main_v23 (F := Ideal) (a0 m c) (a4 m c) := by
  refine (W2_out m c).trans ?_
  unfold o2
  exact region0_val (atTc (W1 m)) c (a0 m c) (a4 m c) (carry_main_arg0_0_1 m c) (w1_v25 m c) (w1_v24 m c)

theorem w3_v41 (c : Dev nD) : (W3 m c main_v41 : (⟨S50000x256, .f32⟩ : BufTy).Contents (Elt Ideal)) = (val_main_v39 (F := Ideal) (a0 m c) (a2 m c) (a3 m c) (a4 m c) (a5 m c) : (⟨S50000x256, .f32⟩ : BufTy).Contents (Elt Ideal)) := by
  unfold W3; after_results_simp
  rw [carry_main_v1_1_2 m c, carry_main_v2_1_2 m c, carry_main_v23_1_2 m c, carry_main_arg5_0_2 m c, w1_v1 m c, w1_v2 m c, w1_v23 m c, w2_v26 m c]
  all_goals rfl

theorem w4_v42 (c : Dev nD) : (W4 m c main_v42 : (⟨S50000x256, .f32⟩ : BufTy).Contents (Elt Ideal)) = val_main_v40 (F := Ideal) (a0 m c) (a2 m c) (a3 m c) (a4 m c) (a5 m c) := by
  unfold W4
  refine (relu_seg1 (W3 m c)).trans ?_
  rw [w3_v41 m c]
  exact (ref_relu0 _ _ _ _ _).symm

theorem w5_v44 (c : Dev nD) : (W5 m c main_v44 : (⟨S50000x128, .f32⟩ : BufTy).Contents (Elt Ideal)) = (lfK0 (F := Ideal) (a1 m c) : (⟨S50000x128, .f32⟩ : BufTy).Contents (Elt Ideal)) := by
  have h : (W5 m c main_v44 : (⟨S50000x128, .f32⟩ : BufTy).Contents (Elt Ideal)) = (lfK0 (F := Ideal) (W4 m c main_arg1 : (⟨S7x50000x128, .f32⟩ : BufTy).Contents (Elt Ideal)) : (⟨S50000x128, .f32⟩ : BufTy).Contents (Elt Ideal)) := by
    unfold W5; after_results_simp <;> rfl
  rw [h, carry_main_arg1_0_4 m c]
  all_goals rfl

theorem w5_v45 (c : Dev nD) : (W5 m c main_v45 : (⟨S1x256, .f32⟩ : BufTy).Contents (Elt Ideal)) = (shapeCast S1x256 (a11 m c) shapeCasts_S256_S1x256 : (⟨S1x256, .f32⟩ : BufTy).Contents (Elt Ideal)) := by
  unfold W5; after_results_simp
  rw [carry_main_arg11_0_4 m c]
  all_goals rfl

theorem w5_v46 (c : Dev nD) : (W5 m c main_v46 : (⟨S128x256, .bf16⟩ : BufTy).Contents (Elt Ideal)) = (truncf (F := Ideal) .bf16 (a10 m c) bitsLt_bf16_f32 : (⟨S128x256, .bf16⟩ : BufTy).Contents (Elt Ideal)) := by
  unfold W5; after_results_simp
  rw [carry_main_arg10_0_4 m c]
  all_goals rfl

theorem w6_v47 (c : Dev nD) : (W6 m c main_v47 : (⟨S50000x256, .f32⟩ : BufTy).Contents (Elt Ideal)) = val_main_v48 (F := Ideal) (a1 m c) (a10 m c) (a11 m c) := by
  refine (W6_out m c).trans ?_
  unfold o6
  exact region1_val (atTc (W5 m)) c (a1 m c) (a10 m c) (a11 m c) (w5_v44 m c) (w5_v46 m c) (w5_v45 m c)

end Cert.Bridge

end
-- ==== Proof.KI.StageB.lean ====
/-
  Layer 1's first half. The concatenation of the layer-0 feature layer with the aggregated features is the same
  operation on equal operands, and its product with the next weights (region 2) is the reference's.
-/
import proofs.«158875_j46291157516821_1_alg».proof.Proof.KI.StageA
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

theorem w7_v48 (c : Dev nD) : (W7 m c main_v48 : (⟨S50000x512, .f32⟩ : BufTy).Contents (Elt Ideal)) = (val_main_v49 (F := Ideal) (a0 m c) (a1 m c) (a2 m c) (a3 m c) (a4 m c) (a5 m c) (a10 m c) (a11 m c) : (⟨S50000x512, .f32⟩ : BufTy).Contents (Elt Ideal)) := by
  unfold W7; after_results_simp
  rw [w6_v47 m c, carry_main_v42_4_6 m c, w4_v42 m c]
  all_goals rfl

theorem w7_v49 (c : Dev nD) : (W7 m c main_v49 : (⟨S1x256, .f32⟩ : BufTy).Contents (Elt Ideal)) = (broadcastInDim S1x256 ![] bcast_S_S1x256 (constant (F := Ideal) S_ .f32 0x00000000#32) : (⟨S1x256, .f32⟩ : BufTy).Contents (Elt Ideal)) := by
  unfold W7; after_results_simp <;> rfl

theorem w7_v50 (c : Dev nD) : (W7 m c main_v50 : (⟨S512x256, .bf16⟩ : BufTy).Contents (Elt Ideal)) = (truncf (F := Ideal) .bf16 (a6 m c) bitsLt_bf16_f32 : (⟨S512x256, .bf16⟩ : BufTy).Contents (Elt Ideal)) := by
  unfold W7; after_results_simp
  rw [carry_main_arg6_0_6 m c]
  all_goals rfl

theorem w8_v51 (c : Dev nD) : (W8 m c main_v51 : (⟨S50000x256, .f32⟩ : BufTy).Contents (Elt Ideal)) = val_main_v50 (F := Ideal) (a0 m c) (a1 m c) (a2 m c) (a3 m c) (a4 m c) (a5 m c) (a6 m c) (a10 m c) (a11 m c) := by
  refine (W8_out m c).trans ?_
  unfold o8
  exact (region2_val (atTc (W7 m)) c (val_main_v49 (F := Ideal) (a0 m c) (a1 m c) (a2 m c) (a3 m c) (a4 m c) (a5 m c) (a10 m c) (a11 m c)) (a6 m c) (w7_v48 m c) (w7_v50 m c) (w7_v49 m c)).trans rfl

end Cert.Bridge

end
-- ==== Proof.KI.StageC.lean ====
/-
  Layer 1's second half: the aggregation of region 2's product over the edge list, and the layer's feature matrix —
  planes 1 and 2, each scaled by its order weight, side by side — with its dense layer (region 3).
-/
import proofs.«158875_j46291157516821_1_alg».proof.Proof.KI.StageB
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

theorem w9_v66 (c : Dev nD) : (W9 m c main_v66 : (⟨S50000x256, .f32⟩ : BufTy).Contents (Elt Ideal)) = (val_main_v66 (F := Ideal) (a0 m c) (a1 m c) (a2 m c) (a3 m c) (a4 m c) (a5 m c) (a6 m c) (a7 m c) (a10 m c) (a11 m c) : (⟨S50000x256, .f32⟩ : BufTy).Contents (Elt Ideal)) := by
  unfold W9; after_results_simp
  rw [carry_main_v1_1_8 m c, carry_main_v2_1_8 m c, carry_main_v23_1_8 m c, carry_main_arg7_0_8 m c, w1_v1 m c, w1_v2 m c, w1_v23 m c, w8_v51 m c]
  all_goals rfl

theorem w10_v67 (c : Dev nD) : (W10 m c main_v67 : (⟨S50000x256, .f32⟩ : BufTy).Contents (Elt Ideal)) = val_main_v67 (F := Ideal) (a0 m c) (a1 m c) (a2 m c) (a3 m c) (a4 m c) (a5 m c) (a6 m c) (a7 m c) (a10 m c) (a11 m c) := by
  unfold W10
  refine (relu_seg3 (W9 m c)).trans ?_
  rw [w9_v66 m c]
  exact (ref_relu2 _ _ _ _ _ _ _ _ _ _).symm

theorem w11_v80 (c : Dev nD) : (W11 m c main_v80 : (⟨S50000x256, .f32⟩ : BufTy).Contents (Elt Ideal)) = (lfK1 (F := Ideal) (a1 m c) (a16 m c) : (⟨S50000x256, .f32⟩ : BufTy).Contents (Elt Ideal)) := by
  have h : (W11 m c main_v80 : (⟨S50000x256, .f32⟩ : BufTy).Contents (Elt Ideal)) = (lfK1 (F := Ideal) (W10 m c main_arg1 : (⟨S7x50000x128, .f32⟩ : BufTy).Contents (Elt Ideal)) (W10 m c main_arg16 : (⟨S2, .f32⟩ : BufTy).Contents (Elt Ideal)) : (⟨S50000x256, .f32⟩ : BufTy).Contents (Elt Ideal)) := by
    unfold W11; after_results_simp <;> rfl
  rw [h, carry_main_arg1_0_10 m c, carry_main_arg16_0_10 m c]
  all_goals rfl

theorem w11_v81 (c : Dev nD) : (W11 m c main_v81 : (⟨S1x256, .f32⟩ : BufTy).Contents (Elt Ideal)) = (shapeCast S1x256 (a13 m c) shapeCasts_S256_S1x256 : (⟨S1x256, .f32⟩ : BufTy).Contents (Elt Ideal)) := by
  unfold W11; after_results_simp
  rw [carry_main_arg13_0_10 m c]
  all_goals rfl

theorem w11_v82 (c : Dev nD) : (W11 m c main_v82 : (⟨S256x256, .bf16⟩ : BufTy).Contents (Elt Ideal)) = (truncf (F := Ideal) .bf16 (a12 m c) bitsLt_bf16_f32 : (⟨S256x256, .bf16⟩ : BufTy).Contents (Elt Ideal)) := by
  unfold W11; after_results_simp
  rw [carry_main_arg12_0_10 m c]
  all_goals rfl

theorem w12_v83 (c : Dev nD) : (W12 m c main_v83 : (⟨S50000x256, .f32⟩ : BufTy).Contents (Elt Ideal)) = val_main_v81 (F := Ideal) (a1 m c) (a12 m c) (a13 m c) (a16 m c) := by
  refine (W12_out m c).trans ?_
  unfold o12
  exact region3_val (atTc (W11 m)) c (a1 m c) (a12 m c) (a13 m c) (a16 m c) (w11_v80 m c) (w11_v82 m c) (w11_v81 m c)

end Cert.Bridge

end
-- ==== Proof.KI.StageD.lean ====
/-
  Layer 2's first half: concatenation and the product with the next weights (region 4).
-/
import proofs.«158875_j46291157516821_1_alg».proof.Proof.KI.StageC
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

theorem w13_v84 (c : Dev nD) : (W13 m c main_v84 : (⟨S50000x512, .f32⟩ : BufTy).Contents (Elt Ideal)) = (val_main_v82 (F := Ideal) (a0 m c) (a1 m c) (a2 m c) (a3 m c) (a4 m c) (a5 m c) (a6 m c) (a7 m c) (a10 m c) (a11 m c) (a12 m c) (a13 m c) (a16 m c) : (⟨S50000x512, .f32⟩ : BufTy).Contents (Elt Ideal)) := by
  unfold W13; after_results_simp
  rw [w12_v83 m c, carry_main_v67_10_12 m c, w10_v67 m c]
  all_goals rfl

theorem w13_v85 (c : Dev nD) : (W13 m c main_v85 : (⟨S1x256, .f32⟩ : BufTy).Contents (Elt Ideal)) = (broadcastInDim S1x256 ![] bcast_S_S1x256 (constant (F := Ideal) S_ .f32 0x00000000#32) : (⟨S1x256, .f32⟩ : BufTy).Contents (Elt Ideal)) := by
  unfold W13; after_results_simp <;> rfl

theorem w13_v86 (c : Dev nD) : (W13 m c main_v86 : (⟨S512x256, .bf16⟩ : BufTy).Contents (Elt Ideal)) = (truncf (F := Ideal) .bf16 (a8 m c) bitsLt_bf16_f32 : (⟨S512x256, .bf16⟩ : BufTy).Contents (Elt Ideal)) := by
  unfold W13; after_results_simp
  rw [carry_main_arg8_0_12 m c]
  all_goals rfl

theorem w14_v87 (c : Dev nD) : (W14 m c main_v87 : (⟨S50000x256, .f32⟩ : BufTy).Contents (Elt Ideal)) = val_main_v83 (F := Ideal) (a0 m c) (a1 m c) (a2 m c) (a3 m c) (a4 m c) (a5 m c) (a6 m c) (a7 m c) (a8 m c) (a10 m c) (a11 m c) (a12 m c) (a13 m c) (a16 m c) := by
  refine (W14_out m c).trans ?_
  unfold o14
  exact (region4_val (atTc (W13 m)) c (val_main_v82 (F := Ideal) (a0 m c) (a1 m c) (a2 m c) (a3 m c) (a4 m c) (a5 m c) (a6 m c) (a7 m c) (a10 m c) (a11 m c) (a12 m c) (a13 m c) (a16 m c)) (a8 m c) (w13_v84 m c) (w13_v86 m c) (w13_v85 m c)).trans rfl

end Cert.Bridge

end
-- ==== Proof.KI.StageE.lean ====
/-
  Layer 2's second half: the aggregation of region 4's product, and the layer's feature matrix — planes 3 to 6
  scaled by the order weights in turn, side by side — with its dense layer (region 5).
-/
import proofs.«158875_j46291157516821_1_alg».proof.Proof.KI.StageD
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

theorem w15_v102 (c : Dev nD) : (W15 m c main_v102 : (⟨S50000x256, .f32⟩ : BufTy).Contents (Elt Ideal)) = (val_main_v99 (F := Ideal) (a0 m c) (a1 m c) (a2 m c) (a3 m c) (a4 m c) (a5 m c) (a6 m c) (a7 m c) (a8 m c) (a9 m c) (a10 m c) (a11 m c) (a12 m c) (a13 m c) (a16 m c) : (⟨S50000x256, .f32⟩ : BufTy).Contents (Elt Ideal)) := by
  unfold W15; after_results_simp
  rw [carry_main_v1_1_14 m c, carry_main_v2_1_14 m c, carry_main_v23_1_14 m c, carry_main_arg9_0_14 m c, w1_v1 m c, w1_v2 m c, w1_v23 m c, w14_v87 m c]
  all_goals rfl

theorem w16_v103 (c : Dev nD) : (W16 m c main_v103 : (⟨S50000x256, .f32⟩ : BufTy).Contents (Elt Ideal)) = val_main_v100 (F := Ideal) (a0 m c) (a1 m c) (a2 m c) (a3 m c) (a4 m c) (a5 m c) (a6 m c) (a7 m c) (a8 m c) (a9 m c) (a10 m c) (a11 m c) (a12 m c) (a13 m c) (a16 m c) := by
  unfold W16
  refine (relu_seg5 (W15 m c)).trans ?_
  rw [w15_v102 m c]
  exact (ref_relu4 _ _ _ _ _ _ _ _ _ _ _ _ _ _ _).symm

theorem w17_v128 (c : Dev nD) : (W17 m c main_v128 : (⟨S50000x512, .f32⟩ : BufTy).Contents (Elt Ideal)) = (lfK2 (F := Ideal) (a1 m c) (a16 m c) : (⟨S50000x512, .f32⟩ : BufTy).Contents (Elt Ideal)) := by
  have h : (W17 m c main_v128 : (⟨S50000x512, .f32⟩ : BufTy).Contents (Elt Ideal)) = (lfK2 (F := Ideal) (W16 m c main_arg1 : (⟨S7x50000x128, .f32⟩ : BufTy).Contents (Elt Ideal)) (W16 m c main_arg16 : (⟨S2, .f32⟩ : BufTy).Contents (Elt Ideal)) : (⟨S50000x512, .f32⟩ : BufTy).Contents (Elt Ideal)) := by
    unfold W17; after_results_simp <;> rfl
  rw [h, carry_main_arg1_0_16 m c, carry_main_arg16_0_16 m c]
  all_goals rfl

theorem w17_v129 (c : Dev nD) : (W17 m c main_v129 : (⟨S1x256, .f32⟩ : BufTy).Contents (Elt Ideal)) = (shapeCast S1x256 (a15 m c) shapeCasts_S256_S1x256 : (⟨S1x256, .f32⟩ : BufTy).Contents (Elt Ideal)) := by
  unfold W17; after_results_simp
  rw [carry_main_arg15_0_16 m c]
  all_goals rfl

theorem w17_v130 (c : Dev nD) : (W17 m c main_v130 : (⟨S512x256, .bf16⟩ : BufTy).Contents (Elt Ideal)) = (truncf (F := Ideal) .bf16 (a14 m c) bitsLt_bf16_f32 : (⟨S512x256, .bf16⟩ : BufTy).Contents (Elt Ideal)) := by
  unfold W17; after_results_simp
  rw [carry_main_arg14_0_16 m c]
  all_goals rfl

theorem w18_v131 (c : Dev nD) : (W18 m c main_v131 : (⟨S50000x256, .f32⟩ : BufTy).Contents (Elt Ideal)) = val_main_v114 (F := Ideal) (a1 m c) (a14 m c) (a15 m c) (a16 m c) := by
  refine (W18_out m c).trans ?_
  unfold o18
  exact region5_val (atTc (W17 m)) c (a1 m c) (a14 m c) (a15 m c) (a16 m c) (w17_v128 m c) (w17_v130 m c) (w17_v129 m c)

end Cert.Bridge

end
-- ==== Proof.KI.StageF.lean ====
/-
  The classifier's product: concatenation and the product with the classifier weights (region 6).
-/
import proofs.«158875_j46291157516821_1_alg».proof.Proof.KI.StageE
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

theorem w19_v132 (c : Dev nD) : (W19 m c main_v132 : (⟨S50000x512, .f32⟩ : BufTy).Contents (Elt Ideal)) = (val_main_v115 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) : (⟨S50000x512, .f32⟩ : BufTy).Contents (Elt Ideal)) := by
  unfold W19; after_results_simp
  rw [w18_v131 m c, carry_main_v103_16_18 m c, w16_v103 m c]
  all_goals rfl

theorem w19_v133 (c : Dev nD) : (W19 m c main_v133 : (⟨S1x40, .f32⟩ : BufTy).Contents (Elt Ideal)) = (broadcastInDim S1x40 ![] bcast_S_S1x40 (constant (F := Ideal) S_ .f32 0x00000000#32) : (⟨S1x40, .f32⟩ : BufTy).Contents (Elt Ideal)) := by
  unfold W19; after_results_simp <;> rfl

theorem w19_v134 (c : Dev nD) : (W19 m c main_v134 : (⟨S512x40, .bf16⟩ : BufTy).Contents (Elt Ideal)) = (truncf (F := Ideal) .bf16 (a17 m c) bitsLt_bf16_f32 : (⟨S512x40, .bf16⟩ : BufTy).Contents (Elt Ideal)) := by
  unfold W19; after_results_simp
  rw [carry_main_arg17_0_18 m c]
  all_goals rfl

theorem w20_v135 (c : Dev nD) : (W20 m c main_v135 : (⟨S50000x40, .f32⟩ : BufTy).Contents (Elt Ideal)) = val_main_v116 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  refine (W20_out m c).trans ?_
  unfold o20
  exact (region6_val (atTc (W19 m)) c (val_main_v115 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c)) (a17 m c) (w19_v132 m c) (w19_v134 m c) (w19_v133 m c)).trans rfl

end Cert.Bridge

end
-- ==== Proof.KI.StageG.lean ====
/-
  The classifier's aggregation over the edge list gives the logits, and the row-wise log-softmax of the logits the
  first result: both are the reference's chains on equal operands.
-/
import proofs.«158875_j46291157516821_1_alg».proof.Proof.KI.StageF
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

theorem w21_v150 (c : Dev nD) : (W21 m c main_v150 : (⟨S50000x40, .f32⟩ : BufTy).Contents (Elt Ideal)) = (val_main_v132 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) : (⟨S50000x40, .f32⟩ : BufTy).Contents (Elt Ideal)) := by
  unfold W21; after_results_simp
  rw [carry_main_v1_1_20 m c, carry_main_v2_1_20 m c, carry_main_v23_1_20 m c, carry_main_arg18_0_20 m c, w1_v1 m c, w1_v2 m c, w1_v23 m c, w20_v135 m c]
  all_goals rfl

theorem w22_v150 (c : Dev nD) : (W22 m c main_v150 : (⟨S50000x40, .f32⟩ : BufTy).Contents (Elt Ideal)) = val_main_v132 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) :=
  (carry_main_v150_21_22 m c).trans (w21_v150 m c)

theorem w22_v151 (c : Dev nD) : (W22 m c main_v151 : (⟨S50000x40, .f32⟩ : BufTy).Contents (Elt Ideal)) = val_main_v133 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
  unfold W22
  refine (lsm_seg (W21 m c)).trans ?_
  rw [w21_v150 m c]
  exact (ref_lsm _ _ _ _ _ _ _ _ _ _ _ _ _ _ _ _ _ _ _).symm

end Cert.Bridge

end
-- ==== Proof.KI.Final.lean ====
/-
  The value claim. The kernel's program ends with its two result arrays at the fold's last contents, which are the
  reference's last two stages of the arguments; the reference's run ends at those stages of its own arguments; and the
  two memories agree on the arguments.
-/
import proofs.«158875_j46291157516821_1_alg».proof.Proof.KI.StageG
import proofs.«158875_j46291157516821_1_alg».proof.Proof.KI.Run
import proofs.«158875_j46291157516821_1_alg».proof.Proof.RefRunT
import proofs.«158875_j46291157516821_1_alg».proof.Defs
import proofs.«158875_j46291157516821_1_alg».proof.Proof.Gen.Pre_finite_inputs
import Idealize.ShloMosaic.Lib.StableHlo.Run

set_option maxRecDepth 16384

noncomputable section

namespace Cert.Bridge

open Cert.KernelIdeal Cert.KernelIdeal.Gen Cert.KernelIdeal.Fold
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

/-- From memories agreeing on the arguments both programs end with equal results. -/
theorem algebraic : Cert.algebraic_KernelIdeal_ReferenceIdeal := by
  intro m ρ m' ρ' _ hagree
  refine ⟨fun c => W22 m c main_v151, fun c => W22 m c main_v150, Cert.KernelIdeal.Fold.run_results m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v133_eq]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    exact (w22_v151 m c).symm
  · rw [Cert.ReferenceIdeal.ReadP.val_main_v132_eq]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    exact (w22_v150 m c).symm

end Cert.Bridge

end
-- ==== Proof.lean ====
/-
  A three-layer graph network: every dense product is a row-blocked matrix-multiply kernel (seven of them), and
  the edge normalisation, the gathers and scatter-adds over the self-looped edge list, the concatenations and the final
  log-softmax are host operations around them. Against the plain reference — the same host operations around seven
  `dot_general`s — the two programs agree at the idealized instance: a kernel's output array is, entry by entry,
  `∑ k, A r k · W k n + b n` (clamped at zero for the three feature layers), which is what the reference's
  product-then-add(-then-maximum) computes; the kernel's per-plane scaled slices concatenated along the feature axis
  are the reference's scaled block of planes transposed and flattened; everything else is the same chain of operations
  on equal operands. Each program runs to the end without a fault and leaves its arguments unchanged.
-/
import proofs.«158875_j46291157516821_1_alg».proof.Defs
import proofs.«158875_j46291157516821_1_alg».proof.Proof.Gen.Kernel
import proofs.«158875_j46291157516821_1_alg».proof.Proof.Gen.KernelIdeal
import proofs.«158875_j46291157516821_1_alg».proof.Proof.Gen.ReferenceIdeal
import proofs.«158875_j46291157516821_1_alg».proof.Proof.Gen.Pre_finite_inputs
import proofs.«158875_j46291157516821_1_alg».proof.Proof.RefRunT
import proofs.«158875_j46291157516821_1_alg».proof.Proof.K.Run
import proofs.«158875_j46291157516821_1_alg».proof.Proof.KI.Run
import proofs.«158875_j46291157516821_1_alg».proof.Proof.KI.Final
import Idealize.ShloMosaic.Adequacy
import Idealize.ShloMosaic.Init

noncomputable section

namespace Cert.Proof

open Idealize.ShloMosaic Idealize.SL.Sem

/-- The word-level program's frame: its run through the seven regions. -/
theorem frame_k : Cert.frame_Kernel := fun m ρ _ => Cert.Kernel.Fold.frame m ρ
/-- The idealized program's frame. -/
theorem frame_ki : Cert.frame_KernelIdeal := fun m ρ _ => Cert.KernelIdeal.Fold.frame m ρ
/-- The reference's frame: its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
